-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x23x30 : Shape := ⟨4, ![4, 256, 23, 30]⟩
abbrev S4x128x5 : Shape := ⟨3, ![4, 128, 5]⟩
abbrev S256x12544 : Shape := ⟨2, ![256, 12544]⟩
abbrev S256 : Shape := ⟨1, ![256]⟩
abbrev S5x256 : Shape := ⟨2, ![5, 256]⟩
abbrev S5 : Shape := ⟨1, ![5]⟩
abbrev S_ : Shape := ⟨0, ![]⟩

class Facts : Prop where
  bcast_S_S4x256x23x30 : S_.BroadcastsInDim S4x256x23x30 (![] : Fin 0 → Fin S4x256x23x30.rank)
  reducesTo_S4x256x23x30_S_d0_1_2_3 : S4x256x23x30.ReducesTo [0, 1, 2, 3] S_
  h_S_ : 0 < S_.numel
  bcast_S_S4x128x5 : S_.BroadcastsInDim S4x128x5 (![] : Fin 0 → Fin S4x128x5.rank)
  reducesTo_S4x128x5_S_d0_1_2 : S4x128x5.ReducesTo [0, 1, 2] S_
  bcast_S_S256x12544 : S_.BroadcastsInDim S256x12544 (![] : Fin 0 → Fin S256x12544.rank)
  reducesTo_S256x12544_S_d0_1 : S256x12544.ReducesTo [0, 1] S_
  bcast_S_S256 : S_.BroadcastsInDim S256 (![] : Fin 0 → Fin S256.rank)
  reducesTo_S256_S_d0 : S256.ReducesTo [0] S_
  bcast_S_S5x256 : S_.BroadcastsInDim S5x256 (![] : Fin 0 → Fin S5x256.rank)
  reducesTo_S5x256_S_d0_1 : S5x256.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S5x256 .f32) (main_arg5 : FVec F S5 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S5x256 .f32 := Host.absf main_arg4
  let main_cst_6 : FVec F S_ .f32 := constant S_ .f32 0x7F800000#32
  let main_v20 : FVec F S5x256 .f32 := broadcastInDim S5x256 ![] bcast_S_S5x256 main_cst_6
  let main_v21 : IVec S5x256 1 := cmpf .olt main_v19 main_v20
  let main_c_7 : IVec S_ 1 := constantI S_ 1 1#1
  let main_v22 : IVec S_ 1 := (fun x v => Host.reduce IntOp.andi x v reducesTo_S5x256_S_d0_1 h_S_) main_v21 main_c_7
  let main_v23 : IVec S_ 1 := andi main_v18 main_v22
  let main_v24 : FVec F S5 .f32 := Host.absf main_arg5
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  main_v28

def fn {F : FTy → Type} [FloatOps F] (main_arg0 : FVec F S4x256x23x30 .f32) (main_arg1 : FVec F S4x128x5 .f32) (main_arg2 : FVec F S256x12544 .f32) (main_arg3 : FVec F S256 .f32) (main_arg4 : FVec F S5x256 .f32) (main_arg5 : FVec F S5 .f32) : IVec S_ 1 :=
  let main_v0 : FVec F S4x256x23x30 .f32 := Host.absf main_arg0
  let main_cst : FVec F S_ .f32 := constant S_ .f32 0x7F800000#32
  let main_v1 : FVec F S4x256x23x30 .f32 := broadcastInDim S4x256x23x30 ![] bcast_S_S4x256x23x30 main_cst
  let main_v2 : IVec S4x256x23x30 1 := cmpf .olt main_v0 main_v1
  let main_c : IVec S_ 1 := constantI S_ 1 1#1
  let main_v3 : IVec S_ 1 := (fun x v => Host.reduce IntOp.andi x v reducesTo_S4x256x23x30_S_d0_1_2_3 h_S_) main_v2 main_c
  let main_v4 : FVec F S4x128x5 .f32 := Host.absf main_arg1
  let main_cst_0 : FVec F S_ .f32 := constant S_ .f32 0x7F800000#32
  let main_v5 : FVec F S4x128x5 .f32 := broadcastInDim S4x128x5 ![] bcast_S_S4x128x5 main_cst_0
  let main_v6 : IVec S4x128x5 1 := cmpf .olt main_v4 main_v5
  let main_c_1 : IVec S_ 1 := constantI S_ 1 1#1
  let main_v7 : IVec S_ 1 := (fun x v => Host.reduce IntOp.andi x v reducesTo_S4x128x5_S_d0_1_2 h_S_) main_v6 main_c_1
  let main_v8 : IVec S_ 1 := andi main_v3 main_v7
  let main_v9 : FVec F S256x12544 .f32 := Host.absf main_arg2
  let main_cst_2 : FVec F S_ .f32 := constant S_ .f32 0x7F800000#32
  let main_v10 : FVec F S256x12544 .f32 := broadcastInDim S256x12544 ![] bcast_S_S256x12544 main_cst_2
  let main_v11 : IVec S256x12544 1 := cmpf .olt main_v9 main_v10
  let main_c_3 : IVec S_ 1 := constantI S_ 1 1#1
  let main_v12 : IVec S_ 1 := (fun x v => Host.reduce IntOp.andi x v reducesTo_S256x12544_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4x256x23x30 : Shape := ⟨4, ![4, 256, 23, 30]⟩
abbrev S4x128x5 : Shape := ⟨3, ![4, 128, 5]⟩
abbrev S256x12544 : Shape := ⟨2, ![256, 12544]⟩
abbrev S256 : Shape := ⟨1, ![256]⟩
abbrev S5x256 : Shape := ⟨2, ![5, 256]⟩
abbrev S5 : Shape := ⟨1, ![5]⟩
abbrev S4x128x4 : Shape := ⟨3, ![4, 128, 4]⟩
abbrev S_ : Shape := ⟨0, ![]⟩
abbrev S4x128x1 : Shape := ⟨3, ![4, 128, 1]⟩
abbrev S4x128 : Shape := ⟨2, ![4, 128]⟩
abbrev S7 : Shape := ⟨1, ![7]⟩
abbrev S1x7 : Shape := ⟨2, ![1, 7]⟩
abbrev S1x1x7 : Shape := ⟨3, ![1, 1, 7]⟩
abbrev S4x128x7 : Shape := ⟨3, ![4, 128, 7]⟩
abbrev S4x128x7x1 : Shape := ⟨4, ![4, 128, 7, 1]⟩
abbrev S1x5 : Shape := ⟨2, ![1, 5]⟩
abbrev S1x1x5 : Shape := ⟨3, ![1, 1, 5]⟩
abbrev S1x1x1x5 : Shape := ⟨4, ![1, 1, 1, 5]⟩
abbrev S4x128x7x5 : Shape := ⟨4, ![4, 128, 7, 5]⟩
abbrev S6 : Shape := ⟨1, ![6]⟩
abbrev S1x6 : Shape := ⟨2, ![1, 6]⟩
abbrev S1x1x6 : Shape := ⟨3, ![1, 1, 6]⟩
abbrev S1x1x1x6 : Shape := ⟨4, ![1, 1, 1, 6]⟩
abbrev S4x128x7x6 : Shape := ⟨4, ![4, 128, 7, 6]⟩
abbrev S4x128x7x5x1 : Shape := ⟨5, ![4, 128, 7, 5, 1]⟩
abbrev S4x128x256x7x5x30 : Shape := ⟨6, ![4, 128, 256, 7, 5, 30]⟩
abbrev S4x128x1x7x5x1 : Shape := ⟨6, ![4, 128, 1, 7, 5, 1]⟩
abbrev S256x7x5x30 : Shape := ⟨4, ![256, 7, 5, 30]⟩
abbrev S128x256x7x5x30 : Shape := ⟨5, ![128, 256, 7, 5, 30]⟩
abbrev S4x128x256x7x30 : Shape := ⟨5, ![4, 128, 256, 7, 30]⟩
abbrev S4x128x7x6x1 : Shape := ⟨5, ![4, 128, 7, 6, 1]⟩
abbrev S4x128x256x7x7x6 : Shape := ⟨6, ![4, 128, 256, 7, 7, 6]⟩
abbrev S4x128x1x1x7x6 : Shape := ⟨6, ![4, 128, 1, 1, 7, 6]⟩
abbrev S256x7x7x6 : Shape := ⟨4, ![256, 7, 7, 6]⟩
abbrev S128x256x7x7x6 : Shape := ⟨5, ![128, 256, 7, 7, 6]⟩
abbrev S4x128x256x7x7 : Shape := ⟨5, ![4, 128, 256, 7, 7]⟩
abbrev S4x128x12544 : Shape := ⟨3, ![4, 128, 12544]⟩
abbrev S512x12544 : Shape := ⟨2, ![512, 12544]⟩
abbrev S12544x256 : Shape := ⟨2, ![12544, 256]⟩
abbrev S256x5 : Shape := ⟨2, ![256, 5]⟩
abbrev S512x5 : Shape := ⟨2, ![512, 5]⟩
abbrev S128x12544 : Shape := ⟨2, ![128, 12544]⟩
abbrev S128x5 : Shape := ⟨2, ![128, 5]⟩
abbrev S128x256 : Shape := ⟨2, ![128, 256]⟩
abbrev S1x256 : Shape := ⟨2, ![1, 256]⟩
abbrev S128x4 : Shape := ⟨2, ![128, 4]⟩
abbrev S128x1 : Shape := ⟨2, ![128, 1]⟩

abbrev nBuf : Space → Nat
  | .hbm => 282
  | .vmem => 10
  | .smem => 0
  | _ => 0

abbrev hbmTy0_0 (i : Nat) : BufTy := match i % 128 with
  | 0 => ⟨S4x256x23x30, .f32⟩
  | 1 => ⟨S4x128x5, .f32⟩
  | 2 => ⟨S256x12544, .f32⟩
  | 3 => ⟨S256, .f32⟩
  | 4 => ⟨S5x256, .f32⟩
  | 5 => ⟨S5, .f32⟩
  | 6 => ⟨S4x128x4, .f32⟩
  | 7 => ⟨S_, .f32⟩
  | 8 => ⟨S4x128x4, .f32⟩
  | 9 => ⟨S4x128x4, .f32⟩
  | 10 => ⟨S4x128x1, .f32⟩
  | 11 => ⟨S4x128, .f32⟩
  | 12 => ⟨S4x128, .f32⟩
  | 13 => ⟨S4x128, .i32⟩
  | 14 => ⟨S_, .i32⟩
  | 15 => ⟨S_, .i32⟩
  | 16 => ⟨S_, .i32⟩
  | 17 => ⟨S4x128, .i32⟩
  | 18 => ⟨S4x128, .i32⟩
  | 19 => ⟨S_, .i32⟩
  | 20 => ⟨S4x128, .i32⟩
  | 21 => ⟨S4x128, .i32⟩
  | 22 => ⟨S4x128x1, .f32⟩
  | 23 => ⟨S4x128, .f32⟩
  | 24 => ⟨S4x128, .f32⟩
  | 25 => ⟨S4x128, .i32⟩
  | 26 => ⟨S_, .i32⟩
  | 27 => ⟨S_, .i32⟩
  | 28 => ⟨S_, .i32⟩
  | 29 => ⟨S4x128, .i32⟩
  | 30 => ⟨S4x128, .i32⟩
  | 31 => ⟨S_, .i32⟩
  | 32 => ⟨S4x128, .i32⟩
  | 33 => ⟨S4x128, .i32⟩
  | 34 => ⟨S4x128x1, .f32⟩
  | 35 => ⟨S4x128, .f32⟩
  | 36 => ⟨S4x128, .f32⟩
  | 37 => ⟨S4x128, .i32⟩
  | 38 => ⟨S4x128, .i32⟩
  | 39 => ⟨S_, .i32⟩
  | 40 => ⟨S_, .i32⟩
  | 41 => ⟨S_, .i32⟩
  | 42 => ⟨S4x128, .i32⟩
  | 43 => ⟨S4x128, .i32⟩
  | 44 => ⟨S_, .i32⟩
  | 45 => ⟨S4x128, .i32⟩
  | 46 => ⟨S4x128, .i32⟩
  | 47 => ⟨S4x128x1, .f32⟩
  | 48 => ⟨S4x128, .f32⟩
  | 49 => ⟨S4x128, .f32⟩
  | 50 => ⟨S4x128, .i32⟩
  | 51 => ⟨S4x128, .i32⟩
  | 52 => ⟨S_, .i32⟩
  | 53 => ⟨S_, .i32⟩
  | 54 => ⟨S_, .i32⟩
  | 55 => ⟨S4x128, .i32⟩
  | 56 => ⟨S4x128, .i32⟩
  | 57 => ⟨S_, .i32⟩
  | 58 => ⟨S4x128, .i32⟩
  | 59 => ⟨S4x128, .i32⟩
  | 60 => ⟨S7, .i32⟩
  | 61 => ⟨S7, .i32⟩
  | 62 => ⟨S1x7, .i32⟩
  | 63 => ⟨S4x128x1, .i32⟩
  | 64 => ⟨S1x1x7, .i32⟩
  | 65 => ⟨S4x128x7, .i32⟩
  | 66 => ⟨S4x128x7, .i32⟩
  | 67 => ⟨S4x128x7, .i32⟩
  | 68 => ⟨S_, .i32⟩
  | 69 => ⟨S_, .i32⟩
  | 70 => ⟨S4x128x7, .i32⟩
  | 71 => ⟨S4x128x7, .i32⟩
  | 72 => ⟨S4x128x7, .i32⟩
  | 73 => ⟨S_, .i32⟩
  | 74 => ⟨S4x128x7, .i32⟩
  | 75 => ⟨S4x128x7, .i1⟩
  | 76 => ⟨S4x128x7, .i32⟩
  | 77 => ⟨S4x128x7, .i32⟩
  | 78 => ⟨S_, .i32⟩
  | 79 => ⟨S4x128x7, .i32⟩
  | 80 => ⟨S4x128x7, .i1⟩
  | 81 => ⟨S4x128x7, .i1⟩
  | 82 => ⟨S_, .i32⟩
  | 83 => ⟨S4x128x7, .i32⟩
  | 84 => ⟨S4x128x7, .i32⟩
  | 85 => ⟨S4x128x7, .i32⟩
  | 86 => ⟨S4x128x1, .i32⟩
  | 87 => ⟨S4x128x7, .i32⟩
  | 88 => ⟨S4x128x7, .i32⟩
  | 89 => ⟨S_, .i32⟩
  | 90 => ⟨S7, .i32⟩
  | 91 => ⟨S7, .i32⟩
  | 92 => ⟨S1x7, .i32⟩
  | 93 => ⟨S4x128x1, .i32⟩
  | 94 => ⟨S1x1x7, .i32⟩
  | 95 => ⟨S4x128x7, .i32⟩
  | 96 => ⟨S4x128x7, .i32⟩
  | 97 => ⟨S4x128x7, .i32⟩
  | 98 => ⟨S_, .i32⟩
  | 99 => ⟨S4x128x7, .i32⟩
  | 100 => ⟨S4x128x7, .i32⟩
  | 101 => ⟨S_, .i32⟩
  | 102 => ⟨S4x128x7, .i32⟩
  | 103 => ⟨S4x128x7, .i32⟩
  | 104 => ⟨S_, .i32⟩
  | 105 => ⟨S_, .i32⟩
  | 106 => ⟨S4x128x7, .i32⟩
  | 107 => ⟨S4x128x7, .i32⟩
  | 108 => ⟨S4x128x7, .i32⟩
  | 109 => ⟨S_, .i32⟩
  | 110 => ⟨S4x128x7, .i32⟩
  | 111 => ⟨S4x128x7, .i1⟩
  | 112 => ⟨S4x128x7, .i32⟩
  | 113 => ⟨S4x128x7, .i32⟩
  | 114 => ⟨S_, .i32⟩
  | 115 => ⟨S4x128x7, .i32⟩
  | 116 => ⟨S4x128x7, .i1⟩
  | 117 => ⟨S4x128x7, .i1⟩
  | 118 => ⟨S_, .i32⟩
  | 119 => ⟨S4x128x7, .i32⟩
  | 120 => ⟨S4x128x7, .i32⟩
  | 121 => ⟨S4x128x7, .i32⟩
  | 122 => ⟨S4x128x1, .i32⟩
  | 123 => ⟨S4x128x7, .i32⟩
  | 124 => ⟨S4x128x7, .i32⟩
  | 125 => ⟨S1x7, .i32⟩
  | 126 => ⟨S4x128x1, .i32⟩
  | 127 => ⟨S1x1x7, .i32⟩
  | _ => ⟨S4x256x23x30, .f32⟩

abbrev hbmTy0_1 (i : Nat) : BufTy := match i % 128 with
  | 0 => ⟨S4x128x7, .i32⟩
  | 1 => ⟨S4x128x7, .i32⟩
  | 2 => ⟨S4x128x7, .i32⟩
  | 3 => ⟨S_, .i32⟩
  | 4 => ⟨S_, .i32⟩
  | 5 => ⟨S4x128x7, .i32⟩
  | 6 => ⟨S4x128x7, .i32⟩
  | 7 => ⟨S4x128x7, .i32⟩
  | 8 => ⟨S_, .i32⟩
  | 9 => ⟨S4x128x7, .i32⟩
  | 10 => ⟨S4x128x7, .i1⟩
  | 11 => ⟨S4x128x7, .i32⟩
  | 12 => ⟨S4x128x7, .i32⟩
  | 13 => ⟨S_, .i32⟩
  | 14 => ⟨S4x128x7, .i32⟩
  | 15 => ⟨S4x128x7, .i1⟩
  | 16 => ⟨S4x128x7, .i1⟩
  | 17 => ⟨S_, .i32⟩
  | 18 => ⟨S4x128x7, .i32⟩
  | 19 => ⟨S4x128x7, .i32⟩
  | 20 => ⟨S4x128x7, .i32⟩
  | 21 => ⟨S4x128x1, .i32⟩
  | 22 => ⟨S4x128x7, .i32⟩
  | 23 => ⟨S4x128x7, .i32⟩
  | 24 => ⟨S_, .i32⟩
  | 25 => ⟨S7, .i32⟩
  | 26 => ⟨S7, .i32⟩
  | 27 => ⟨S1x7, .i32⟩
  | 28 => ⟨S4x128x1, .i32⟩
  | 29 => ⟨S1x1x7, .i32⟩
  | 30 => ⟨S4x128x7, .i32⟩
  | 31 => ⟨S4x128x7, .i32⟩
  | 32 => ⟨S4x128x7, .i32⟩
  | 33 => ⟨S_, .i32⟩
  | 34 => ⟨S4x128x7, .i32⟩
  | 35 => ⟨S4x128x7, .i32⟩
  | 36 => ⟨S_, .i32⟩
  | 37 => ⟨S4x128x7, .i32⟩
  | 38 => ⟨S4x128x7, .i32⟩
  | 39 => ⟨S_, .i32⟩
  | 40 => ⟨S_, .i32⟩
  | 41 => ⟨S4x128x7, .i32⟩
  | 42 => ⟨S4x128x7, .i32⟩
  | 43 => ⟨S4x128x7, .i32⟩
  | 44 => ⟨S_, .i32⟩
  | 45 => ⟨S4x128x7, .i32⟩
  | 46 => ⟨S4x128x7, .i1⟩
  | 47 => ⟨S4x128x7, .i32⟩
  | 48 => ⟨S4x128x7, .i32⟩
  | 49 => ⟨S_, .i32⟩
  | 50 => ⟨S4x128x7, .i32⟩
  | 51 => ⟨S4x128x7, .i1⟩
  | 52 => ⟨S4x128x7, .i1⟩
  | 53 => ⟨S_, .i32⟩
  | 54 => ⟨S4x128x7, .i32⟩
  | 55 => ⟨S4x128x7, .i32⟩
  | 56 => ⟨S4x128x7, .i32⟩
  | 57 => ⟨S4x128x1, .i32⟩
  | 58 => ⟨S4x128x7, .i32⟩
  | 59 => ⟨S4x128x7, .i32⟩
  | 60 => ⟨S4x128x7x1, .i32⟩
  | 61 => ⟨S5, .i32⟩
  | 62 => ⟨S1x5, .i32⟩
  | 63 => ⟨S1x1x5, .i32⟩
  | 64 => ⟨S1x1x1x5, .i32⟩
  | 65 => ⟨S4x128x7x5, .i32⟩
  | 66 => ⟨S4x128x7x5, .i32⟩
  | 67 => ⟨S4x128x7x5, .i32⟩
  | 68 => ⟨S4x128x7x1, .i32⟩
  | 69 => ⟨S4x128x7x5, .i32⟩
  | 70 => ⟨S4x128x7x5, .i1⟩
  | 71 => ⟨S_, .i32⟩
  | 72 => ⟨S4x128x7x5, .i32⟩
  | 73 => ⟨S4x128x7x5, .i1⟩
  | 74 => ⟨S4x128x7x5, .i1⟩
  | 75 => ⟨S4x128x7x1, .i32⟩
  | 76 => ⟨S6, .i32⟩
  | 77 => ⟨S1x6, .i32⟩
  | 78 => ⟨S1x1x6, .i32⟩
  | 79 => ⟨S1x1x1x6, .i32⟩
  | 80 => ⟨S4x128x7x6, .i32⟩
  | 81 => ⟨S4x128x7x6, .i32⟩
  | 82 => ⟨S4x128x7x6, .i32⟩
  | 83 => ⟨S4x128x7x1, .i32⟩
  | 84 => ⟨S4x128x7x6, .i32⟩
  | 85 => ⟨S4x128x7x6, .i1⟩
  | 86 => ⟨S_, .i32⟩
  | 87 => ⟨S4x128x7x6, .i32⟩
  | 88 => ⟨S4x128x7x6, .i1⟩
  | 89 => ⟨S4x128x7x6, .i1⟩
  | 90 => ⟨S_, .i32⟩
  | 91 => ⟨S_, .i32⟩
  | 92 => ⟨S_, .i32⟩
  | 93 => ⟨S4x128x7x5, .i32⟩
  | 94 => ⟨S4x128x7x5, .i32⟩
  | 95 => ⟨S_, .i32⟩
  | 96 => ⟨S4x128x7x5, .i32⟩
  | 97 => ⟨S4x128x7x5, .i32⟩
  | 98 => ⟨S_, .i32⟩
  | 99 => ⟨S4x128x7x5, .i32⟩
  | 100 => ⟨S4x128x7x5, .i1⟩
  | 101 => ⟨S_, .i32⟩
  | 102 => ⟨S4x128x7x5, .i32⟩
  | 103 => ⟨S4x128x7x5, .i32⟩
  | 104 => ⟨S4x128x7x5, .i32⟩
  | 105 => ⟨S4x128x7x5x1, .i32⟩
  | 106 => ⟨S4x128x256x7x5x30, .f32⟩
  | 107 => ⟨S4x128x1x7x5x1, .i1⟩
  | 108 => ⟨S_, .f32⟩
  | 109 => ⟨S_, .f32⟩
  | 110 => ⟨S4x128x256x7x5x30, .i1⟩
  | 111 => ⟨S256x7x5x30, .f32⟩
  | 112 => ⟨S128x256x7x5x30, .f32⟩
  | 113 => ⟨S4x128x256x7x5x30, .f32⟩
  | 114 => ⟨S4x128x256x7x5x30, .f32⟩
  | 115 => ⟨S_, .f32⟩
  | 116 => ⟨S4x128x256x7x30, .f32⟩
  | 117 => ⟨S_, .i32⟩
  | 118 => ⟨S_, .i32⟩
  | 119 => ⟨S_, .i32⟩
  | 120 => ⟨S4x128x7x6, .i32⟩
  | 121 => ⟨S4x128x7x6, .i32⟩
  | 122 => ⟨S_, .i32⟩
  | 123 => ⟨S4x128x7x6, .i32⟩
  | 124 => ⟨S4x128x7x6, .i32⟩
  | 125 => ⟨S_, .i32⟩
  | 126 => ⟨S4x128x7x6, .i32⟩
  | 127 => ⟨S4x128x7x6, .i1⟩
  | _ => ⟨S4x256x23x30, .f32⟩

abbrev hbmTy0_2 (i : Nat) : BufTy := match i % 128 with
  | 0 => ⟨S_, .i32⟩
  | 1 => ⟨S4x128x7x6, .i32⟩
  | 2 => ⟨S4x128x7x6, .i32⟩
  | 3 => ⟨S4x128x7x6, .i32⟩
  | 4 => ⟨S4x128x7x6x1, .i32⟩
  | 5 => ⟨S4x128x256x7x7x6, .f32⟩
  | 6 => ⟨S4x128x1x1x7x6, .i1⟩
  | 7 => ⟨S_, .f32⟩
  | 8 => ⟨S_, .f32⟩
  | 9 => ⟨S4x128x256x7x7x6, .i1⟩
  | 10 => ⟨S256x7x7x6, .f32⟩
  | 11 => ⟨S128x256x7x7x6, .f32⟩
  | 12 => ⟨S4x128x256x7x7x6, .f32⟩
  | 13 => ⟨S4x128x256x7x7x6, .f32⟩
  | 14 => ⟨S_, .f32⟩
  | 15 => ⟨S4x128x256x7x7, .f32⟩
  | 16 => ⟨S4x128x12544, .f32⟩
  | 17 => ⟨S4x128x12544, .bf16⟩
  | 18 => ⟨S512x12544, .bf16⟩
  | 19 => ⟨S12544x256, .f32⟩
  | 20 => ⟨S12544x256, .bf16⟩
  | 21 => ⟨S256x5, .f32⟩
  | 22 => ⟨S256x5, .bf16⟩
  | 23 => ⟨S512x5, .f32⟩
  | 24 => ⟨S512x5, .f32⟩
  | 25 => ⟨S4x128x5, .f32⟩
  | _ => ⟨S4x256x23x30, .f32⟩

abbrev hbmTy (i : Nat) : BufTy := match i / 128 with
  | 0 => hbmTy0_0 i
  | 1 => hbmTy0_1 i
  | 2 => hbmTy0_2 i
  | _ => ⟨S4x256x23x30, .f32⟩

abbrev bufTy : (tb : Table) → Fin (tcTables nBuf tb) → BufTy
  | .hbm, ⟨i, _⟩ => hbmTy i
  | .local _ .vmem, ⟨0, _⟩ => ⟨S128x12544, .bf16⟩
  | .local _ .vmem, ⟨1, _⟩ => ⟨S128x12544, .bf16⟩
  | .local _ .vmem, ⟨2, _⟩ => ⟨S12544x256, .bf16⟩
  | .local _ .vmem, ⟨3, _⟩ => ⟨S256, .f32⟩
  | .local _ .vmem, ⟨4, _⟩ => ⟨S256x5, .bf16⟩
  | .local _ .vmem, ⟨5, _⟩ => ⟨S5, .f32⟩
  | .local _ .vmem, ⟨6, _⟩ => ⟨S128x5, .f32⟩
  | .local _ .vmem, ⟨7, _⟩ => ⟨S128x5, .f32⟩
  | .local _ .vmem, ⟨8, _⟩ => ⟨S128x5, .f32⟩
  | .local _ .vmem, ⟨9, _⟩ => ⟨S128x5, .f32⟩
  | _, _ => ⟨S4x256x23x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_c_6 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_7 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_c : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_0 : Ref sig .tc := ⟨.hbm, 82, rfl⟩
abbrev main_call4_v12 : Ref sig .tc := ⟨.hbm, 83, rfl⟩
abbrev main_call4_v13 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_8 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_c_9 : Ref sig .tc := ⟨.hbm, 98, rfl⟩
abbrev main_v45 : Ref sig .tc := ⟨.hbm, 99, rfl⟩
abbrev main_v46 : Ref sig .tc := ⟨.hbm, 100, rfl⟩
abbrev main_c_10 : Ref sig .tc := ⟨.hbm, 101, rfl⟩
abbrev main_v47 : Ref sig .tc := ⟨.hbm, 102, rfl⟩
abbrev main_v48 : Ref sig .tc := ⟨.hbm, 103, rfl⟩
abbrev main_c_11 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_c : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_0 : Ref sig .tc := ⟨.hbm, 118, rfl⟩
abbrev main_call5_v12 : Ref sig .tc := ⟨.hbm, 119, rfl⟩
abbrev main_call5_v13 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_c_12 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_call6_v5 : Ref sig .tc := ⟨.hbm, 137, rfl⟩
abbrev main_call6_v6 : Ref sig .tc := ⟨.hbm, 138, rfl⟩
abbrev main_call6_v7 : Ref sig .tc := ⟨.hbm, 139, rfl⟩
abbrev main_call6_v8 : Ref sig .tc := ⟨.hbm, 140, rfl⟩
abbrev main_call6_c : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_call6_c_0 : Ref sig .tc := ⟨.hbm, 145, rfl⟩
abbrev main_call6_v12 : Ref sig .tc := ⟨.hbm, 146, rfl⟩
abbrev main_call6_v13 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_c_13 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_c_14 : Ref sig .tc := ⟨.hbm, 161, rfl⟩
abbrev main_v71 : Ref sig .tc := ⟨.hbm, 162, rfl⟩
abbrev main_v72 : Ref sig .tc := ⟨.hbm, 163, rfl⟩
abbrev main_c_15 : Ref sig .tc := ⟨.hbm, 164, rfl⟩
abbrev main_v73 : Ref sig .tc := ⟨.hbm, 165, rfl⟩
abbrev main_v74 : Ref sig .tc := ⟨.hbm, 166, rfl⟩
abbrev main_c_16 : Ref sig .tc := ⟨.hbm, 167, rfl⟩
abbrev main_call7_v0 : Ref sig .tc := ⟨.hbm, 168, rfl⟩
abbrev main_call7_v1 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_call7_v5 : Ref sig .tc := ⟨.hbm, 173, rfl⟩
abbrev main_call7_v6 : Ref sig .tc := ⟨.hbm, 174, rfl⟩
abbrev main_call7_v7 : Ref sig .tc := ⟨.hbm, 175, rfl⟩
abbrev main_call7_v8 : Ref sig .tc := ⟨.hbm, 176, rfl⟩
abbrev main_call7_c : Ref sig .tc := ⟨.hbm, 177, rfl⟩
abbrev main_call7_v9 : Ref sig .tc := ⟨.hbm, 178, rfl⟩
abbrev main_call7_v10 : Ref sig .tc := ⟨.hbm, 179, rfl⟩
abbrev main_call7_v11 : Ref sig .tc := ⟨.hbm, 180, rfl⟩
abbrev main_call7_c_0 : Ref sig .tc := ⟨.hbm, 181, rfl⟩
abbrev main_call7_v12 : Ref sig .tc := ⟨.hbm, 182, rfl⟩
abbrev main_call7_v13 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_v89 : Ref sig .tc := ⟨.hbm, 198, rfl⟩
abbrev main_c_17 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_c_18 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_c_19 : Ref sig .tc := ⟨.hbm, 218, rfl⟩
abbrev main_c_20 : Ref sig .tc := ⟨.hbm, 219, rfl⟩
abbrev main_call8_v0 : Ref sig .tc := ⟨.hbm, 220, rfl⟩
abbrev main_call8_v1 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_v107 : Ref sig .tc := ⟨.hbm, 225, rfl⟩
abbrev main_c_21 : Ref sig .tc := ⟨.hbm, 226, rfl⟩
abbrev main_v108 : Ref sig .tc := ⟨.hbm, 227, rfl⟩
abbrev main_v109 : Ref sig .tc := ⟨.hbm, 228, rfl⟩
abbrev main_c_22 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_cst_23 : Ref sig .tc := ⟨.hbm, 236, rfl⟩
abbrev main_call9_v0 : Ref sig .tc := ⟨.hbm, 237, rfl⟩
abbrev main_call9_v1 : Ref sig .tc := ⟨.hbm, 238, rfl⟩
abbrev main_call9_v2 : Ref sig .tc := ⟨.hbm, 239, rfl⟩
abbrev main_call9_v3 : Ref sig .tc := ⟨.hbm, 240, rfl⟩
abbrev main_call9_v4 : Ref sig .tc := ⟨.hbm, 241, rfl⟩
abbrev main_v116 : Ref sig .tc := ⟨.hbm, 242, rfl⟩
abbrev main_cst_24 : Ref sig .tc := ⟨.hbm, 243, rfl⟩
abbrev main_v117 : Ref sig .tc := ⟨.hbm, 244, rfl⟩
abbrev main_c_25 : Ref sig .tc := ⟨.hbm, 245, rfl⟩
abbrev main_c_26 : Ref sig .tc := ⟨.hbm, 246, rfl⟩
abbrev main_call10_v0 : Ref sig .tc := ⟨.hbm, 247, rfl⟩
abbrev main_call10_v1 : Ref sig .tc := ⟨.hbm, 248, rfl⟩
abbrev main_call10_v2 : Ref sig .tc := ⟨.hbm, 249, rfl⟩
abbrev main_call10_v3 : Ref sig .tc := ⟨.hbm, 250, rfl⟩
abbrev main_call10_v4 : Ref sig .tc := ⟨.hbm, 251, rfl⟩
abbrev main_v118 : Ref sig .tc := ⟨.hbm, 252, rfl⟩
abbrev main_c_27 : Ref sig .tc := ⟨.hbm, 253, rfl⟩
abbrev main_v119 : Ref sig .tc := ⟨.hbm, 254, rfl⟩
abbrev main_v120 : Ref sig .tc := ⟨.hbm, 255, rfl⟩
abbrev main_c_28 : Ref sig .tc := ⟨.hbm, 256, rfl⟩
abbrev main_v121 : Ref sig .tc := ⟨.hbm, 257, rfl⟩
abbrev main_v122 : Ref sig .tc := ⟨.hbm, 258, rfl⟩
abbrev main_v123 : Ref sig .tc := ⟨.hbm, 259, rfl⟩
abbrev main_v124 : Ref sig .tc := ⟨.hbm, 260, rfl⟩
abbrev main_v125 : Ref sig .tc := ⟨.hbm, 261, rfl⟩
abbrev main_v126 : Ref sig .tc := ⟨.hbm, 262, rfl⟩
abbrev main_cst_29 : Ref sig .tc := ⟨.hbm, 263, rfl⟩
abbrev main_call11_v0 : Ref sig .tc := ⟨.hbm, 264, rfl⟩
abbrev main_call11_v1 : Ref sig .tc := ⟨.hbm, 265, rfl⟩
abbrev main_call11_v2 : Ref sig .tc := ⟨.hbm, 266, rfl⟩
abbrev main_call11_v3 : Ref sig .tc := ⟨.hbm, 267, rfl⟩
abbrev main_call11_v4 : Ref sig .tc := ⟨.hbm, 268, rfl⟩
abbrev main_v127 : Ref sig .tc := ⟨.hbm, 269, rfl⟩
abbrev main_cst_30 : Ref sig .tc := ⟨.hbm, 270, rfl⟩
abbrev main_v128 : Ref sig .tc := ⟨.hbm, 271, rfl⟩
abbrev main_v129 : Ref sig .tc := ⟨.hbm, 272, rfl⟩
abbrev main_v130 : Ref sig .tc := ⟨.hbm, 273, rfl⟩
abbrev main_v131 : Ref sig .tc := ⟨.hbm, 274, rfl⟩
abbrev main_v132 : Ref sig .tc := ⟨.hbm, 275, rfl⟩
abbrev main_v133 : Ref sig .tc := ⟨.hbm, 276, rfl⟩
abbrev main_v134 : Ref sig .tc := ⟨.hbm, 277, rfl⟩
abbrev main_v135 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12544x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x5 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S4x128x5_S4x128x4_0_0_0 : S4x128x5.Slices ![0, 0, 0] S4x128x4
  bcast_S_S4x128x4 : S_.BroadcastsInDim S4x128x4 (![] : Fin 0 → Fin S4x128x4.rank)
  slices_S4x128x4_S4x128x1_0_0_0 : S4x128x4.Slices ![0, 0, 0] S4x128x1
  shapeCasts_S4x128x1_S4x128 : S4x128x1.ShapeCasts S4x128
  bcast_S_S4x128 : S_.BroadcastsInDim S4x128 (![] : Fin 0 → Fin S4x128.rank)
  slices_S4x128x4_S4x128x1_0_0_1 : S4x128x4.Slices ![0, 0, 1] S4x128x1
  slices_S4x128x4_S4x128x1_0_0_2 : S4x128x4.Slices ![0, 0, 2] S4x128x1
  slices_S4x128x4_S4x128x1_0_0_3 : S4x128x4.Slices ![0, 0, 3] S4x128x1
  bcast_S7_S1x7_1 : S7.BroadcastsInDim S1x7 (![1] : Fin 1 → Fin S1x7.rank)
  bcast_S4x128_S4x128x1_0_1 : S4x128.BroadcastsInDim S4x128x1 (![0, 1] : Fin 2 → Fin S4x128x1.rank)
  bcast_S1x7_S1x1x7_1_2 : S1x7.BroadcastsInDim S1x1x7 (![1, 2] : Fin 2 → Fin S1x1x7.rank)
  bcast_S1x1x7_S4x128x7_0_1_2 : S1x1x7.BroadcastsInDim S4x128x7 (![0, 1, 2] : Fin 3 → Fin S4x128x7.rank)
  bcast_S4x128x1_S4x128x7_0_1_2 : S4x128x1.BroadcastsInDim S4x128x7 (![0, 1, 2] : Fin 3 → Fin S4x128x7.rank)
  bcast_S_S4x128x7 : S_.BroadcastsInDim S4x128x7 (![] : Fin 0 → Fin S4x128x7.rank)
  bcast_S_S7 : S_.BroadcastsInDim S7 (![] : Fin 0 → Fin S7.rank)
  bcast_S4x128x7_S4x128x7x1_0_1_2 : S4x128x7.BroadcastsInDim S4x128x7x1 (![0, 1, 2] : Fin 3 → Fin S4x128x7x1.rank)
  bcast_S5_S1x5_1 : S5.BroadcastsInDim S1x5 (![1] : Fin 1 → Fin S1x5.rank)
  bcast_S1x5_S1x1x5_1_2 : S1x5.BroadcastsInDim S1x1x5 (![1, 2] : Fin 2 → Fin S1x1x5.rank)
  bcast_S1x1x5_S1x1x1x5_1_2_3 : S1x1x5.BroadcastsInDim S1x1x1x5 (![1, 2, 3] : Fin 3 → Fin S1x1x1x5.rank)
  bcast_S4x128x7x1_S4x128x7x5_0_1_2_3 : S4x128x7x1.BroadcastsInDim S4x128x7x5 (![0, 1, 2, 3] : Fin 4 → Fin S4x128x7x5.rank)
  bcast_S1x1x1x5_S4x128x7x5_0_1_2_3 : S1x1x1x5.BroadcastsInDim S4x128x7x5 (![0, 1, 2, 3] : Fin 4 → Fin S4x128x7x5.rank)
  bcast_S_S4x128x7x5 : S_.BroadcastsInDim S4x128x7x5 (![] : Fin 0 → Fin S4x128x7x5.rank)
  bcast_S6_S1x6_1 : S6.BroadcastsInDim S1x6 (![1] : Fin 1 → Fin S1x6.rank)
  bcast_S1x6_S1x1x6_1_2 : S1x6.BroadcastsInDim S1x1x6 (![1, 2] : Fin 2 → Fin S1x1x6.rank)
  bcast_S1x1x6_S1x1x1x6_1_2_3 : S1x1x6.BroadcastsInDim S1x1x1x6 (![1, 2, 3] : Fin 3 → Fin S1x1x1x6.rank)
  bcast_S4x128x7x1_S4x128x7x6_0_1_2_3 : S4x128x7x1.BroadcastsInDim S4x128x7x6 (![0, 1, 2, 3] : Fin 4 → Fin S4x128x7x6.rank)
  bcast_S1x1x1x6_S4x128x7x6_0_1_2_3 : S1x1x1x6.BroadcastsInDim S4x128x7x6 (![0, 1, 2, 3] : Fin 4 → Fin S4x128x7x6.rank)
  bcast_S_S4x128x7x6 : S_.BroadcastsInDim S4x128x7x6 (![] : Fin 0 → Fin S4x128x7x6.rank)
  bcast_S4x128x7x5_S4x128x7x5x1_0_1_2_3 : S4x128x7x5.BroadcastsInDim S4x128x7x5x1 (![0, 1, 2, 3] : Fin 4 → Fin S4x128x7x5x1.rank)
  bcast_S4x128x7x5_S4x128x1x7x5x1_0_1_3_4 : S4x128x7x5.BroadcastsInDim S4x128x1x7x5x1 (![0, 1, 3, 4] : Fin 4 → Fin S4x128x1x7x5x1.rank)
  bcast_S4x128x1x7x5x1_S4x128x256x7x5x30_0_1_2_3_4_5 : S4x128x1x7x5x1.BroadcastsInDim S4x128x256x7x5x30 (![0, 1, 2, 3, 4, 5] : Fin 6 → Fin S4x128x256x7x5x30.rank)
  bcast_S_S256x7x5x30 : S_.BroadcastsInDim S256x7x5x30 (![] : Fin 0 → Fin S256x7x5x30.rank)
  bcast_S256x7x5x30_S128x256x7x5x30_1_2_3_4 : S256x7x5x30.BroadcastsInDim S128x256x7x5x30 (![1, 2, 3, 4] : Fin 4 → Fin S128x256x7x5x30.rank)
  bcast_S128x256x7x5x30_S4x128x256x7x5x30_1_2_3_4_5 : S128x256x7x5x30.BroadcastsInDim S4x128x256x7x5x30 (![1, 2, 3, 4, 5] : Fin 5 → Fin S4x128x256x7x5x30.rank)
  reducesTo_S4x128x256x7x5x30_S4x128x256x7x30_d4 : S4x128x256x7x5x30.ReducesTo [4] S4x128x256x7x30
  h_S_ : 0 < S_.numel
  bcast_S4x128x7x6_S4x128x7x6x1_0_1_2_3 : S4x128x7x6.BroadcastsInDim S4x128x7x6x1 (![0, 1, 2, 3] : Fin 4 → Fin S4x128x7x6x1.rank)
  bcast_S4x128x7x6_S4x128x1x1x7x6_0_1_4_5 : S4x128x7x6.BroadcastsInDim S4x128x1x1x7x6 (![0, 1, 4, 5] : Fin 4 → Fin S4x128x1x1x7x6.rank)
  bcast_S4x128x1x1x7x6_S4x128x256x7x7x6_0_1_2_3_4_5 : S4x128x1x1x7x6.BroadcastsInDim S4x128x256x7x7x6 (![0, 1, 2, 3, 4, 5] : Fin 6 → Fin S4x128x256x7x7x6.rank)
  bcast_S_S256x7x7x6 : S_.BroadcastsInDim S256x7x7x6 (![] : Fin 0 → Fin S256x7x7x6.rank)
  bcast_S256x7x7x6_S128x256x7x7x6_1_2_3_4 : S256x7x7x6.BroadcastsInDim S128x256x7x7x6 (![1, 2, 3, 4] : Fin 4 → Fin S128x256x7x7x6.rank)
  bcast_S128x256x7x7x6_S4x128x256x7x7x6_1_2_3_4_5 : S128x256x7x7x6.BroadcastsInDim S4x128x256x7x7x6 (![1, 2, 3, 4, 5] : Fin 5 → Fin S4x128x256x7x7x6.rank)
  reducesTo_S4x128x256x7x7x6_S4x128x256x7x7_d5 : S4x128x256x7x7x6.ReducesTo [5] S4x128x256x7x7
  shapeCasts_S4x128x256x7x7_S4x128x12544 : S4x128x256x7x7.ShapeCasts S4x128x12544
  bitsLt_bf16_f32 : FTy.bits .bf16 < FTy.bits .f32
  shapeCasts_S4x128x12544_S512x12544 : S4x128x12544.ShapeCasts S512x12544
  transposes_S256x12544_S12544x256_1_0 : S256x12544.Transposes [1, 0] S12544x256
  transposes_S5x256_S256x5_1_0 : S5x256.Transposes [1, 0] S256x5
  shapeCasts_S4x128x5_S512x5 : S4x128x5.ShapeCasts S512x5
  inb_S128x12544_S128x12544_0_0 : ∀ a, (![0, 0] : Fin 2 → Nat) a + S128x12544.size a ≤ S128x12544.size a
  h_S128x12544 : 0 < S128x12544.numel
  shapeCasts_S128x12544_S128x12544 : S128x12544.ShapeCasts S128x12544
  inb_S12544x256_S12544x256_0_0 : ∀ a, (![0, 0] : Fin 2 → Nat) a + S12544x256.size a ≤ S12544x256.size a
  h_S12544x256 : 0 < S12544x256.numel
  shapeCasts_S12544x256_S12544x256 : S12544x256.ShapeCasts S12544x256
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  inb_S256x5_S256x5_0_0 : ∀ a, (![0, 0] : Fin 2 → Nat) a + S256x5.size a ≤ S256x5.size a
  h_S256x5 : 0 < S256x5.numel
  shapeCasts_S256x5_S256x5 : S256x5.ShapeCasts S256x5
  inb_S5_S5_0 : ∀ a, (![0] : Fin 1 → Nat) a + S5.size a ≤ S5.size a
  h_S5 : 0 < S5.numel
  shapeCasts_S5_S1x5 : S5.ShapeCasts S1x5
  broadcasts_S1x5_S128x5 : S1x5.Broadcasts S128x5
  inb_S128x5_S128x5_0_0 : ∀ a, (![0, 0] : Fin 2 → Nat) a + S128x5.size a ≤ S128x5.size a
  h_S128x5 : 0 < S128x5.numel
  shapeCasts_S128x5_S128x5 : S128x5.ShapeCasts S128x5
  slices_S128x5_o0_0_S128x4 : S128x5.Slices ![0, 0] S128x4
  slices_S128x5_o0_4_S128x1 : S128x5.Slices ![0, 4] S128x1
  inb_S128x5_S128x4_0_0 : ∀ a, (![0, 0] : Fin 2 → Nat) a + S128x4.size a ≤ S128x5.size a
  h_S128x4 : 0 < S128x4.numel
  inb_S128x5_S128x1_0_4 : ∀ a, (![0, 4] : Fin 2 → Nat) a + S128x1.size a ≤ S128x5.size a
  h_S128x1 : 0 < S128x1.numel
  shapeCasts_S512x5_S4x128x5 : S512x5.ShapeCasts S4x128x5
  gather_S4x256x23x30_S4x128x7x5x1_S4x128x256x7x5x30_25_2_0_0_2_4_1256130_wf : GatherDims.WF S4x256x23x30 S4x128x7x5x1 S4x128x256x7x5x30 [2, 5] [2] [0] [2] [0] 4 ![1, 256, 1, 30]
  gather_S4x128x256x7x30_S4x128x7x6x1_S4x128x256x7x7x6_23_4_01_01_4_4_1125671_wf : GatherDims.WF S4x128x256x7x30 S4x128x7x6x1 S4x128x256x7x7x6 [2, 3] [4] [0, 1] [4] [0, 1] 4 ![1, 1, 256, 7, 1]
  dot_S128x12544_S12544x256_S128x256_1_0_0_1_n_n_wf : DotDims.WF S128x12544 S12544x256 S128x256 [1] [0] [0] [1] [] []
  dot_S128x256_S256x5_S128x5_1_0_0_1_n_n_wf : DotDims.WF S128x256 S256x5 S128x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12544.size a ≤ S512x12544.size a
  hwx0_0 : ∀ i : grid0.Coords, EltTy.bits .bf16 = 32 ∨ (Rect.block (s := S512x12544) S128x12544.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12544x256.size a ≤ S12544x256.size a
  hwx0_1 : ∀ i : grid0.Coords, EltTy.bits .bf16 = 32 ∨ (Rect.block (s := S12544x256) S12544x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x5.size a ≤ S256x5.size a
  hwx0_3 : ∀ i : grid0.Coords, EltTy.bits .bf16 = 32 ∨ (Rect.block (s := S256x5) S256x5.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5.size a ≤ S5.size a
  hwx0_4 : ∀ i : grid0.Coords, EltTy.bits .f32 = 32 ∨ (Rect.block (s := S5) S5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x5.size a ≤ S512x5.size a
  hwx0_5 : ∀ i : grid0.Coords, EltTy.bits .f32 = 32 ∨ (Rect.block (s := S512x5) S128x5.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x5.size a ≤ S512x5.size a
  hwx0_6 : ∀ i : grid0.Coords, EltTy.bits .f32 = 32 ∨ (Rect.block (s := S512x5) S128x5.size (cc0_transform_6 i) (hinb0_6 i)).WholeWords (EltTy.packing .f32)

variable [Facts₀]

def gather_S4x256x23x30_S4x128x7x5x1_S4x128x256x7x5x30_25_2_0_0_2_4_1256130 : GatherDims S4x256x23x30 S4x128x7x5x1 S4x128x256x7x5x30 where
  offsetDims := [2, 5]
  collapsedSliceDims := [2]
  operandBatchingDims := [0]
  startIndicesBatchingDims := [0]
  startIndexMap := [2]
  indexVectorDim := 4
  sliceSizes := ![1, 256, 1, 30]
  wf := gather_S4x256x23x30_S4x128x7x5x1_S4x128x256x7x5x30_25_2_0_0_2_4_1256130_wf
def gather_S4x128x256x7x30_S4x128x7x6x1_S4x128x256x7x7x6_23_4_01_01_4_4_1125671 : GatherDims S4x128x256x7x30 S4x128x7x6x1 S4x128x256x7x7x6 where
  offsetDims := [2, 3]
  collapsedSliceDims := [4]
  operandBatchingDims := [0, 1]
  startIndicesBatchingDims := [0, 1]
  startIndexMap := [4]
  indexVectorDim := 4
  sliceSizes := ![1, 1, 256, 7, 1]
  wf := gather_S4x128x256x7x30_S4x128x7x6x1_S4x128x256x7x7x6_23_4_01_01_4_4_1125671_wf
def dot_S128x12544_S12544x256_S128x256_1_0_0_1_n_n : DotDims S128x12544 S12544x256 S128x256 where
  lhsContracting := [1]
  rhsContracting := [0]
  lhsNonContracting := [0]
  rhsNonContracting := [1]
  lhsBatch := []
  rhsBatch := []
  wf := dot_S128x12544_S12544x256_S128x256_1_0_0_1_n_n_wf
def dot_S128x256_S256x5_S128x5_1_0_0_1_n_n : DotDims S128x256 S256x5 S128x5 where
  lhsContracting := [1]
  rhsContracting := [0]
  lhsNonContracting := [0]
  rhsNonContracting := [1]
  lhsBatch := []
  rhsBatch := []
  wf := dot_S128x256_S256x5_S128x5_1_0_0_1_n_n_wf

abbrev win0_0 : Pipeline.Window sig grid0 :=
  Pipeline.Window.ofSpec (Memref.whole main_v131) S128x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v133) S12544x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v135) S256x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v136) S128x5.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v137) S128x5.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x256x23x30 : Shape := ⟨4, ![4, 256, 23, 30]⟩
abbrev S4x128x5 : Shape := ⟨3, ![4, 128, 5]⟩
abbrev S256x12544 : Shape := ⟨2, ![256, 12544]⟩
abbrev S256 : Shape := ⟨1, ![256]⟩
abbrev S5x256 : Shape := ⟨2, ![5, 256]⟩
abbrev S5 : Shape := ⟨1, ![5]⟩
abbrev S4x128x4 : Shape := ⟨3, ![4, 128, 4]⟩
abbrev S_ : Shape := ⟨0, ![]⟩
abbrev S4x128x1 : Shape := ⟨3, ![4, 128, 1]⟩
abbrev S4x128 : Shape := ⟨2, ![4, 128]⟩
abbrev S7 : Shape := ⟨1, ![7]⟩
abbrev S1x7 : Shape := ⟨2, ![1, 7]⟩
abbrev S1x1x7 : Shape := ⟨3, ![1, 1, 7]⟩
abbrev S4x128x7 : Shape := ⟨3, ![4, 128, 7]⟩
abbrev S4x128x7x1 : Shape := ⟨4, ![4, 128, 7, 1]⟩
abbrev S1x5 : Shape := ⟨2, ![1, 5]⟩
abbrev S1x1x5 : Shape := ⟨3, ![1, 1, 5]⟩
abbrev S1x1x1x5 : Shape := ⟨4, ![1, 1, 1, 5]⟩
abbrev S4x128x7x5 : Shape := ⟨4, ![4, 128, 7, 5]⟩
abbrev S6 : Shape := ⟨1, ![6]⟩
abbrev S1x6 : Shape := ⟨2, ![1, 6]⟩
abbrev S1x1x6 : Shape := ⟨3, ![1, 1, 6]⟩
abbrev S1x1x1x6 : Shape := ⟨4, ![1, 1, 1, 6]⟩
abbrev S4x128x7x6 : Shape := ⟨4, ![4, 128, 7, 6]⟩
abbrev S4x128x7x5x1 : Shape := ⟨5, ![4, 128, 7, 5, 1]⟩
abbrev S4x128x256x7x5x30 : Shape := ⟨6, ![4, 128, 256, 7, 5, 30]⟩
abbrev S4x128x1x7x5x1 : Shape := ⟨6, ![4, 128, 1, 7, 5, 1]⟩
abbrev S256x7x5x30 : Shape := ⟨4, ![256, 7, 5, 30]⟩
abbrev S128x256x7x5x30 : Shape := ⟨5, ![128, 256, 7, 5, 30]⟩
abbrev S4x128x256x7x30 : Shape := ⟨5, ![4, 128, 256, 7, 30]⟩
abbrev S4x128x7x6x1 : Shape := ⟨5, ![4, 128, 7, 6, 1]⟩
abbrev S4x128x256x7x7x6 : Shape := ⟨6, ![4, 128, 256, 7, 7, 6]⟩
abbrev S4x128x1x1x7x6 : Shape := ⟨6, ![4, 128, 1, 1, 7, 6]⟩
abbrev S256x7x7x6 : Shape := ⟨4, ![256, 7, 7, 6]⟩
abbrev S128x256x7x7x6 : Shape := ⟨5, ![128, 256, 7, 7, 6]⟩
abbrev S4x128x256x7x7 : Shape := ⟨5, ![4, 128, 256, 7, 7]⟩
abbrev S4x128x12544 : Shape := ⟨3, ![4, 128, 12544]⟩
abbrev S4x128x256 : Shape := ⟨3, ![4, 128, 256]⟩
abbrev S1x1x256 : Shape := ⟨3, ![1, 1, 256]⟩

abbrev nBuf : Space → Nat
  | .hbm => 299
  | .vmem => 0
  | .smem => 0
  | _ => 0

abbrev hbmTy0_0 (i : Nat) : BufTy := match i % 128 with
  | 0 => ⟨S4x256x23x30, .f32⟩
  | 1 => ⟨S4x128x5, .f32⟩
  | 2 => ⟨S256x12544, .f32⟩
  | 3 => ⟨S256, .f32⟩
  | 4 => ⟨S5x256, .f32⟩
  | 5 => ⟨S5, .f32⟩
  | 6 => ⟨S4x128x4, .f32⟩
  | 7 => ⟨S_, .f32⟩
  | 8 => ⟨S4x128x4, .f32⟩
  | 9 => ⟨S4x128x4, .f32⟩
  | 10 => ⟨S4x128x1, .f32⟩
  | 11 => ⟨S4x128, .f32⟩
  | 12 => ⟨S4x128, .f32⟩
  | 13 => ⟨S4x128, .i32⟩
  | 14 => ⟨S_, .i32⟩
  | 15 => ⟨S_, .i32⟩
  | 16 => ⟨S_, .i32⟩
  | 17 => ⟨S4x128, .i32⟩
  | 18 => ⟨S4x128, .i32⟩
  | 19 => ⟨S_, .i32⟩
  | 20 => ⟨S4x128, .i32⟩
  | 21 => ⟨S4x128, .i32⟩
  | 22 => ⟨S4x128x1, .f32⟩
  | 23 => ⟨S4x128, .f32⟩
  | 24 => ⟨S4x128, .f32⟩
  | 25 => ⟨S4x128, .i32⟩
  | 26 => ⟨S_, .i32⟩
  | 27 => ⟨S_, .i32⟩
  | 28 => ⟨S_, .i32⟩
  | 29 => ⟨S4x128, .i32⟩
  | 30 => ⟨S4x128, .i32⟩
  | 31 => ⟨S_, .i32⟩
  | 32 => ⟨S4x128, .i32⟩
  | 33 => ⟨S4x128, .i32⟩
  | 34 => ⟨S4x128x1, .f32⟩
  | 35 => ⟨S4x128, .f32⟩
  | 36 => ⟨S4x128, .f32⟩
  | 37 => ⟨S4x128, .i32⟩
  | 38 => ⟨S4x128, .i32⟩
  | 39 => ⟨S_, .i32⟩
  | 40 => ⟨S_, .i32⟩
  | 41 => ⟨S_, .i32⟩
  | 42 => ⟨S4x128, .i32⟩
  | 43 => ⟨S4x128, .i32⟩
  | 44 => ⟨S_, .i32⟩
  | 45 => ⟨S4x128, .i32⟩
  | 46 => ⟨S4x128, .i32⟩
  | 47 => ⟨S4x128x1, .f32⟩
  | 48 => ⟨S4x128, .f32⟩
  | 49 => ⟨S4x128, .f32⟩
  | 50 => ⟨S4x128, .i32⟩
  | 51 => ⟨S4x128, .i32⟩
  | 52 => ⟨S_, .i32⟩
  | 53 => ⟨S_, .i32⟩
  | 54 => ⟨S_, .i32⟩
  | 55 => ⟨S4x128, .i32⟩
  | 56 => ⟨S4x128, .i32⟩
  | 57 => ⟨S_, .i32⟩
  | 58 => ⟨S4x128, .i32⟩
  | 59 => ⟨S4x128, .i32⟩
  | 60 => ⟨S7, .i32⟩
  | 61 => ⟨S7, .i32⟩
  | 62 => ⟨S1x7, .i32⟩
  | 63 => ⟨S4x128x1, .i32⟩
  | 64 => ⟨S1x1x7, .i32⟩
  | 65 => ⟨S4x128x7, .i32⟩
  | 66 => ⟨S4x128x7, .i32⟩
  | 67 => ⟨S4x128x7, .i32⟩
  | 68 => ⟨S_, .i32⟩
  | 69 => ⟨S_, .i32⟩
  | 70 => ⟨S4x128x7, .i32⟩
  | 71 => ⟨S4x128x7, .i32⟩
  | 72 => ⟨S4x128x7, .i32⟩
  | 73 => ⟨S_, .i32⟩
  | 74 => ⟨S4x128x7, .i32⟩
  | 75 => ⟨S4x128x7, .i1⟩
  | 76 => ⟨S4x128x7, .i32⟩
  | 77 => ⟨S4x128x7, .i32⟩
  | 78 => ⟨S_, .i32⟩
  | 79 => ⟨S4x128x7, .i32⟩
  | 80 => ⟨S4x128x7, .i1⟩
  | 81 => ⟨S4x128x7, .i1⟩
  | 82 => ⟨S_, .i32⟩
  | 83 => ⟨S4x128x7, .i32⟩
  | 84 => ⟨S4x128x7, .i32⟩
  | 85 => ⟨S4x128x7, .i32⟩
  | 86 => ⟨S4x128x1, .i32⟩
  | 87 => ⟨S4x128x7, .i32⟩
  | 88 => ⟨S4x128x7, .i32⟩
  | 89 => ⟨S_, .i32⟩
  | 90 => ⟨S7, .i32⟩
  | 91 => ⟨S7, .i32⟩
  | 92 => ⟨S1x7, .i32⟩
  | 93 => ⟨S4x128x1, .i32⟩
  | 94 => ⟨S1x1x7, .i32⟩
  | 95 => ⟨S4x128x7, .i32⟩
  | 96 => ⟨S4x128x7, .i32⟩
  | 97 => ⟨S4x128x7, .i32⟩
  | 98 => ⟨S_, .i32⟩
  | 99 => ⟨S4x128x7, .i32⟩
  | 100 => ⟨S4x128x7, .i32⟩
  | 101 => ⟨S_, .i32⟩
  | 102 => ⟨S4x128x7, .i32⟩
  | 103 => ⟨S4x128x7, .i32⟩
  | 104 => ⟨S_, .i32⟩
  | 105 => ⟨S_, .i32⟩
  | 106 => ⟨S4x128x7, .i32⟩
  | 107 => ⟨S4x128x7, .i32⟩
  | 108 => ⟨S4x128x7, .i32⟩
  | 109 => ⟨S_, .i32⟩
  | 110 => ⟨S4x128x7, .i32⟩
  | 111 => ⟨S4x128x7, .i1⟩
  | 112 => ⟨S4x128x7, .i32⟩
  | 113 => ⟨S4x128x7, .i32⟩
  | 114 => ⟨S_, .i32⟩
  | 115 => ⟨S4x128x7, .i32⟩
  | 116 => ⟨S4x128x7, .i1⟩
  | 117 => ⟨S4x128x7, .i1⟩
  | 118 => ⟨S_, .i32⟩
  | 119 => ⟨S4x128x7, .i32⟩
  | 120 => ⟨S4x128x7, .i32⟩
  | 121 => ⟨S4x128x7, .i32⟩
  | 122 => ⟨S4x128x1, .i32⟩
  | 123 => ⟨S4x128x7, .i32⟩
  | 124 => ⟨S4x128x7, .i32⟩
  | 125 => ⟨S1x7, .i32⟩
  | 126 => ⟨S4x128x1, .i32⟩
  | 127 => ⟨S1x1x7, .i32⟩
  | _ => ⟨S4x256x23x30, .f32⟩

abbrev hbmTy0_1 (i : Nat) : BufTy := match i % 128 with
  | 0 => ⟨S4x128x7, .i32⟩
  | 1 => ⟨S4x128x7, .i32⟩
  | 2 => ⟨S4x128x7, .i32⟩
  | 3 => ⟨S_, .i32⟩
  | 4 => ⟨S_, .i32⟩
  | 5 => ⟨S4x128x7, .i32⟩
  | 6 => ⟨S4x128x7, .i32⟩
  | 7 => ⟨S4x128x7, .i32⟩
  | 8 => ⟨S_, .i32⟩
  | 9 => ⟨S4x128x7, .i32⟩
  | 10 => ⟨S4x128x7, .i1⟩
  | 11 => ⟨S4x128x7, .i32⟩
  | 12 => ⟨S4x128x7, .i32⟩
  | 13 => ⟨S_, .i32⟩
  | 14 => ⟨S4x128x7, .i32⟩
  | 15 => ⟨S4x128x7, .i1⟩
  | 16 => ⟨S4x128x7, .i1⟩
  | 17 => ⟨S_, .i32⟩
  | 18 => ⟨S4x128x7, .i32⟩
  | 19 => ⟨S4x128x7, .i32⟩
  | 20 => ⟨S4x128x7, .i32⟩
  | 21 => ⟨S4x128x1, .i32⟩
  | 22 => ⟨S4x128x7, .i32⟩
  | 23 => ⟨S4x128x7, .i32⟩
  | 24 => ⟨S_, .i32⟩
  | 25 => ⟨S7, .i32⟩
  | 26 => ⟨S7, .i32⟩
  | 27 => ⟨S1x7, .i32⟩
  | 28 => ⟨S4x128x1, .i32⟩
  | 29 => ⟨S1x1x7, .i32⟩
  | 30 => ⟨S4x128x7, .i32⟩
  | 31 => ⟨S4x128x7, .i32⟩
  | 32 => ⟨S4x128x7, .i32⟩
  | 33 => ⟨S_, .i32⟩
  | 34 => ⟨S4x128x7, .i32⟩
  | 35 => ⟨S4x128x7, .i32⟩
  | 36 => ⟨S_, .i32⟩
  | 37 => ⟨S4x128x7, .i32⟩
  | 38 => ⟨S4x128x7, .i32⟩
  | 39 => ⟨S_, .i32⟩
  | 40 => ⟨S_, .i32⟩
  | 41 => ⟨S4x128x7, .i32⟩
  | 42 => ⟨S4x128x7, .i32⟩
  | 43 => ⟨S4x128x7, .i32⟩
  | 44 => ⟨S_, .i32⟩
  | 45 => ⟨S4x128x7, .i32⟩
  | 46 => ⟨S4x128x7, .i1⟩
  | 47 => ⟨S4x128x7, .i32⟩
  | 48 => ⟨S4x128x7, .i32⟩
  | 49 => ⟨S_, .i32⟩
  | 50 => ⟨S4x128x7, .i32⟩
  | 51 => ⟨S4x128x7, .i1⟩
  | 52 => ⟨S4x128x7, .i1⟩
  | 53 => ⟨S_, .i32⟩
  | 54 => ⟨S4x128x7, .i32⟩
  | 55 => ⟨S4x128x7, .i32⟩
  | 56 => ⟨S4x128x7, .i32⟩
  | 57 => ⟨S4x128x1, .i32⟩
  | 58 => ⟨S4x128x7, .i32⟩
  | 59 => ⟨S4x128x7, .i32⟩
  | 60 => ⟨S4x128x7x1, .i32⟩
  | 61 => ⟨S5, .i32⟩
  | 62 => ⟨S1x5, .i32⟩
  | 63 => ⟨S1x1x5, .i32⟩
  | 64 => ⟨S1x1x1x5, .i32⟩
  | 65 => ⟨S4x128x7x5, .i32⟩
  | 66 => ⟨S4x128x7x5, .i32⟩
  | 67 => ⟨S4x128x7x5, .i32⟩
  | 68 => ⟨S4x128x7x1, .i32⟩
  | 69 => ⟨S4x128x7x5, .i32⟩
  | 70 => ⟨S4x128x7x5, .i1⟩
  | 71 => ⟨S_, .i32⟩
  | 72 => ⟨S4x128x7x5, .i32⟩
  | 73 => ⟨S4x128x7x5, .i1⟩
  | 74 => ⟨S4x128x7x5, .i1⟩
  | 75 => ⟨S4x128x7x1, .i32⟩
  | 76 => ⟨S6, .i32⟩
  | 77 => ⟨S1x6, .i32⟩
  | 78 => ⟨S1x1x6, .i32⟩
  | 79 => ⟨S1x1x1x6, .i32⟩
  | 80 => ⟨S4x128x7x6, .i32⟩
  | 81 => ⟨S4x128x7x6, .i32⟩
  | 82 => ⟨S4x128x7x6, .i32⟩
  | 83 => ⟨S4x128x7x1, .i32⟩
  | 84 => ⟨S4x128x7x6, .i32⟩
  | 85 => ⟨S4x128x7x6, .i1⟩
  | 86 => ⟨S_, .i32⟩
  | 87 => ⟨S4x128x7x6, .i32⟩
  | 88 => ⟨S4x128x7x6, .i1⟩
  | 89 => ⟨S4x128x7x6, .i1⟩
  | 90 => ⟨S_, .i32⟩
  | 91 => ⟨S_, .i32⟩
  | 92 => ⟨S_, .i32⟩
  | 93 => ⟨S4x128x7x5, .i32⟩
  | 94 => ⟨S4x128x7x5, .i32⟩
  | 95 => ⟨S_, .i32⟩
  | 96 => ⟨S4x128x7x5, .i32⟩
  | 97 => ⟨S4x128x7x5, .i32⟩
  | 98 => ⟨S_, .i32⟩
  | 99 => ⟨S4x128x7x5, .i32⟩
  | 100 => ⟨S4x128x7x5, .i1⟩
  | 101 => ⟨S_, .i32⟩
  | 102 => ⟨S4x128x7x5, .i32⟩
  | 103 => ⟨S4x128x7x5, .i32⟩
  | 104 => ⟨S4x128x7x5, .i32⟩
  | 105 => ⟨S4x128x7x5x1, .i32⟩
  | 106 => ⟨S4x128x256x7x5x30, .f32⟩
  | 107 => ⟨S4x128x1x7x5x1, .i1⟩
  | 108 => ⟨S_, .f32⟩
  | 109 => ⟨S_, .f32⟩
  | 110 => ⟨S4x128x256x7x5x30, .i1⟩
  | 111 => ⟨S256x7x5x30, .f32⟩
  | 112 => ⟨S128x256x7x5x30, .f32⟩
  | 113 => ⟨S4x128x256x7x5x30, .f32⟩
  | 114 => ⟨S4x128x256x7x5x30, .f32⟩
  | 115 => ⟨S_, .f32⟩
  | 116 => ⟨S4x128x256x7x30, .f32⟩
  | 117 => ⟨S_, .i32⟩
  | 118 => ⟨S_, .i32⟩
  | 119 => ⟨S_, .i32⟩
  | 120 => ⟨S4x128x7x6, .i32⟩
  | 121 => ⟨S4x128x7x6, .i32⟩
  | 122 => ⟨S_, .i32⟩
  | 123 => ⟨S4x128x7x6, .i32⟩
  | 124 => ⟨S4x128x7x6, .i32⟩
  | 125 => ⟨S_, .i32⟩
  | 126 => ⟨S4x128x7x6, .i32⟩
  | 127 => ⟨S4x128x7x6, .i1⟩
  | _ => ⟨S4x256x23x30, .f32⟩

abbrev hbmTy0_2 (i : Nat) : BufTy := match i % 128 with
  | 0 => ⟨S_, .i32⟩
  | 1 => ⟨S4x128x7x6, .i32⟩
  | 2 => ⟨S4x128x7x6, .i32⟩
  | 3 => ⟨S4x128x7x6, .i32⟩
  | 4 => ⟨S4x128x7x6x1, .i32⟩
  | 5 => ⟨S4x128x256x7x7x6, .f32⟩
  | 6 => ⟨S4x128x1x1x7x6, .i1⟩
  | 7 => ⟨S_, .f32⟩
  | 8 => ⟨S_, .f32⟩
  | 9 => ⟨S4x128x256x7x7x6, .i1⟩
  | 10 => ⟨S256x7x7x6, .f32⟩
  | 11 => ⟨S128x256x7x7x6, .f32⟩
  | 12 => ⟨S4x128x256x7x7x6, .f32⟩
  | 13 => ⟨S4x128x256x7x7x6, .f32⟩
  | 14 => ⟨S_, .f32⟩
  | 15 => ⟨S4x128x256x7x7, .f32⟩
  | 16 => ⟨S4x128x12544, .f32⟩
  | 17 => ⟨S4x128x256, .f32⟩
  | 18 => ⟨S1x1x256, .f32⟩
  | 19 => ⟨S4x128x256, .f32⟩
  | 20 => ⟨S4x128x256, .f32⟩
  | 21 => ⟨S_, .f32⟩
  | 22 => ⟨S4x128x256, .f32⟩
  | 23 => ⟨S4x128x256, .f32⟩
  | 24 => ⟨S4x128x5, .f32⟩
  | 25 => ⟨S1x1x5, .f32⟩
  | 26 => ⟨S4x128x5, .f32⟩
  | 27 => ⟨S4x128x5, .f32⟩
  | 28 => ⟨S4x128x4, .f32⟩
  | 29 => ⟨S4x128x4, .f32⟩
  | 30 => ⟨S4x128x4, .f32⟩
  | 31 => ⟨S4x128x1, .f32⟩
  | 32 => ⟨S4x128x1, .f32⟩
  | 33 => ⟨S4x128x1, .f32⟩
  | 34 => ⟨S4x128x1, .f32⟩
  | 35 => ⟨S4x128x1, .f32⟩
  | 36 => ⟨S_, .f32⟩
  | 37 => ⟨S4x128x1, .f32⟩
  | 38 => ⟨S4x128x1, .f32⟩
  | 39 => ⟨S_, .f32⟩
  | 40 => ⟨S4x128x1, .f32⟩
  | 41 => ⟨S4x128x1, .f32⟩
  | 42 => ⟨S4x128x5, .f32⟩
  | _ => ⟨S4x256x23x30, .f32⟩

abbrev hbmTy (i : Nat) : BufTy := match i / 128 with
  | 0 => hbmTy0_0 i
  | 1 => hbmTy0_1 i
  | 2 => hbmTy0_2 i
  | _ => ⟨S4x256x23x30, .f32⟩

abbrev bufTy : (tb : Table) → Fin (tcTables nBuf tb) → BufTy
  | .hbm, ⟨i, _⟩ => hbmTy i
  | _, _ => ⟨S4x256x23x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_c_6 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_7 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_c : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_0 : Ref sig .tc := ⟨.hbm, 82, rfl⟩
abbrev main_call4_v12 : Ref sig .tc := ⟨.hbm, 83, rfl⟩
abbrev main_call4_v13 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_8 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_c_9 : Ref sig .tc := ⟨.hbm, 98, rfl⟩
abbrev main_v45 : Ref sig .tc := ⟨.hbm, 99, rfl⟩
abbrev main_v46 : Ref sig .tc := ⟨.hbm, 100, rfl⟩
abbrev main_c_10 : Ref sig .tc := ⟨.hbm, 101, rfl⟩
abbrev main_v47 : Ref sig .tc := ⟨.hbm, 102, rfl⟩
abbrev main_v48 : Ref sig .tc := ⟨.hbm, 103, rfl⟩
abbrev main_c_11 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_c : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_0 : Ref sig .tc := ⟨.hbm, 118, rfl⟩
abbrev main_call5_v12 : Ref sig .tc := ⟨.hbm, 119, rfl⟩
abbrev main_call5_v13 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_c_12 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_call6_v5 : Ref sig .tc := ⟨.hbm, 137, rfl⟩
abbrev main_call6_v6 : Ref sig .tc := ⟨.hbm, 138, rfl⟩
abbrev main_call6_v7 : Ref sig .tc := ⟨.hbm, 139, rfl⟩
abbrev main_call6_v8 : Ref sig .tc := ⟨.hbm, 140, rfl⟩
abbrev main_call6_c : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_call6_c_0 : Ref sig .tc := ⟨.hbm, 145, rfl⟩
abbrev main_call6_v12 : Ref sig .tc := ⟨.hbm, 146, rfl⟩
abbrev main_call6_v13 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_c_13 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_c_14 : Ref sig .tc := ⟨.hbm, 161, rfl⟩
abbrev main_v71 : Ref sig .tc := ⟨.hbm, 162, rfl⟩
abbrev main_v72 : Ref sig .tc := ⟨.hbm, 163, rfl⟩
abbrev main_c_15 : Ref sig .tc := ⟨.hbm, 164, rfl⟩
abbrev main_v73 : Ref sig .tc := ⟨.hbm, 165, rfl⟩
abbrev main_v74 : Ref sig .tc := ⟨.hbm, 166, rfl⟩
abbrev main_c_16 : Ref sig .tc := ⟨.hbm, 167, rfl⟩
abbrev main_call7_v0 : Ref sig .tc := ⟨.hbm, 168, rfl⟩
abbrev main_call7_v1 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_call7_v5 : Ref sig .tc := ⟨.hbm, 173, rfl⟩
abbrev main_call7_v6 : Ref sig .tc := ⟨.hbm, 174, rfl⟩
abbrev main_call7_v7 : Ref sig .tc := ⟨.hbm, 175, rfl⟩
abbrev main_call7_v8 : Ref sig .tc := ⟨.hbm, 176, rfl⟩
abbrev main_call7_c : Ref sig .tc := ⟨.hbm, 177, rfl⟩
abbrev main_call7_v9 : Ref sig .tc := ⟨.hbm, 178, rfl⟩
abbrev main_call7_v10 : Ref sig .tc := ⟨.hbm, 179, rfl⟩
abbrev main_call7_v11 : Ref sig .tc := ⟨.hbm, 180, rfl⟩
abbrev main_call7_c_0 : Ref sig .tc := ⟨.hbm, 181, rfl⟩
abbrev main_call7_v12 : Ref sig .tc := ⟨.hbm, 182, rfl⟩
abbrev main_call7_v13 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_v89 : Ref sig .tc := ⟨.hbm, 198, rfl⟩
abbrev main_c_17 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_c_18 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_c_19 : Ref sig .tc := ⟨.hbm, 218, rfl⟩
abbrev main_c_20 : Ref sig .tc := ⟨.hbm, 219, rfl⟩
abbrev main_call8_v0 : Ref sig .tc := ⟨.hbm, 220, rfl⟩
abbrev main_call8_v1 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_v107 : Ref sig .tc := ⟨.hbm, 225, rfl⟩
abbrev main_c_21 : Ref sig .tc := ⟨.hbm, 226, rfl⟩
abbrev main_v108 : Ref sig .tc := ⟨.hbm, 227, rfl⟩
abbrev main_v109 : Ref sig .tc := ⟨.hbm, 228, rfl⟩
abbrev main_c_22 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_cst_23 : Ref sig .tc := ⟨.hbm, 236, rfl⟩
abbrev main_call9_v0 : Ref sig .tc := ⟨.hbm, 237, rfl⟩
abbrev main_call9_v1 : Ref sig .tc := ⟨.hbm, 238, rfl⟩
abbrev main_call9_v2 : Ref sig .tc := ⟨.hbm, 239, rfl⟩
abbrev main_call9_v3 : Ref sig .tc := ⟨.hbm, 240, rfl⟩
abbrev main_call9_v4 : Ref sig .tc := ⟨.hbm, 241, rfl⟩
abbrev main_v116 : Ref sig .tc := ⟨.hbm, 242, rfl⟩
abbrev main_cst_24 : Ref sig .tc := ⟨.hbm, 243, rfl⟩
abbrev main_v117 : Ref sig .tc := ⟨.hbm, 244, rfl⟩
abbrev main_c_25 : Ref sig .tc := ⟨.hbm, 245, rfl⟩
abbrev main_c_26 : Ref sig .tc := ⟨.hbm, 246, rfl⟩
abbrev main_call10_v0 : Ref sig .tc := ⟨.hbm, 247, rfl⟩
abbrev main_call10_v1 : Ref sig .tc := ⟨.hbm, 248, rfl⟩
abbrev main_call10_v2 : Ref sig .tc := ⟨.hbm, 249, rfl⟩
abbrev main_call10_v3 : Ref sig .tc := ⟨.hbm, 250, rfl⟩
abbrev main_call10_v4 : Ref sig .tc := ⟨.hbm, 251, rfl⟩
abbrev main_v118 : Ref sig .tc := ⟨.hbm, 252, rfl⟩
abbrev main_c_27 : Ref sig .tc := ⟨.hbm, 253, rfl⟩
abbrev main_v119 : Ref sig .tc := ⟨.hbm, 254, rfl⟩
abbrev main_v120 : Ref sig .tc := ⟨.hbm, 255, rfl⟩
abbrev main_c_28 : Ref sig .tc := ⟨.hbm, 256, rfl⟩
abbrev main_v121 : Ref sig .tc := ⟨.hbm, 257, rfl⟩
abbrev main_v122 : Ref sig .tc := ⟨.hbm, 258, rfl⟩
abbrev main_v123 : Ref sig .tc := ⟨.hbm, 259, rfl⟩
abbrev main_v124 : Ref sig .tc := ⟨.hbm, 260, rfl⟩
abbrev main_v125 : Ref sig .tc := ⟨.hbm, 261, rfl⟩
abbrev main_v126 : Ref sig .tc := ⟨.hbm, 262, rfl⟩
abbrev main_cst_29 : Ref sig .tc := ⟨.hbm, 263, rfl⟩
abbrev main_call11_v0 : Ref sig .tc := ⟨.hbm, 264, rfl⟩
abbrev main_call11_v1 : Ref sig .tc := ⟨.hbm, 265, rfl⟩
abbrev main_call11_v2 : Ref sig .tc := ⟨.hbm, 266, rfl⟩
abbrev main_call11_v3 : Ref sig .tc := ⟨.hbm, 267, rfl⟩
abbrev main_call11_v4 : Ref sig .tc := ⟨.hbm, 268, rfl⟩
abbrev main_v127 : Ref sig .tc := ⟨.hbm, 269, rfl⟩
abbrev main_cst_30 : Ref sig .tc := ⟨.hbm, 270, rfl⟩
abbrev main_v128 : Ref sig .tc := ⟨.hbm, 271, rfl⟩
abbrev main_v129 : Ref sig .tc := ⟨.hbm, 272, rfl⟩
abbrev main_v130 : Ref sig .tc := ⟨.hbm, 273, rfl⟩
abbrev main_v131 : Ref sig .tc := ⟨.hbm, 274, rfl⟩
abbrev main_v132 : Ref sig .tc := ⟨.hbm, 275, rfl⟩
abbrev main_v133 : Ref sig .tc := ⟨.hbm, 276, rfl⟩
abbrev main_call12_cst : Ref sig .tc := ⟨.hbm, 277, rfl⟩
abbrev main_call12_v0 : Ref sig .tc := ⟨.hbm, 278, rfl⟩
abbrev main_v134 : Ref sig .tc := ⟨.hbm, 279, rfl⟩
abbrev main_v135 : Ref sig .tc := ⟨.hbm, 280, rfl⟩
abbrev main_v136 : Ref sig .tc := ⟨.hbm, 281, rfl⟩
abbrev main_v137 : Ref sig .tc := ⟨.hbm, 282, rfl⟩
abbrev main_v138 : Ref sig .tc := ⟨.hbm, 283, rfl⟩
abbrev main_v139 : Ref sig .tc := ⟨.hbm, 284, rfl⟩
abbrev main_v140 : Ref sig .tc := ⟨.hbm, 285, rfl⟩
abbrev main_v141 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_v145 : Ref sig .tc := ⟨.hbm, 290, rfl⟩
abbrev main_v146 : Ref sig .tc := ⟨.hbm, 291, rfl⟩
abbrev main_cst_31 : Ref sig .tc := ⟨.hbm, 292, rfl⟩
abbrev main_v147 : Ref sig .tc := ⟨.hbm, 293, rfl⟩
abbrev main_v148 : Ref sig .tc := ⟨.hbm, 294, rfl⟩
abbrev main_cst_32 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩

abbrev nD : Nat := 1
abbrev τ : Topo := Topo.v7x

variable {F : FTy → Type} [FloatOps F]

class Facts₀ : Prop where
  slices_S4x128x5_S4x128x4_0_0_0 : S4x128x5.Slices ![0, 0, 0] S4x128x4
  bcast_S_S4x128x4 : S_.BroadcastsInDim S4x128x4 (![] : Fin 0 → Fin S4x128x4.rank)
  slices_S4x128x4_S4x128x1_0_0_0 : S4x128x4.Slices ![0, 0, 0] S4x128x1
  shapeCasts_S4x128x1_S4x128 : S4x128x1.ShapeCasts S4x128
  bcast_S_S4x128 : S_.BroadcastsInDim S4x128 (![] : Fin 0 → Fin S4x128.rank)
  slices_S4x128x4_S4x128x1_0_0_1 : S4x128x4.Slices ![0, 0, 1] S4x128x1
  slices_S4x128x4_S4x128x1_0_0_2 : S4x128x4.Slices ![0, 0, 2] S4x128x1
  slices_S4x128x4_S4x128x1_0_0_3 : S4x128x4.Slices ![0, 0, 3] S4x128x1
  bcast_S7_S1x7_1 : S7.BroadcastsInDim S1x7 (![1] : Fin 1 → Fin S1x7.rank)
  bcast_S4x128_S4x128x1_0_1 : S4x128.BroadcastsInDim S4x128x1 (![0, 1] : Fin 2 → Fin S4x128x1.rank)
  bcast_S1x7_S1x1x7_1_2 : S1x7.BroadcastsInDim S1x1x7 (![1, 2] : Fin 2 → Fin S1x1x7.rank)
  bcast_S1x1x7_S4x128x7_0_1_2 : S1x1x7.BroadcastsInDim S4x128x7 (![0, 1, 2] : Fin 3 → Fin S4x128x7.rank)
  bcast_S4x128x1_S4x128x7_0_1_2 : S4x128x1.BroadcastsInDim S4x128x7 (![0, 1, 2] : Fin 3 → Fin S4x128x7.rank)
  bcast_S_S4x128x7 : S_.BroadcastsInDim S4x128x7 (![] : Fin 0 → Fin S4x128x7.rank)
  bcast_S_S7 : S_.BroadcastsInDim S7 (![] : Fin 0 → Fin S7.rank)
  bcast_S4x128x7_S4x128x7x1_0_1_2 : S4x128x7.BroadcastsInDim S4x128x7x1 (![0, 1, 2] : Fin 3 → Fin S4x128x7x1.rank)
  bcast_S5_S1x5_1 : S5.BroadcastsInDim S1x5 (![1] : Fin 1 → Fin S1x5.rank)
  bcast_S1x5_S1x1x5_1_2 : S1x5.BroadcastsInDim S1x1x5 (![1, 2] : Fin 2 → Fin S1x1x5.rank)
  bcast_S1x1x5_S1x1x1x5_1_2_3 : S1x1x5.BroadcastsInDim S1x1x1x5 (![1, 2, 3] : Fin 3 → Fin S1x1x1x5.rank)
  bcast_S4x128x7x1_S4x128x7x5_0_1_2_3 : S4x128x7x1.BroadcastsInDim S4x128x7x5 (![0, 1, 2, 3] : Fin 4 → Fin S4x128x7x5.rank)
  bcast_S1x1x1x5_S4x128x7x5_0_1_2_3 : S1x1x1x5.BroadcastsInDim S4x128x7x5 (![0, 1, 2, 3] : Fin 4 → Fin S4x128x7x5.rank)
  bcast_S_S4x128x7x5 : S_.BroadcastsInDim S4x128x7x5 (![] : Fin 0 → Fin S4x128x7x5.rank)
  bcast_S6_S1x6_1 : S6.BroadcastsInDim S1x6 (![1] : Fin 1 → Fin S1x6.rank)
  bcast_S1x6_S1x1x6_1_2 : S1x6.BroadcastsInDim S1x1x6 (![1, 2] : Fin 2 → Fin S1x1x6.rank)
  bcast_S1x1x6_S1x1x1x6_1_2_3 : S1x1x6.BroadcastsInDim S1x1x1x6 (![1, 2, 3] : Fin 3 → Fin S1x1x1x6.rank)
  bcast_S4x128x7x1_S4x128x7x6_0_1_2_3 : S4x128x7x1.BroadcastsInDim S4x128x7x6 (![0, 1, 2, 3] : Fin 4 → Fin S4x128x7x6.rank)
  bcast_S1x1x1x6_S4x128x7x6_0_1_2_3 : S1x1x1x6.BroadcastsInDim S4x128x7x6 (![0, 1, 2, 3] : Fin 4 → Fin S4x128x7x6.rank)
  bcast_S_S4x128x7x6 : S_.BroadcastsInDim S4x128x7x6 (![] : Fin 0 → Fin S4x128x7x6.rank)
  bcast_S4x128x7x5_S4x128x7x5x1_0_1_2_3 : S4x128x7x5.BroadcastsInDim S4x128x7x5x1 (![0, 1, 2, 3] : Fin 4 → Fin S4x128x7x5x1.rank)
  bcast_S4x128x7x5_S4x128x1x7x5x1_0_1_3_4 : S4x128x7x5.BroadcastsInDim S4x128x1x7x5x1 (![0, 1, 3, 4] : Fin 4 → Fin S4x128x1x7x5x1.rank)
  bcast_S4x128x1x7x5x1_S4x128x256x7x5x30_0_1_2_3_4_5 : S4x128x1x7x5x1.BroadcastsInDim S4x128x256x7x5x30 (![0, 1, 2, 3, 4, 5] : Fin 6 → Fin S4x128x256x7x5x30.rank)
  bcast_S_S256x7x5x30 : S_.BroadcastsInDim S256x7x5x30 (![] : Fin 0 → Fin S256x7x5x30.rank)
  bcast_S256x7x5x30_S128x256x7x5x30_1_2_3_4 : S256x7x5x30.BroadcastsInDim S128x256x7x5x30 (![1, 2, 3, 4] : Fin 4 → Fin S128x256x7x5x30.rank)
  bcast_S128x256x7x5x30_S4x128x256x7x5x30_1_2_3_4_5 : S128x256x7x5x30.BroadcastsInDim S4x128x256x7x5x30 (![1, 2, 3, 4, 5] : Fin 5 → Fin S4x128x256x7x5x30.rank)
  reducesTo_S4x128x256x7x5x30_S4x128x256x7x30_d4 : S4x128x256x7x5x30.ReducesTo [4] S4x128x256x7x30
  h_S_ : 0 < S_.numel
  bcast_S4x128x7x6_S4x128x7x6x1_0_1_2_3 : S4x128x7x6.BroadcastsInDim S4x128x7x6x1 (![0, 1, 2, 3] : Fin 4 → Fin S4x128x7x6x1.rank)
  bcast_S4x128x7x6_S4x128x1x1x7x6_0_1_4_5 : S4x128x7x6.BroadcastsInDim S4x128x1x1x7x6 (![0, 1, 4, 5] : Fin 4 → Fin S4x128x1x1x7x6.rank)
  bcast_S4x128x1x1x7x6_S4x128x256x7x7x6_0_1_2_3_4_5 : S4x128x1x1x7x6.BroadcastsInDim S4x128x256x7x7x6 (![0, 1, 2, 3, 4, 5] : Fin 6 → Fin S4x128x256x7x7x6.rank)
  bcast_S_S256x7x7x6 : S_.BroadcastsInDim S256x7x7x6 (![] : Fin 0 → Fin S256x7x7x6.rank)
  bcast_S256x7x7x6_S128x256x7x7x6_1_2_3_4 : S256x7x7x6.BroadcastsInDim S128x256x7x7x6 (![1, 2, 3, 4] : Fin 4 → Fin S128x256x7x7x6.rank)
  bcast_S128x256x7x7x6_S4x128x256x7x7x6_1_2_3_4_5 : S128x256x7x7x6.BroadcastsInDim S4x128x256x7x7x6 (![1, 2, 3, 4, 5] : Fin 5 → Fin S4x128x256x7x7x6.rank)
  reducesTo_S4x128x256x7x7x6_S4x128x256x7x7_d5 : S4x128x256x7x7x6.ReducesTo [5] S4x128x256x7x7
  shapeCasts_S4x128x256x7x7_S4x128x12544 : S4x128x256x7x7.ShapeCasts S4x128x12544
  bcast_S256_S1x1x256_2 : S256.BroadcastsInDim S1x1x256 (![2] : Fin 1 → Fin S1x1x256.rank)
  bcast_S1x1x256_S4x128x256_0_1_2 : S1x1x256.BroadcastsInDim S4x128x256 (![0, 1, 2] : Fin 3 → Fin S4x128x256.rank)
  bcast_S_S4x128x256 : S_.BroadcastsInDim S4x128x256 (![] : Fin 0 → Fin S4x128x256.rank)
  bcast_S5_S1x1x5_2 : S5.BroadcastsInDim S1x1x5 (![2] : Fin 1 → Fin S1x1x5.rank)
  bcast_S1x1x5_S4x128x5_0_1_2 : S1x1x5.BroadcastsInDim S4x128x5 (![0, 1, 2] : Fin 3 → Fin S4x128x5.rank)
  slices_S4x128x5_S4x128x1_0_0_4 : S4x128x5.Slices ![0, 0, 4] S4x128x1
  bcast_S_S4x128x1 : S_.BroadcastsInDim S4x128x1 (![] : Fin 0 → Fin S4x128x1.rank)
  concatenates_S4x128x4_S4x128x1_S4x128x5_d2 : Shape.Concatenates [S4x128x4, S4x128x1] S4x128x5 2
  gather_S4x256x23x30_S4x128x7x5x1_S4x128x256x7x5x30_25_2_0_0_2_4_1256130_wf : GatherDims.WF S4x256x23x30 S4x128x7x5x1 S4x128x256x7x5x30 [2, 5] [2] [0] [2] [0] 4 ![1, 256, 1, 30]
  gather_S4x128x256x7x30_S4x128x7x6x1_S4x128x256x7x7x6_23_4_01_01_4_4_1125671_wf : GatherDims.WF S4x128x256x7x30 S4x128x7x6x1 S4x128x256x7x7x6 [2, 3] [4] [0, 1] [4] [0, 1] 4 ![1, 1, 256, 7, 1]
  dot_S4x128x12544_S256x12544_S4x128x256_2_1_01_0_n_n_wf : DotDims.WF S4x128x12544 S256x12544 S4x128x256 [2] [1] [0, 1] [0] [] []
  dot_S4x128x256_S5x256_S4x128x5_2_1_01_0_n_n_wf : DotDims.WF S4x128x256 S5x256 S4x128x5 [2] [1] [0, 1] [0] [] []

variable [Facts₀]

def gather_S4x256x23x30_S4x128x7x5x1_S4x128x256x7x5x30_25_2_0_0_2_4_1256130 : GatherDims S4x256x23x30 S4x128x7x5x1 S4x128x256x7x5x30 where
  offsetDims := [2, 5]
  collapsedSliceDims := [2]
  operandBatchingDims := [0]
  startIndicesBatchingDims := [0]
  startIndexMap := [2]
  indexVectorDim := 4
  sliceSizes := ![1, 256, 1, 30]
  wf := gather_S4x256x23x30_S4x128x7x5x1_S4x128x256x7x5x30_25_2_0_0_2_4_1256130_wf
def gather_S4x128x256x7x30_S4x128x7x6x1_S4x128x256x7x7x6_23_4_01_01_4_4_1125671 : GatherDims S4x128x256x7x30 S4x128x7x6x1 S4x128x256x7x7x6 where
  offsetDims := [2, 3]
  collapsedSliceDims := [4]
  operandBatchingDims := [0, 1]
  startIndicesBatchingDims := [0, 1]
  startIndexMap := [4]
  indexVectorDim := 4
  sliceSizes := ![1, 1, 256, 7, 1]
  wf := gather_S4x128x256x7x30_S4x128x7x6x1_S4x128x256x7x7x6_23_4_01_01_4_4_1125671_wf
def dot_S4x128x12544_S256x12544_S4x128x256_2_1_01_0_n_n : DotDims S4x128x12544 S256x12544 S4x128x256 where
  lhsContracting := [2]
  rhsContracting := [1]
  lhsNonContracting := [0, 1]
  rhsNonContracting := [0]
  lhsBatch := []
  rhsBatch := []
  wf := dot_S4x128x12544_S256x12544_S4x128x256_2_1_01_0_n_n_wf
def dot_S4x128x256_S5x256_S4x128x5_2_1_01_0_n_n : DotDims S4x128x256 S5x256 S4x128x5 where
  lhsContracting := [2]
  rhsContracting := [1]
  lhsNonContracting := [0, 1]
  rhsNonContracting := [0]
  lhsBatch := []
  rhsBatch := []
  wf := dot_S4x128x256_S5x256_S4x128x5_2_1_01_0_n_n_wf

class Facts : Prop extends Facts₀ where

variable [Facts]
-- ==== Proof.Spec.lean ====
/-
  The regression head both programs compute, as one function of the pooled rows and the five parameter arrays,
  on the extended reals.

  For image `b`, proposal `n`: the pooled feature row `P[b, n, ·]` (12544 entries) meets row `j` of `W1`, the bias
  `b1[j]` is added and the result is cut below at zero (`hid`); the 256 hidden values meet row `o` of `W2`, the bias
  `b2[o]` is added, and the proposal's own entry `prop[b, n, o]` is added to that (`pre`). Columns 0–3 are returned as
  they are, column 4 through the logistic function (`headAt`).  Both sums are plain finite sums of products: no
  law beyond reading each program's operations at an index is needed to meet this form, and no finiteness.
-/
import Idealize.ShloMosaic.PureOps.Ideal
import Idealize.ShloMosaic.Lib.ValueIdx

noncomputable section

open scoped BigOperators

namespace Cert.Spec

open Idealize.ShloMosaic Idealize.ShloMosaic.ValueIdx

/-- pooled rows, one of length 12544 per (image, proposal) -/
abbrev SP : Shape := ⟨3, ![4, 128, 12544]⟩
/-- proposals and results: five numbers per (image, proposal) -/
abbrev SR : Shape := ⟨3, ![4, 128, 5]⟩
abbrev SW1 : Shape := ⟨2, ![256, 12544]⟩
abbrev Sb1 : Shape := ⟨1, ![256]⟩
abbrev SW2 : Shape := ⟨2, ![5, 256]⟩
abbrev Sb2 : Shape := ⟨1, ![5]⟩

/-- The zero the hidden layer is cut at, as the float word both programs write. -/
abbrev zeroWord : EReal := Ideal.ofBits .f32 0x00000000#32

/-- Hidden unit `j` of proposal `(b, n)`: `max (∑ₖ P[b,n,k] · W1[j,k] + b1[j]) 0`. -/
def hid (P : FVec Ideal SP .f32) (W1 : FVec Ideal SW1 .f32) (b1 : FVec Ideal Sb1 .f32)
    (b : Fin 4) (n : Fin 128) (j : Fin 256) : EReal :=
  max ((∑ k : Fin 12544, P (ix3 b n k) * W1 (ix2 j k)) + b1 (ix1 j)) zeroWord

/-- Output `o` of proposal `(b, n)` before the last step: `prop[b,n,o] + (∑ⱼ hid[j] · W2[o,j] + b2[o])`. -/
def pre (P : FVec Ideal SP .f32) (prop : FVec Ideal SR .f32) (W1 : FVec Ideal SW1 .f32) (b1 : FVec Ideal Sb1 .f32)
    (W2 : FVec Ideal SW2 .f32) (b2 : FVec Ideal Sb2 .f32) (b : Fin 4) (n : Fin 128) (o : Fin 5) : EReal :=
  prop (ix3 b n o) + ((∑ j : Fin 256, hid P W1 b1 b n j * W2 (ix2 o j)) + b2 (ix1 o))

/-- The head at coordinates: columns 0–3 as computed, column 4 through the logistic function. -/
def headAt (P : FVec Ideal SP .f32) (prop : FVec Ideal SR .f32) (W1 : FVec Ideal SW1 .f32) (b1 : FVec Ideal Sb1 .f32)
    (W2 : FVec Ideal SW2 .f32) (b2 : FVec Ideal Sb2 .f32) (b : Fin 4) (n : Fin 128) (o : Fin 5) : EReal :=
  if o.val < 4 then pre P prop W1 b1 W2 b2 b n o else Ideal.logistic (pre P prop W1 b1 W2 b2 b n o)

/-- The head as an array. -/
def head (P : FVec Ideal SP .f32) (prop : FVec Ideal SR .f32) (W1 : FVec Ideal SW1 .f32) (b1 : FVec Ideal Sb1 .f32)
    (W2 : FVec Ideal SW2 .f32) (b2 : FVec Ideal Sb2 .f32) : FVec Ideal SR .f32 :=
  fun i => headAt P prop W1 b1 W2 b2 (i 0) (i 1) (i 2)

theorem head_ix3 (P : FVec Ideal SP .f32) (prop : FVec Ideal SR .f32) (W1 : FVec Ideal SW1 .f32) (b1 : FVec Ideal Sb1 .f32)
    (W2 : FVec Ideal SW2 .f32) (b2 : FVec Ideal Sb2 .f32) (b : Fin 4) (n : Fin 128) (o : Fin 5) :
    head P prop W1 b1 W2 b2 (ix3 b n o) = headAt P prop W1 b1 W2 b2 b n o := rfl

/-- An array of results is the head as soon as it is at every coordinate triple. -/
theorem eq_head (P : FVec Ideal SP .f32) (prop : FVec Ideal SR .f32) (W1 : FVec Ideal SW1 .f32) (b1 : FVec Ideal Sb1 .f32)
    (W2 : FVec Ideal SW2 .f32) (b2 : FVec Ideal Sb2 .f32) (X : FVec Ideal SR .f32)
    (h : ∀ (b : Fin 4) (n : Fin 128) (o : Fin 5), X (ix3 b n o) = headAt P prop W1 b1 W2 b2 b n o) :
    X = head P prop W1 b1 W2 b2 := by
  funext i
  rw [eq_ix3 i]
  exact h (i 0) (i 1) (i 2)

/-! ## One block of 128 proposals

The kernel computes the head 128 proposals at a time: from a block of 128 pooled rows, the transposed weight matrices
(`x1[k, j] = W1[j, k]`, `x3[j, o] = W2[o, j]`), the biases and the block's 128 proposals. -/

abbrev SB0 : Shape := ⟨2, ![128, 12544]⟩
abbrev SB1 : Shape := ⟨2, ![12544, 256]⟩
abbrev SB3 : Shape := ⟨2, ![256, 5]⟩
abbrev SB5 : Shape := ⟨2, ![128, 5]⟩

/-- Hidden unit `j` of row `r` of a block. -/
def blockHid (x0 : FVec Ideal SB0 .bf16) (x1 : FVec Ideal SB1 .bf16) (x2 : FVec Ideal Sb1 .f32) (r : Fin 128) (j : Fin 256) : EReal :=
  max ((∑ k : Fin 12544, x0 (ix2 r k) * x1 (ix2 k j)) + x2 (ix1 j)) zeroWord

/-- Output `o` of row `r` of a block before the last step. -/
def blockPre (x0 : FVec Ideal SB0 .bf16) (x1 : FVec Ideal SB1 .bf16) (x2 : FVec Ideal Sb1 .f32) (x3 : FVec Ideal SB3 .bf16)
    (x4 : FVec Ideal Sb2 .f32) (x5 : FVec Ideal SB5 .f32) (r : Fin 128) (o : Fin 5) : EReal :=
  x5 (ix2 r o) + ((∑ j : Fin 256, blockHid x0 x1 x2 r j * x3 (ix2 j o)) + x4 (ix1 o))

/-- Row `r`, column `o` of the block of results. -/
def blockHead (x0 : FVec Ideal SB0 .bf16) (x1 : FVec Ideal SB1 .bf16) (x2 : FVec Ideal Sb1 .f32) (x3 : FVec Ideal SB3 .bf16)
    (x4 : FVec Ideal Sb2 .f32) (x5 : FVec Ideal SB5 .f32) (r : Fin 128) (o : Fin 5) : EReal :=
  if o.val < 4 then blockPre x0 x1 x2 x3 x4 x5 r o else Ideal.logistic (blockPre x0 x1 x2 x3 x4 x5 r o)

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.KPieceVal.lean ====
/-
  The arithmetic of the head's kernel body, read at one row and column on the extended reals.

  The body forms, for a block of 128 rows, the hidden layer
  `h[r, j] = max (∑ₖ x0[r, k] · x1[k, j] + x2[j]) 0` (a 128×12544 by 12544×256 product into a zero accumulator, a
  bias row broadcast down the rows, a cut at zero, a change of format that is the identity on extended reals), then
  `out[r, o] = ∑ⱼ h[r, j] · x3[j, o] + x4[o]` (a 128×256 by 256×5 product and a second bias row).  Columns 0–3 of
  `x5 + out` are one stored value, the logistic function of column 4 of `x5 + out` the other.  Each is read here at
  an explicit row and column and found to be the specification's `blockPre`, respectively its logistic.
-/
import proofs.«162856_j87222195847717_1_alg».proof.Proof.Gen.KernelIdeal.Skeleton
import proofs.«162856_j87222195847717_1_alg».proof.Proof.Spec
import proofs.«162856_j87222195847717_1_alg».proof.Proof.LibPlainDot
import Idealize.ShloMosaic.Lib.ValueLayout

noncomputable section

open scoped BigOperators

namespace Cert.KernelIdeal.Hand

open Cert.KernelIdeal Cert.KernelIdeal.Gen Idealize.ShloMosaic Idealize.ShloMosaic.ValueIdx

/-- The first product at `(r, j)`: the sum over the 12544 pooled features. -/
theorem kc1_dot1_apply (l : FVec Ideal S128x12544 .bf16) (w : FVec Ideal S12544x256 .bf16) (r : Fin 128) (j : Fin 256) :
    matmul dot_S128x12544_S12544x256_S128x256_1_0_0_1_n_n none l w (constant S128x256 .f32 0x00000000#32) (ix2 r j)
      = ∑ k : Fin 12544, l (ix2 r k) * w (ix2 k j) :=
  Cert.PlainDot.matmul_zero_apply 128 12544 256 none l w (ix2 r j)

/-- The second product at `(r, o)`: the sum over the 256 hidden units. -/
theorem kc1_dot2_apply (l : FVec Ideal S128x256 .bf16) (w : FVec Ideal S256x5 .bf16) (r : Fin 128) (o : Fin 5) :
    matmul dot_S128x256_S256x5_S128x5_1_0_0_1_n_n none l w (constant S128x5 .f32 0x00000000#32) (ix2 r o)
      = ∑ j : Fin 256, l (ix2 r j) * w (ix2 j o) :=
  Cert.PlainDot.matmul_zero_apply 128 256 5 none l w (ix2 r o)

/-- A bias vector of length `n` made a row and repeated down `m` rows reads, at `(r, j)`, its entry `j`. -/
theorem kc1_bias_apply {m n : Nat} (b : FVec Ideal (⟨1, ![n]⟩ : Shape) .f32)
    (h1 : (⟨1, ![n]⟩ : Shape).ShapeCasts ⟨2, ![1, n]⟩) (h2 : (⟨2, ![1, n]⟩ : Shape).Broadcasts ⟨2, ![m, n]⟩)
    (r : Fin m) (j : Fin n) :
    broadcastTo (⟨2, ![m, n]⟩ : Shape) (shapeCast (⟨2, ![1, n]⟩ : Shape) b h1) h2 (ix2 r j) = b (ix1 j) :=
  (broadcastTo_1b_ab_apply _ h2 r j).trans (shapeCast_a_1a_apply b h1 0 j)

/-- The body's `out` at `(r, o)`: the hidden layer against column `o` of the second weight matrix, plus its bias. -/
theorem kc1_pay1_apply (v0 : FVec Ideal S128x12544 .bf16) (v2 : FVec Ideal S12544x256 .bf16) (v5 : FVec Ideal S256 .f32)
    (v12 : FVec Ideal S256x5 .bf16) (v15 : FVec Ideal S5 .f32) (r : Fin 128) (o : Fin 5) :
    k0_pay1 (F := Ideal) v0 v2 v5 v12 v15 (ix2 r o)
      = (∑ j : Fin 256, Cert.Spec.blockHid v0 v2 v5 r j * v12 (ix2 j o)) + v15 (ix1 o) := by
  unfold k0_pay1
  rw [shapeCast_self, shapeCast_self, shapeCast_self]
  refine (addf_apply _ _ _).trans ?_
  refine congrArg₂ (· + ·) ?_ (kc1_bias_apply v15 _ _ r o)
  refine (kc1_dot2_apply _ _ r o).trans ?_
  refine Finset.sum_congr rfl fun j _ => ?_
  refine congrArg (· * v12 (ix2 j o)) ?_
  refine (truncf_apply (φ := .f32) (ψ := .bf16) _ bitsLt_bf16_f32 (ix2 r j)).trans ?_
  refine (maximumf_apply _ _ _).trans ?_
  unfold Cert.Spec.blockHid
  refine congrArg₂ max ?_ rfl
  refine (addf_apply _ _ _).trans ?_
  exact congrArg₂ (· + ·) (kc1_dot1_apply _ _ r j) (kc1_bias_apply v5 _ _ r j)

/-- The first stored value at `(r, o)`, `o < 4`: the proposal's entry plus `out`, both at the same column. -/
theorem kc1_pay3_apply (v0 : FVec Ideal S128x12544 .bf16) (v2 : FVec Ideal S12544x256 .bf16) (v5 : FVec Ideal S256 .f32)
    (v12 : FVec Ideal S256x5 .bf16) (v15 : FVec Ideal S5 .f32) (v19 : FVec Ideal S128x5 .f32)
    (r : Fin 128) (o : Fin 4) (k : Fin 5) (hk : k.val = o.val) :
    k0_pay3 (F := Ideal) v0 v2 v5 v12 v15 v19 (ix2 r o) = Cert.Spec.blockPre v0 v2 v5 v12 v15 v19 r k := by
  unfold k0_pay3 k0_pay2
  rw [shapeCast_self]
  refine (addf_apply _ _ _).trans ?_
  unfold Cert.Spec.blockPre
  refine congrArg₂ (· + ·) (slice2_axis1_apply 0 v19 _ r o k (by omega)) ?_
  exact (slice2_axis1_apply 0 _ _ r o k (by omega)).trans (kc1_pay1_apply v0 v2 v5 v12 v15 r k)

/-- The second stored value at `(r, 0)`: the logistic function of the proposal's entry plus `out` at column 4. -/
theorem kc1_pay4_apply (v0 : FVec Ideal S128x12544 .bf16) (v2 : FVec Ideal S12544x256 .bf16) (v5 : FVec Ideal S256 .f32)
    (v12 : FVec Ideal S256x5 .bf16) (v15 : FVec Ideal S5 .f32) (v19 : FVec Ideal S128x5 .f32)
    (r : Fin 128) (u : Fin 1) (k : Fin 5) (hk : k.val = 4) :
    k0_pay4 (F := Ideal) v0 v2 v5 v12 v15 v19 (ix2 r u)
      = Ideal.logistic (Cert.Spec.blockPre v0 v2 v5 v12 v15 v19 r k) := by
  unfold k0_pay4 k0_pay2
  rw [shapeCast_self]
  show Ideal.logistic _ = _
  refine congrArg Ideal.logistic ?_
  refine (addf_apply _ _ _).trans ?_
  unfold Cert.Spec.blockPre
  refine congrArg₂ (· + ·) (slice2_axis1_apply 4 v19 _ r u k (by omega)) ?_
  exact (slice2_axis1_apply 4 _ _ r u k (by omega)).trans (kc1_pay1_apply v0 v2 v5 v12 v15 r k)

end Cert.KernelIdeal.Hand

end
-- ==== Proof.KPiece.lean ====
/-
  What the head's kernel body leaves at one row and column of its output block.

  The body ends with two stores into the 128×5 output block: columns 0–3 (a 128×4 value at offset (0, 0)), then column 4
  (a 128×1 value at offset (0, 4)).  An entry `(r, o)` with `o < 4` lies outside the second store's rectangle and
  inside the first's, at position `(r, o)`; the entry `(r, 4)` lies inside the second's, at position `(r, 0)`.  The
  stored values are computed from the six loaded blocks, each loaded whole, so each load reads back the block itself.
  With the stored values read at an index (the sibling module on the body's arithmetic) the entry is the
  specification's `blockHead`: `blockPre` for `o < 4`, its logistic for `o = 4`.
-/
import proofs.«162856_j87222195847717_1_alg».proof.Proof.Gen.KernelIdeal.Frame
import proofs.«162856_j87222195847717_1_alg».proof.Proof.Spec
import proofs.«162856_j87222195847717_1_alg».proof.Proof.KPieceVal
import Idealize.ShloMosaic.Lib.ValueLayout
import Idealize.ShloMosaic.Lib.WritesUnit

noncomputable section

namespace Cert.KernelIdeal.Hand

open Cert.KernelIdeal Cert.KernelIdeal.Gen Idealize.ShloMosaic Idealize.ShloMosaic.ValueIdx

/-- The zero offsets of a rank-2 whole load, as a constant function. -/
theorem kc1_hz2 : (![0, 0] : Fin 2 → Nat) = fun _ => 0 := funext fun a => by
  match a with
  | ⟨0, _⟩ => rfl
  | ⟨1, _⟩ => rfl

/-- The zero offset of a rank-1 whole load, as a constant function. -/
theorem kc1_hz1 : (![0] : Fin 1 → Nat) = fun _ => 0 := funext fun a => by
  match a with
  | ⟨0, _⟩ => rfl

/-- Row `r`, column `o` of what the body leaves in the output block is the specification's block head there. -/
theorem kc1_out_apply (c : Dev nD) (i : grid0.Coords) (arg1 : Memref sig .tc .vmem S128x12544 .bf16) (harg1 : arg1.IsWhole) (arg2 : Memref sig .tc .vmem S12544x256 .bf16) (harg2 : arg2.IsWhole) (arg3 : Memref sig .tc .vmem S256 .f32) (harg3 : arg3.IsWhole) (arg4 : Memref sig .tc .vmem S256x5 .bf16) (harg4 : arg4.IsWhole) (arg5 : Memref sig .tc .vmem S5 .f32) (harg5 : arg5.IsWhole) (arg6 : Memref sig .tc .vmem S128x5 .f32) (harg6 : arg6.IsWhole) (arg7 : Memref sig .tc .vmem S128x5 .f32) (harg7 : arg7.IsWhole)
    (x0 : Vec Ideal S128x12544 .bf16) (x1 : Vec Ideal S12544x256 .bf16) (x2 : Vec Ideal S256 .f32) (x3 : Vec Ideal S256x5 .bf16) (x4 : Vec Ideal S5 .f32) (x5 : Vec Ideal S128x5 .f32)
    (r : Fin 128) (o : Fin 5) :
    Gen.out0_A_6 (F := Ideal) c i arg1 harg1 arg2 harg2 arg3 harg3 arg4 harg4 arg5 harg5 arg6 harg6 arg7 harg7 x0 x1 x2 x3 x4 x5 (ValueIdx.ix2 r o)
      = Cert.Spec.blockHead x0 x1 x2 x3 x4 x5 r o := by
  unfold out0_A_6 kernelRun0_A
  dsimp only
  -- each block is loaded whole: the load reads back the block
  simp only [View.readAt_eq_ld, harg1.read_unread, harg2.read_unread, harg3.read_unread, harg4.read_unread,
    harg5.read_unread, harg6.read_unread, View.ld_unit_zero (S := S128x12544) kc1_hz2,
    View.ld_unit_zero (S := S12544x256) kc1_hz2, View.ld_unit_zero (S := S256) kc1_hz1,
    View.ld_unit_zero (S := S256x5) kc1_hz2, View.ld_unit_zero (S := S5) kc1_hz1,
    View.ld_unit_zero (S := S128x5) kc1_hz2]
  unfold Cert.Spec.blockHead
  by_cases h : o.val < 4
  · -- columns 0–3: past the newest store (column 4), inside the older one at position (r, o)
    rw [if_pos h]
    refine (View.read_writes_cons_unit_of_not_mem VO0_6 _ _ _ _ _ rfl (1 : Fin 2) (Or.inl h)).trans ?_
    refine (View.read_writes_cons_unit_of_mem VO0_6 _ _ _ [] _ (ix2 r (⟨o.val, h⟩ : Fin 4)) rfl
      (Fin.forall_fin_two.mpr ⟨(Nat.zero_add _).symm, (Nat.zero_add _).symm⟩)).trans ?_
    exact kc1_pay3_apply x0 x1 x2 x3 x4 x5 r ⟨o.val, h⟩ o rfl
  · -- column 4: inside the newest store at position (r, 0)
    rw [if_neg h]
    have ho : o.val = 4 := by omega
    refine (View.read_writes_cons_unit_of_mem VO0_6 _ _ _ _ _ (ix2 r (0 : Fin 1)) rfl
      (Fin.forall_fin_two.mpr ⟨(Nat.zero_add _).symm, ?_⟩)).trans ?_
    · show o.val = 4 + 0
      omega
    exact kc1_pay4_apply x0 x1 x2 x3 x4 x5 r 0 o ho

end Cert.KernelIdeal.Hand

end
-- ==== Proof.KArrBlock.lean ====
/-
  The blocks the kernel's body is run on, read as entries of the arrays the region finds.

  At grid point `t` of four the pipeline stages rows `128·t … 128·t + 127` of the bf16 pooled rows (window 0) and of the
  reshaped proposals (window 5), and the whole of the two transposed weight matrices and the two biases (windows 1–4: their
  index maps are constant zero); it writes rows `128·t …` of the result (window 6).  Each lemma here reads one window's
  block at point `t` at coordinates inside the block as the array at the coordinates `block index × block size + coordinate`,
  the block indices having been decided once over the four points.
-/
import proofs.«162856_j87222195847717_1_alg».proof.Proof.Gen.KernelIdeal.Frame
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx Idealize.SL.Sem

/-- The seven index maps at every point of the grid: windows 0, 5 and 6 are at block `(t, 0)`, the others at block zero. -/
theorem kc2_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## A window's block of ANY array of the window's shape -/

theorem kc2_blk0_read (t : Fin cfg0.N) (r : Fin 128) (k : Fin 12544) (q : Fin 512) (hq : q.val = 128 * t.val + r.val)
    (A : FVec Ideal S512x12544 .bf16) :
    (((cfg0.win 0).blk t).view.read (Elt Ideal) A : Vec Ideal S128x12544 .bf16) (ix2 r k) = A (ix2 q k) := by
  obtain ⟨e00, e01, e10, e11, e20, e30, e31, e40, e50, e51, e60, e61⟩ := kc2_idx_facts t
  rw [View.read_apply, cast_eq]
  refine congrArg A ?_
  funext a; apply Fin.ext
  match a with
  | ⟨0, _⟩ => show win0_0.index t (0 : Fin 2) * 128 + 1 * r.val = q.val; rw [e00, hq]; omega
  | ⟨1, _⟩ => show win0_0.index t (1 : Fin 2) * 12544 + 1 * k.val = k.val; rw [e01]; omega

theorem kc2_blk1_read (t : Fin cfg0.N) (k : Fin 12544) (j : Fin 256)
    (A : FVec Ideal S12544x256 .bf16) :
    (((cfg0.win 1).blk t).view.read (Elt Ideal) A : Vec Ideal S12544x256 .bf16) (ix2 k j) = A (ix2 k j) := by
  obtain ⟨e00, e01, e10, e11, e20, e30, e31, e40, e50, e51, e60, e61⟩ := kc2_idx_facts t
  rw [View.read_apply, cast_eq]
  refine congrArg A ?_
  funext a; apply Fin.ext
  match a with
  | ⟨0, _⟩ => show win0_1.index t (0 : Fin 2) * 12544 + 1 * k.val = k.val; rw [e10]; omega
  | ⟨1, _⟩ => show win0_1.index t (1 : Fin 2) * 256 + 1 * j.val = j.val; rw [e11]; omega

theorem kc2_blk2_read (t : Fin cfg0.N) (j : Fin 256)
    (A : FVec Ideal S256 .f32) :
    (((cfg0.win 2).blk t).view.read (Elt Ideal) A : Vec Ideal S256 .f32) (ix1 j) = A (ix1 j) := by
  obtain ⟨e00, e01, e10, e11, e20, e30, e31, e40, e50, e51, e60, e61⟩ := kc2_idx_facts t
  rw [View.read_apply, cast_eq]
  refine congrArg A ?_
  funext a; apply Fin.ext
  match a with
  | ⟨0, _⟩ => show win0_2.index t (0 : Fin 1) * 256 + 1 * j.val = j.val; rw [e20]; omega

theorem kc2_blk3_read (t : Fin cfg0.N) (j : Fin 256) (o : Fin 5)
    (A : FVec Ideal S256x5 .bf16) :
    (((cfg0.win 3).blk t).view.read (Elt Ideal) A : Vec Ideal S256x5 .bf16) (ix2 j o) = A (ix2 j o) := by
  obtain ⟨e00, e01, e10, e11, e20, e30, e31, e40, e50, e51, e60, e61⟩ := kc2_idx_facts t
  rw [View.read_apply, cast_eq]
  refine congrArg A ?_
  funext a; apply Fin.ext
  match a with
  | ⟨0, _⟩ => show win0_3.index t (0 : Fin 2) * 256 + 1 * j.val = j.val; rw [e30]; omega
  | ⟨1, _⟩ => show win0_3.index t (1 : Fin 2) * 5 + 1 * o.val = o.val; rw [e31]; omega

theorem kc2_blk4_read (t : Fin cfg0.N) (o : Fin 5)
    (A : FVec Ideal S5 .f32) :
    (((cfg0.win 4).blk t).view.read (Elt Ideal) A : Vec Ideal S5 .f32) (ix1 o) = A (ix1 o) := by
  obtain ⟨e00, e01, e10, e11, e20, e30, e31, e40, e50, e51, e60, e61⟩ := kc2_idx_facts t
  rw [View.read_apply, cast_eq]
  refine congrArg A ?_
  funext a; apply Fin.ext
  match a with
  | ⟨0, _⟩ => show win0_4.index t (0 : Fin 1) * 5 + 1 * o.val = o.val; rw [e40]; omega

theorem kc2_blk5_read (t : Fin cfg0.N) (r : Fin 128) (o : Fin 5) (q : Fin 512) (hq : q.val = 128 * t.val + r.val)
    (A : FVec Ideal S512x5 .f32) :
    (((cfg0.win 5).blk t).view.read (Elt Ideal) A : Vec Ideal S128x5 .f32) (ix2 r o) = A (ix2 q o) := by
  obtain ⟨e00, e01, e10, e11, e20, e30, e31, e40, e50, e51, e60, e61⟩ := kc2_idx_facts t
  rw [View.read_apply, cast_eq]
  refine congrArg A ?_
  funext a; apply Fin.ext
  match a with
  | ⟨0, _⟩ => show win0_5.index t (0 : Fin 2) * 128 + 1 * r.val = q.val; rw [e50, hq]; omega
  | ⟨1, _⟩ => show win0_5.index t (1 : Fin 2) * 5 + 1 * o.val = o.val; rw [e51]; omega

theorem kc2_blk6_read (t : Fin cfg0.N) (r : Fin 128) (o : Fin 5) (q : Fin 512) (hq : q.val = 128 * t.val + r.val)
    (A : FVec Ideal S512x5 .f32) :
    (((cfg0.win 6).blk t).view.read (Elt Ideal) A : Vec Ideal S128x5 .f32) (ix2 r o) = A (ix2 q o) := by
  obtain ⟨e00, e01, e10, e11, e20, e30, e31, e40, e50, e51, e60, e61⟩ := kc2_idx_facts t
  rw [View.read_apply, cast_eq]
  refine congrArg A ?_
  funext a; apply Fin.ext
  match a with
  | ⟨0, _⟩ => show win0_6.index t (0 : Fin 2) * 128 + 1 * r.val = q.val; rw [e60, hq]; omega
  | ⟨1, _⟩ => show win0_6.index t (1 : Fin 2) * 5 + 1 * o.val = o.val; rw [e61]; omega

end Cert.KernelIdeal.Hand

end
-- ==== Proof.KArrHost.lean ====
/-
  What the kernel's region finds in the four buffers the host prepares for it.

  The last stretch of host operations before the region writes, in order: the pooled rows `%129 : f32[4,128,12544]`;
  their bf16 copy reshaped to `[512,12544]` (`%131`, row `128·b + n` is row `(b, n)`); the transposes of the two weight
  matrices, rounded to bf16 (`%133`, `%135`); and the proposals reshaped to `[512,5]` (`%136`).  On the extended reals
  rounding to bf16 is the identity, so each of the four is a re-indexing: of `%129` as the region finds it, or of an
  argument as launched.  The host operations before that stretch are never opened: the fold over the operations is
  cut once in front of the last stretch, and the contents before it stay a variable.
-/
import proofs.«162856_j87222195847717_1_alg».proof.Proof.Gen.KernelIdeal.Frame
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx Idealize.SL.Sem

/-- Two lines of operations run one after the other leave what their concatenation leaves. -/
theorem kc2_after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

/-- Flattening a list of lists with one more list at its end appends that list. -/
theorem kc2_flatten_snoc {α : Type} (L : List (List α)) (l : List α) : List.flatten (L ++ [l]) = List.flatten L ++ l := by
  rw [List.flatten_append, List.flatten_cons, List.flatten_nil, List.append_nil]

variable (m : (ℓ : Loc nD τ sig) → Buf (Elt Ideal) ℓ)

/-- The contents the region finds are the last stretch's ten operations applied to SOME contents (those the earlier
    stretches leave, which nothing below looks into). -/
theorem kc2_V0_cut (c : Dev nD) : ∃ W : Valuation τ sig (Elt Ideal), V0 m c = StableHlo.after hostOps0_24 W := by
  refine ⟨StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) (fun b => m (c, b)), ?_⟩
  show StableHlo.after (List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23] ++ [hostOps0_24])) (fun b => m (c, b)) = _
  rw [kc2_flatten_snoc, kc2_after_append]

/-! ## The last stretch, from any contents before it -/

theorem kc2_last_v131 (W : Valuation τ sig (Elt Ideal)) :
    (StableHlo.after (hostOps0_24 (F := Ideal)) W (Proc.devRef .tc main_v131) : FVec Ideal S512x12544 .bf16)
      = shapeCast S512x12544 (truncf .bf16 (StableHlo.after (hostOps0_24 (F := Ideal)) W (Proc.devRef .tc main_v129) : FVec Ideal S4x128x12544 .f32) Facts₀.bitsLt_bf16_f32 : FVec Ideal S4x128x12544 .bf16) Facts₀.shapeCasts_S4x128x12544_S512x12544 := by
  after_results
  rfl

theorem kc2_last_v133 (W : Valuation τ sig (Elt Ideal)) :
    (StableHlo.after (hostOps0_24 (F := Ideal)) W (Proc.devRef .tc main_v133) : FVec Ideal S12544x256 .bf16)
      = truncf .bf16 (transpose S12544x256 [1, 0] (StableHlo.after (hostOps0_24 (F := Ideal)) W (Proc.devRef .tc main_arg2) : FVec Ideal S256x12544 .f32) Facts₀.transposes_S256x12544_S12544x256_1_0 : FVec Ideal S12544x256 .f32) Facts₀.bitsLt_bf16_f32 := by
  after_results

theorem kc2_last_v135 (W : Valuation τ sig (Elt Ideal)) :
    (StableHlo.after (hostOps0_24 (F := Ideal)) W (Proc.devRef .tc main_v135) : FVec Ideal S256x5 .bf16)
      = truncf .bf16 (transpose S256x5 [1, 0] (StableHlo.after (hostOps0_24 (F := Ideal)) W (Proc.devRef .tc main_arg4) : FVec Ideal S5x256 .f32) Facts₀.transposes_S5x256_S256x5_1_0 : FVec Ideal S256x5 .f32) Facts₀.bitsLt_bf16_f32 := by
  after_results

theorem kc2_last_v136 (W : Valuation τ sig (Elt Ideal)) :
    (StableHlo.after (hostOps0_24 (F := Ideal)) W (Proc.devRef .tc main_v136) : FVec Ideal S512x5 .f32)
      = shapeCast S512x5 (StableHlo.after (hostOps0_24 (F := Ideal)) W (Proc.devRef .tc main_arg1) : FVec Ideal S4x128x5 .f32) Facts₀.shapeCasts_S4x128x5_S512x5 := by
  after_results
  rfl

/-! ## The four buffers as the region finds them -/

theorem kc2_v131_eq (c : Dev nD) :
    (V m c main_v131 : FVec Ideal S512x12544 .bf16)
      = shapeCast S512x12544 (truncf .bf16 (V m c main_v129 : FVec Ideal S4x128x12544 .f32) Facts₀.bitsLt_bf16_f32 : FVec Ideal S4x128x12544 .bf16) Facts₀.shapeCasts_S4x128x12544_S512x12544 := by
  obtain ⟨W, hW⟩ := kc2_V0_cut m c
  show (V0 m c (Proc.devRef .tc main_v131) : FVec Ideal S512x12544 .bf16)
    = shapeCast S512x12544 (truncf .bf16 (V0 m c (Proc.devRef .tc main_v129) : FVec Ideal S4x128x12544 .f32) Facts₀.bitsLt_bf16_f32 : FVec Ideal S4x128x12544 .bf16) Facts₀.shapeCasts_S4x128x12544_S512x12544
  rw [hW]
  exact kc2_last_v131 W

theorem kc2_v133_eq (c : Dev nD) :
    (V m c main_v133 : FVec Ideal S12544x256 .bf16)
      = truncf .bf16 (transpose S12544x256 [1, 0] (V m c main_arg2 : FVec Ideal S256x12544 .f32) Facts₀.transposes_S256x12544_S12544x256_1_0 : FVec Ideal S12544x256 .f32) Facts₀.bitsLt_bf16_f32 := by
  obtain ⟨W, hW⟩ := kc2_V0_cut m c
  show (V0 m c (Proc.devRef .tc main_v133) : FVec Ideal S12544x256 .bf16)
    = truncf .bf16 (transpose S12544x256 [1, 0] (V0 m c (Proc.devRef .tc main_arg2) : FVec Ideal S256x12544 .f32) Facts₀.transposes_S256x12544_S12544x256_1_0 : FVec Ideal S12544x256 .f32) Facts₀.bitsLt_bf16_f32
  rw [hW]
  exact kc2_last_v133 W

theorem kc2_v135_eq (c : Dev nD) :
    (V m c main_v135 : FVec Ideal S256x5 .bf16)
      = truncf .bf16 (transpose S256x5 [1, 0] (V m c main_arg4 : FVec Ideal S5x256 .f32) Facts₀.transposes_S5x256_S256x5_1_0 : FVec Ideal S256x5 .f32) Facts₀.bitsLt_bf16_f32 := by
  obtain ⟨W, hW⟩ := kc2_V0_cut m c
  show (V0 m c (Proc.devRef .tc main_v135) : FVec Ideal S256x5 .bf16)
    = truncf .bf16 (transpose S256x5 [1, 0] (V0 m c (Proc.devRef .tc main_arg4) : FVec Ideal S5x256 .f32) Facts₀.transposes_S5x256_S256x5_1_0 : FVec Ideal S256x5 .f32) Facts₀.bitsLt_bf16_f32
  rw [hW]
  exact kc2_last_v135 W

theorem kc2_v136_eq (c : Dev nD) :
    (V m c main_v136 : FVec Ideal S512x5 .f32)
      = shapeCast S512x5 (V m c main_arg1 : FVec Ideal S4x128x5 .f32) Facts₀.shapeCasts_S4x128x5_S512x5 := by
  obtain ⟨W, hW⟩ := kc2_V0_cut m c
  show (V0 m c (Proc.devRef .tc main_v136) : FVec Ideal S512x5 .f32)
    = shapeCast S512x5 (V0 m c (Proc.devRef .tc main_arg1) : FVec Ideal S4x128x5 .f32) Facts₀.shapeCasts_S4x128x5_S512x5
  rw [hW]
  exact kc2_last_v136 W

/-! ## The four re-indexings, of any array -/

/-- Row `128·b + n` of the `[512,12544]` reshape of a `[4,128,12544]` array is its row `(b, n)`; rounding to bf16
    changes nothing on the extended reals. -/
theorem kc2_rows_apply (x : FVec Ideal S4x128x12544 .f32) (b : Fin 4) (n : Fin 128) (k : Fin 12544) (r : Fin 512)
    (hr : r.val = 128 * b.val + n.val) :
    shapeCast S512x12544 (truncf .bf16 x Facts₀.bitsLt_bf16_f32 : FVec Ideal S4x128x12544 .bf16) Facts₀.shapeCasts_S4x128x12544_S512x12544 (ix2 r k)
      = x (ix3 b n k) := by
  refine (shapeCast_apply (truncf .bf16 x Facts₀.bitsLt_bf16_f32 : FVec Ideal S4x128x12544 .bf16) Facts₀.shapeCasts_S4x128x12544_S512x12544 (ix2 r k) (ix3 b n k) ?_).trans ?_
  · rw [Shape.rowMajor_val_three, Shape.rowMajor_val_two]
    show (b.val * 128 + n.val) * 12544 + k.val = r.val * 12544 + k.val
    rw [hr]; omega
  · exact truncf_apply x Facts₀.bitsLt_bf16_f32 (ix3 b n k)

/-- Entry `(k, j)` of the transposed first weight matrix is entry `(j, k)`. -/
theorem kc2_w1t_apply (x : FVec Ideal S256x12544 .f32) (k : Fin 12544) (j : Fin 256) :
    (truncf .bf16 (transpose S12544x256 [1, 0] x Facts₀.transposes_S256x12544_S12544x256_1_0 : FVec Ideal S12544x256 .f32) Facts₀.bitsLt_bf16_f32 : FVec Ideal S12544x256 .bf16) (ix2 k j)
      = x (ix2 j k) := by
  refine (truncf_apply (transpose S12544x256 [1, 0] x Facts₀.transposes_S256x12544_S12544x256_1_0 : FVec Ideal S12544x256 .f32) Facts₀.bitsLt_bf16_f32 (ix2 k j)).trans ?_
  exact transpose_apply _ x Facts₀.transposes_S256x12544_S12544x256_1_0 (ix2 k j) (ix2 j k) fun a => match a with | ⟨0, _⟩ => rfl | ⟨1, _⟩ => rfl

/-- Entry `(j, o)` of the transposed second weight matrix is entry `(o, j)`. -/
theorem kc2_w2t_apply (x : FVec Ideal S5x256 .f32) (j : Fin 256) (o : Fin 5) :
    (truncf .bf16 (transpose S256x5 [1, 0] x Facts₀.transposes_S5x256_S256x5_1_0 : FVec Ideal S256x5 .f32) Facts₀.bitsLt_bf16_f32 : FVec Ideal S256x5 .bf16) (ix2 j o)
      = x (ix2 o j) := by
  refine (truncf_apply (transpose S256x5 [1, 0] x Facts₀.transposes_S5x256_S256x5_1_0 : FVec Ideal S256x5 .f32) Facts₀.bitsLt_bf16_f32 (ix2 j o)).trans ?_
  exact transpose_apply _ x Facts₀.transposes_S5x256_S256x5_1_0 (ix2 j o) (ix2 o j) fun a => match a with | ⟨0, _⟩ => rfl | ⟨1, _⟩ => rfl

/-- Row `128·b + n` of the `[512,5]` reshape of a `[4,128,5]` array is its row `(b, n)`. -/
theorem kc2_props_apply (x : FVec Ideal S4x128x5 .f32) (b : Fin 4) (n : Fin 128) (o : Fin 5) (r : Fin 512)
    (hr : r.val = 128 * b.val + n.val) :
    shapeCast S512x5 x Facts₀.shapeCasts_S4x128x5_S512x5 (ix2 r o) = x (ix3 b n o) := by
  refine shapeCast_apply x Facts₀.shapeCasts_S4x128x5_S512x5 (ix2 r o) (ix3 b n o) ?_
  rw [Shape.rowMajor_val_three, Shape.rowMajor_val_two]
  show (b.val * 128 + n.val) * 5 + o.val = r.val * 5 + o.val
  rw [hr]; omega

/-! ## The four buffers, entry by entry -/

/-- Row `128·b + n` of the reshaped bf16 copy is row `(b, n)` of the pooled rows. -/
theorem kc2_v131_apply (c : Dev nD) (b : Fin 4) (n : Fin 128) (k : Fin 12544) (r : Fin 512) (hr : r.val = 128 * b.val + n.val) :
    (V m c main_v131 : FVec Ideal S512x12544 .bf16) (ix2 r k) = (V m c main_v129 : FVec Ideal S4x128x12544 .f32) (ix3 b n k) :=
  (congrFun (kc2_v131_eq m c) (ix2 r k)).trans (kc2_rows_apply (V m c main_v129) b n k r hr)

/-- The first weight matrix arrives transposed. -/
theorem kc2_v133_apply (c : Dev nD) (k : Fin 12544) (j : Fin 256) :
    (V m c main_v133 : FVec Ideal S12544x256 .bf16) (ix2 k j) = (m ((c.tc : Thread nD τ).loc main_arg2) : FVec Ideal S256x12544 .f32) (ix2 j k) :=
  ((congrFun (kc2_v133_eq m c) (ix2 k j)).trans (kc2_w1t_apply (V m c main_arg2) k j)).trans
    (congrFun (V_main_arg2 m c) (ix2 j k))

/-- The second weight matrix arrives transposed. -/
theorem kc2_v135_apply (c : Dev nD) (j : Fin 256) (o : Fin 5) :
    (V m c main_v135 : FVec Ideal S256x5 .bf16) (ix2 j o) = (m ((c.tc : Thread nD τ).loc main_arg4) : FVec Ideal S5x256 .f32) (ix2 o j) :=
  ((congrFun (kc2_v135_eq m c) (ix2 j o)).trans (kc2_w2t_apply (V m c main_arg4) j o)).trans
    (congrFun (V_main_arg4 m c) (ix2 o j))

/-- Row `128·b + n` of the reshaped proposals is proposal `(b, n)`. -/
theorem kc2_v136_apply (c : Dev nD) (b : Fin 4) (n : Fin 128) (o : Fin 5) (r : Fin 512) (hr : r.val = 128 * b.val + n.val) :
    (V m c main_v136 : FVec Ideal S512x5 .f32) (ix2 r o) = (m ((c.tc : Thread nD τ).loc main_arg1) : FVec Ideal S4x128x5 .f32) (ix3 b n o) :=
  ((congrFun (kc2_v136_eq m c) (ix2 r o)).trans (kc2_props_apply (V m c main_arg1) b n o r hr)).trans
    (congrFun (V_main_arg1 m c) (ix3 b n o))

end Cert.KernelIdeal.Hand

end
-- ==== Proof.KArrSpec.lean ====
/-
  One block of 128 proposals is one image, and the 512 rows the kernel writes are the four images' proposals in order.

  The block-level head of Spec.lean takes a block of 128 pooled rows, the two weight matrices transposed, the two
  biases and the block's 128 proposals.  When the block's rows are the rows of image `b` of the pooled array, its
  proposals are those of image `b`, and the matrices are the transposes of `W1` and `W2`, every entry of the block's
  head is the head of proposal `(b, r)`: the two sums run over the same index sets with the same summands, so nothing
  beyond rewriting each entry is needed.

  The kernel's result array has 512 rows of five: `kc2_flatHead` is the head in that layout, row `128·b + n` being
  proposal `(b, n)` (the quotient and the remainder of the row number by 128).
-/
import proofs.«162856_j87222195847717_1_alg».proof.Proof.Spec

noncomputable section

open scoped BigOperators

namespace Cert.Spec

open Idealize.ShloMosaic Idealize.ShloMosaic.ValueIdx

/-- The head of a block whose entries are those of image `b` is the head at `(b, r, o)`. -/
theorem kc2_blockHead_eq_headAt (P : FVec Ideal SP .f32) (prop : FVec Ideal SR .f32) (W1 : FVec Ideal SW1 .f32)
    (b1 : FVec Ideal Sb1 .f32) (W2 : FVec Ideal SW2 .f32) (b2 : FVec Ideal Sb2 .f32)
    (x0 : FVec Ideal SB0 .bf16) (x1 : FVec Ideal SB1 .bf16) (x2 : FVec Ideal Sb1 .f32) (x3 : FVec Ideal SB3 .bf16)
    (x4 : FVec Ideal Sb2 .f32) (x5 : FVec Ideal SB5 .f32) (b : Fin 4)
    (h0 : ∀ (r : Fin 128) (k : Fin 12544), x0 (ix2 r k) = P (ix3 b r k))
    (h1 : ∀ (k : Fin 12544) (j : Fin 256), x1 (ix2 k j) = W1 (ix2 j k))
    (h2 : ∀ j : Fin 256, x2 (ix1 j) = b1 (ix1 j))
    (h3 : ∀ (j : Fin 256) (o : Fin 5), x3 (ix2 j o) = W2 (ix2 o j))
    (h4 : ∀ o : Fin 5, x4 (ix1 o) = b2 (ix1 o))
    (h5 : ∀ (r : Fin 128) (o : Fin 5), x5 (ix2 r o) = prop (ix3 b r o))
    (r : Fin 128) (o : Fin 5) :
    blockHead x0 x1 x2 x3 x4 x5 r o = headAt P prop W1 b1 W2 b2 b r o := by
  have hhid : ∀ j : Fin 256, blockHid x0 x1 x2 r j = hid P W1 b1 b r j := fun j => by
    unfold blockHid hid
    simp only [h0, h1, h2]
  have hpre : blockPre x0 x1 x2 x3 x4 x5 r o = pre P prop W1 b1 W2 b2 b r o := by
    unfold blockPre pre
    simp only [hhid, h3, h4, h5]
  unfold blockHead headAt
  rw [hpre]

/-- The shape the kernel writes its result in: 512 rows of five. -/
abbrev kc2_SF : Shape := ⟨2, ![512, 5]⟩

/-- The head laid out as 512 rows of five: row `ρ` is proposal `(ρ / 128, ρ % 128)`. -/
def kc2_flatHead (P : FVec Ideal SP .f32) (prop : FVec Ideal SR .f32) (W1 : FVec Ideal SW1 .f32) (b1 : FVec Ideal Sb1 .f32)
    (W2 : FVec Ideal SW2 .f32) (b2 : FVec Ideal Sb2 .f32) : FVec Ideal kc2_SF .f32 :=
  fun i => headAt P prop W1 b1 W2 b2 ⟨(i 0).val / 128, by have := idx2_lt0 i; omega⟩ ⟨(i 0).val % 128, Nat.mod_lt _ (by decide)⟩
    ⟨(i 1).val, idx2_lt1 i⟩

/-- At an index whose row is `128·b + n` and whose column is `o`, the flat layout holds the head at `(b, n, o)`. -/
theorem kc2_flatHead_of_coords (P : FVec Ideal SP .f32) (prop : FVec Ideal SR .f32) (W1 : FVec Ideal SW1 .f32)
    (b1 : FVec Ideal Sb1 .f32) (W2 : FVec Ideal SW2 .f32) (b2 : FVec Ideal Sb2 .f32) (i : kc2_SF.Idx)
    (b : Fin 4) (n : Fin 128) (o : Fin 5) (h0 : (i 0).val = 128 * b.val + n.val) (h1 : (i 1).val = o.val) :
    kc2_flatHead P prop W1 b1 W2 b2 i = headAt P prop W1 b1 W2 b2 b n o := by
  unfold kc2_flatHead
  have e0 : ∀ h, (⟨(i 0).val / 128, h⟩ : Fin 4) = b := fun h =>
    Fin.ext (by show (i 0).val / 128 = b.val; have := n.isLt; omega)
  have e1 : ∀ h, (⟨(i 0).val % 128, h⟩ : Fin 128) = n := fun h =>
    Fin.ext (by show (i 0).val % 128 = n.val; have := n.isLt; omega)
  have e2 : ∀ h, (⟨(i 1).val, h⟩ : Fin 5) = o := fun h => Fin.ext h1
  rw [e0, e1, e2]

end Cert.Spec

end
-- ==== Proof.KArrPoint.lean ====
/-
  What one grid point leaves in the result, entry by entry.

  Point `t` of the grid works on image `t`: its block of pooled rows is rows `(t, ·)` of the pooled array, its block of
  proposals the proposals of image `t`, and the weights it sees are the transposed matrices.  Given that the body's result
  on any blocks is the block-level head of those blocks (the hypothesis `hpiece`), the staging buffer of the result after
  point `t` holds, at row `r` and column `o`, the head of proposal `(t, r)` at `o`; written back through the window it is
  rows `128·t … 128·t + 127` of the head laid out as 512 rows of five.
-/
import proofs.«162856_j87222195847717_1_alg».proof.Proof.KArrBlock
import proofs.«162856_j87222195847717_1_alg».proof.Proof.KArrHost
import proofs.«162856_j87222195847717_1_alg».proof.Proof.KArrSpec

noncomputable section

namespace Cert.KernelIdeal.Hand

open Cert.KernelIdeal Cert.KernelIdeal.Gen Idealize.ShloMosaic Idealize.ShloMosaic.ValueIdx Idealize.SL.Sem

variable (m : (ℓ : Loc nD τ sig) → Buf (Elt Ideal) ℓ)

/-! ## Each window's array is the buffer its operand names -/

/-- The region-entry contents of one buffer under two names. -/
theorem kc2_V_heq (c : Dev nD) (b b' : Ref sig .tc) (e : b = b') : HEq (V m c b) (V m c b') := by
  subst e; exact HEq.rfl

theorem kc2_V_arr0 (c : Dev nD) :
    (V m c (Pipeline.arrRef spec0 (0 : Fin cfg0.W)) : FVec Ideal S512x12544 .bf16) = (V m c main_v131 : FVec Ideal S512x12544 .bf16) :=
  eq_of_heq (kc2_V_heq m c (Pipeline.arrRef spec0 (0 : Fin cfg0.W)) main_v131 rfl)
theorem kc2_V_arr1 (c : Dev nD) :
    (V m c (Pipeline.arrRef spec0 (1 : Fin cfg0.W)) : FVec Ideal S12544x256 .bf16) = (V m c main_v133 : FVec Ideal S12544x256 .bf16) :=
  eq_of_heq (kc2_V_heq m c (Pipeline.arrRef spec0 (1 : Fin cfg0.W)) main_v133 rfl)
theorem kc2_V_arr2 (c : Dev nD) :
    (V m c (Pipeline.arrRef spec0 (2 : Fin cfg0.W)) : FVec Ideal S256 .f32) = (V m c main_arg3 : FVec Ideal S256 .f32) :=
  eq_of_heq (kc2_V_heq m c (Pipeline.arrRef spec0 (2 : Fin cfg0.W)) main_arg3 rfl)
theorem kc2_V_arr3 (c : Dev nD) :
    (V m c (Pipeline.arrRef spec0 (3 : Fin cfg0.W)) : FVec Ideal S256x5 .bf16) = (V m c main_v135 : FVec Ideal S256x5 .bf16) :=
  eq_of_heq (kc2_V_heq m c (Pipeline.arrRef spec0 (3 : Fin cfg0.W)) main_v135 rfl)
theorem kc2_V_arr4 (c : Dev nD) :
    (V m c (Pipeline.arrRef spec0 (4 : Fin cfg0.W)) : FVec Ideal S5 .f32) = (V m c main_arg5 : FVec Ideal S5 .f32) :=
  eq_of_heq (kc2_V_heq m c (Pipeline.arrRef spec0 (4 : Fin cfg0.W)) main_arg5 rfl)
theorem kc2_V_arr5 (c : Dev nD) :
    (V m c (Pipeline.arrRef spec0 (5 : Fin cfg0.W)) : FVec Ideal S512x5 .f32) = (V m c main_v136 : FVec Ideal S512x5 .f32) :=
  eq_of_heq (kc2_V_heq m c (Pipeline.arrRef spec0 (5 : Fin cfg0.W)) main_v136 rfl)

/-! ## The input blocks at a point, as entries of the buffers the region finds -/

theorem kc2_iblk0_apply (c : Dev nD) (t : Fin cfg0.N) (r : Fin 128) (k : Fin 12544) (q : Fin 512) (hq : q.val = 128 * t.val + r.val) :
    (iblk m c 0 t : Vec Ideal S128x12544 .bf16) (ix2 r k) = (V m c main_v131 : FVec Ideal S512x12544 .bf16) (ix2 q k) := by
  unfold iblk
  refine (congrArg (fun A : FVec Ideal S512x12544 .bf16 => (((cfg0.win 0).blk t).view.read (Elt Ideal) A : Vec Ideal S128x12544 .bf16) (ix2 r k)) (kc2_V_arr0 m c)).trans ?_
  exact kc2_blk0_read t r k q hq (V m c main_v131)

theorem kc2_iblk1_apply (c : Dev nD) (t : Fin cfg0.N) (k : Fin 12544) (j : Fin 256) :
    (iblk m c 1 t : Vec Ideal S12544x256 .bf16) (ix2 k j) = (V m c main_v133 : FVec Ideal S12544x256 .bf16) (ix2 k j) := by
  unfold iblk
  refine (congrArg (fun A : FVec Ideal S12544x256 .bf16 => (((cfg0.win 1).blk t).view.read (Elt Ideal) A : Vec Ideal S12544x256 .bf16) (ix2 k j)) (kc2_V_arr1 m c)).trans ?_
  exact kc2_blk1_read t k j (V m c main_v133)

theorem kc2_iblk2_apply (c : Dev nD) (t : Fin cfg0.N) (j : Fin 256) :
    (iblk m c 2 t : Vec Ideal S256 .f32) (ix1 j) = (V m c main_arg3 : FVec Ideal S256 .f32) (ix1 j) := by
  unfold iblk
  refine (congrArg (fun A : FVec Ideal S256 .f32 => (((cfg0.win 2).blk t).view.read (Elt Ideal) A : Vec Ideal S256 .f32) (ix1 j)) (kc2_V_arr2 m c)).trans ?_
  exact kc2_blk2_read t j (V m c main_arg3)

theorem kc2_iblk3_apply (c : Dev nD) (t : Fin cfg0.N) (j : Fin 256) (o : Fin 5) :
    (iblk m c 3 t : Vec Ideal S256x5 .bf16) (ix2 j o) = (V m c main_v135 : FVec Ideal S256x5 .bf16) (ix2 j o) := by
  unfold iblk
  refine (congrArg (fun A : FVec Ideal S256x5 .bf16 => (((cfg0.win 3).blk t).view.read (Elt Ideal) A : Vec Ideal S256x5 .bf16) (ix2 j o)) (kc2_V_arr3 m c)).trans ?_
  exact kc2_blk3_read t j o (V m c main_v135)

theorem kc2_iblk4_apply (c : Dev nD) (t : Fin cfg0.N) (o : Fin 5) :
    (iblk m c 4 t : Vec Ideal S5 .f32) (ix1 o) = (V m c main_arg5 : FVec Ideal S5 .f32) (ix1 o) := by
  unfold iblk
  refine (congrArg (fun A : FVec Ideal S5 .f32 => (((cfg0.win 4).blk t).view.read (Elt Ideal) A : Vec Ideal S5 .f32) (ix1 o)) (kc2_V_arr4 m c)).trans ?_
  exact kc2_blk4_read t o (V m c main_arg5)

theorem kc2_iblk5_apply (c : Dev nD) (t : Fin cfg0.N) (r : Fin 128) (o : Fin 5) (q : Fin 512) (hq : q.val = 128 * t.val + r.val) :
    (iblk m c 5 t : Vec Ideal S128x5 .f32) (ix2 r o) = (V m c main_v136 : FVec Ideal S512x5 .f32) (ix2 q o) := by
  unfold iblk
  refine (congrArg (fun A : FVec Ideal S512x5 .f32 => (((cfg0.win 5).blk t).view.read (Elt Ideal) A : Vec Ideal S128x5 .f32) (ix2 r o)) (kc2_V_arr5 m c)).trans ?_
  exact kc2_blk5_read t r o q hq (V m c main_v136)

/-! ## One point -/

/-- The image a grid point works on. -/
def kc2_img (t : Fin cfg0.N) : Fin 4 := ⟨t.val, by have h : cfg0.N = 4 := N_0; have := t.isLt; omega⟩

/-- Row `r` of point `t`'s block among the 512 rows. -/
def kc2_row (t : Fin cfg0.N) (r : Fin 128) : Fin 512 :=
  ⟨128 * t.val + r.val, by have h : cfg0.N = 4 := N_0; have := t.isLt; have := r.isLt; omega⟩

/-- After point `t`, the result's staging buffer holds at `(r, o)` the head of proposal `(t, r)` at `o`. -/
theorem kc2_point
    (hpiece : ∀ (c : Dev nD) (i : grid0.Coords) (arg1 : Memref sig .tc .vmem S128x12544 .bf16) (harg1 : arg1.IsWhole) (arg2 : Memref sig .tc .vmem S12544x256 .bf16) (harg2 : arg2.IsWhole) (arg3 : Memref sig .tc .vmem S256 .f32) (harg3 : arg3.IsWhole) (arg4 : Memref sig .tc .vmem S256x5 .bf16) (harg4 : arg4.IsWhole) (arg5 : Memref sig .tc .vmem S5 .f32) (harg5 : arg5.IsWhole) (arg6 : Memref sig .tc .vmem S128x5 .f32) (harg6 : arg6.IsWhole) (arg7 : Memref sig .tc .vmem S128x5 .f32) (harg7 : arg7.IsWhole)
      (x0 : Vec Ideal S128x12544 .bf16) (x1 : Vec Ideal S12544x256 .bf16) (x2 : Vec Ideal S256 .f32) (x3 : Vec Ideal S256x5 .bf16) (x4 : Vec Ideal S5 .f32) (x5 : Vec Ideal S128x5 .f32)
      (r : Fin 128) (o : Fin 5),
      Gen.out0_A_6 (F := Ideal) c i arg1 harg1 arg2 harg2 arg3 harg3 arg4 harg4 arg5 harg5 arg6 harg6 arg7 harg7 x0 x1 x2 x3 x4 x5 (ValueIdx.ix2 r o)
        = Cert.Spec.blockHead x0 x1 x2 x3 x4 x5 r o)
    (c : Dev nD) (t : Fin cfg0.N) (r : Fin 128) (o : Fin 5) :
    (outsAt0 m c t : Vec Ideal S128x5 .f32) (ix2 r o)
      = Cert.Spec.headAt (V m c main_v129) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (kc2_img t) r o := by
  unfold outsAt0
  refine (hpiece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) r o).trans ?_
  exact Cert.Spec.kc2_blockHead_eq_headAt (V m c main_v129) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (iblk m c 0 t) (iblk m c 1 t) (iblk m c 2 t) (iblk m c 3 t) (iblk m c 4 t) (iblk m c 5 t) (kc2_img t)
    (fun r k => (kc2_iblk0_apply m c t r k (kc2_row t r) rfl).trans (kc2_v131_apply m c (kc2_img t) r k (kc2_row t r) rfl))
    (fun k j => (kc2_iblk1_apply m c t k j).trans (kc2_v133_apply m c k j))
    (fun j => (kc2_iblk2_apply m c t j).trans (congrFun (V_main_arg3 m c) (ix1 j)))
    (fun j o => (kc2_iblk3_apply m c t j o).trans (kc2_v135_apply m c j o))
    (fun o => (kc2_iblk4_apply m c t o).trans (congrFun (V_main_arg5 m c) (ix1 o)))
    (fun r o => (kc2_iblk5_apply m c t r o (kc2_row t r) rfl).trans (kc2_v136_apply m c (kc2_img t) r o (kc2_row t r) rfl))
    r o

/-! ## What a point writes back -/

/-- A staging buffer whose entry `(r, o)` is entry `(128·t + r, o)` of an array, written back at point `t`, writes that
    array's block `t`. -/
theorem kc2_cut_eq_read (t : Fin cfg0.N) (X : Vec Ideal S128x5 .f32) (G : FVec Ideal S512x5 .f32)
    (h : ∀ (r : Fin 128) (o : Fin 5), X (ix2 r o) = G (ix2 (kc2_row t r) o)) :
    (cfg0.win 6).cut (grid0.coords t) X = ((cfg0.win 6).blk t).view.read (Elt Ideal) G := by
  funext j
  obtain ⟨r, o, rfl⟩ : ∃ (r : Fin 128) (o : Fin 5), j = (ix2 r o : S128x5.Idx) := ⟨j 0, j 1, eq_ix2 (n0 := 128) (n1 := 5) j⟩
  have hx : (cfg0.win 6).xinj (grid0.coords t) (ix2 r o : S128x5.Idx) = (ix2 r o : S128x5.Idx) :=
    funext (Fin.forall_fin_two.mpr ⟨rfl, rfl⟩)
  show X ((cfg0.win 6).xinj (grid0.coords t) (ix2 r o : S128x5.Idx)) = _
  rw [hx]
  exact (h r o).trans (kc2_blk6_read t r o (kc2_row t r) rfl G).symm

/-- WHAT POINT `t` WRITES BACK is block `t` of the head in its 512-row layout. -/
theorem kc2_flushed_eq
    (hpiece : ∀ (c : Dev nD) (i : grid0.Coords) (arg1 : Memref sig .tc .vmem S128x12544 .bf16) (harg1 : arg1.IsWhole) (arg2 : Memref sig .tc .vmem S12544x256 .bf16) (harg2 : arg2.IsWhole) (arg3 : Memref sig .tc .vmem S256 .f32) (harg3 : arg3.IsWhole) (arg4 : Memref sig .tc .vmem S256x5 .bf16) (harg4 : arg4.IsWhole) (arg5 : Memref sig .tc .vmem S5 .f32) (harg5 : arg5.IsWhole) (arg6 : Memref sig .tc .vmem S128x5 .f32) (harg6 : arg6.IsWhole) (arg7 : Memref sig .tc .vmem S128x5 .f32) (harg7 : arg7.IsWhole)
      (x0 : Vec Ideal S128x12544 .bf16) (x1 : Vec Ideal S12544x256 .bf16) (x2 : Vec Ideal S256 .f32) (x3 : Vec Ideal S256x5 .bf16) (x4 : Vec Ideal S5 .f32) (x5 : Vec Ideal S128x5 .f32)
      (r : Fin 128) (o : Fin 5),
      Gen.out0_A_6 (F := Ideal) c i arg1 harg1 arg2 harg2 arg3 harg3 arg4 harg4 arg5 harg5 arg6 harg6 arg7 harg7 x0 x1 x2 x3 x4 x5 (ValueIdx.ix2 r o)
        = Cert.Spec.blockHead x0 x1 x2 x3 x4 x5 r o)
    (c : Dev nD) (t : Fin cfg0.N) :
    (dats m 0 c).flushed 6 t = ((cfg0.win 6).blk t).view.read (Elt Ideal)
        (Cert.Spec.kc2_flatHead (V m c main_v129) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show (cfg0.win 6).cut (grid0.coords t) ((dats m 0 c).after 6 t) = _
  rw [after0_6]
  exact kc2_cut_eq_read t (outsAt0 m c t) (Cert.Spec.kc2_flatHead (V m c main_v129) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) fun r o =>
    (kc2_point m hpiece c t r o).trans
      (Cert.Spec.kc2_flatHead_of_coords (V m c main_v129) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (ix2 (kc2_row t r) o) (kc2_img t) r o rfl rfl).symm

end Cert.KernelIdeal.Hand

end
-- ==== Proof.KArrFinal.lean ====
/-
  The result array after the region: the head of every proposal, in the 512-row layout.

  Row `ρ` of the 512 lies in the block of grid point `ρ / 128`, every point writes its block back, and what point `t` writes
  is block `t` of the head laid out as 512 rows of five (rows `128·t … 128·t + 127` are the proposals of image `t`).  So
  the four write-backs cover the array, and it ends holding that one function everywhere.
-/
import proofs.«162856_j87222195847717_1_alg».proof.Proof.KArrPoint

noncomputable section

namespace Cert.KernelIdeal.Hand

open Cert.KernelIdeal Cert.KernelIdeal.Gen Idealize.ShloMosaic Idealize.ShloMosaic.ValueIdx Idealize.SL.Sem

/-- Every entry of the result array is in the block some point writes back: row `ρ` in the block of point `ρ / 128`. -/
theorem kc2_cover (i : S512x5.Idx) :
    ∃ t : Fin cfg0.N, (cfg0.win 6).flush t = true ∧ i ∈ ((cfg0.win 6).blk t).view.set := by
  have hN : cfg0.N = 4 := N_0
  have hi0 : (i 0).val < 512 := idx2_lt0 i
  have hi1 : (i 1).val < 5 := idx2_lt1 i
  obtain ⟨t, ht⟩ : ∃ t : Fin cfg0.N, t.val = (i 0).val / 128 := ⟨⟨(i 0).val / 128, by omega⟩, rfl⟩
  obtain ⟨-, -, -, -, -, -, -, -, -, -, e60, e61⟩ := kc2_idx_facts t
  refine ⟨t, flush0_6 t, ?_⟩
  show i ∈ ((View.whole main_v137).slice (win0_6.rect t)).set
  rw [View.set_slice_whole, Rect.mem_set_unit]
  intro a
  match a with
  | ⟨0, _⟩ =>
    show win0_6.index t (0 : Fin 2) * 128 ≤ (i 0).val ∧ (i 0).val < win0_6.index t (0 : Fin 2) * 128 + 128
    rw [e60, ht]; omega
  | ⟨1, _⟩ =>
    show win0_6.index t (1 : Fin 2) * 5 ≤ (i 1).val ∧ (i 1).val < win0_6.index t (1 : Fin 2) * 5 + 5
    rw [e61]; omega

/-- THE RESULT ARRAY after the region is the head in its 512-row layout. -/
theorem kc2_final
    (hpiece : ∀ (c : Dev nD) (i : grid0.Coords) (arg1 : Memref sig .tc .vmem S128x12544 .bf16) (harg1 : arg1.IsWhole) (arg2 : Memref sig .tc .vmem S12544x256 .bf16) (harg2 : arg2.IsWhole) (arg3 : Memref sig .tc .vmem S256 .f32) (harg3 : arg3.IsWhole) (arg4 : Memref sig .tc .vmem S256x5 .bf16) (harg4 : arg4.IsWhole) (arg5 : Memref sig .tc .vmem S5 .f32) (harg5 : arg5.IsWhole) (arg6 : Memref sig .tc .vmem S128x5 .f32) (harg6 : arg6.IsWhole) (arg7 : Memref sig .tc .vmem S128x5 .f32) (harg7 : arg7.IsWhole)
      (x0 : Vec Ideal S128x12544 .bf16) (x1 : Vec Ideal S12544x256 .bf16) (x2 : Vec Ideal S256 .f32) (x3 : Vec Ideal S256x5 .bf16) (x4 : Vec Ideal S5 .f32) (x5 : Vec Ideal S128x5 .f32)
      (r : Fin 128) (o : Fin 5),
      Gen.out0_A_6 (F := Ideal) c i arg1 harg1 arg2 harg2 arg3 harg3 arg4 harg4 arg5 harg5 arg6 harg6 arg7 harg7 x0 x1 x2 x3 x4 x5 (ix2 r o)
        = Cert.Spec.blockHead x0 x1 x2 x3 x4 x5 r o)
    (m : (ℓ : Loc nD τ sig) → Buf (Elt Ideal) ℓ) (c : Dev nD) :
    @Eq (FVec Ideal Cert.Spec.kc2_SF .f32) ((dats m 0 c).arrAt 6 cfg0.N)
      (Cert.Spec.kc2_flatHead (V m c main_v129) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (dats m 0 c).arrAt_eq_of_cover 6
    (Cert.Spec.kc2_flatHead (V m c main_v129) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    (fun t _ => kc2_flushed_eq m hpiece c t) kc2_cover

end Cert.KernelIdeal.Hand

end
-- ==== Proof.KArrRun.lean ====
/-
  From the kernel's result array to the program's result, and the program's run.

  The region leaves its output array, 512 rows of five, and one host line reshapes it to [4, 128, 5]: proposal
  `(b, n)` is row `128·b + n`.  So if the output array is the head laid out in 512 rows, the program's result is the
  head.  The run itself is the generated frame run: its post names the result buffer as the host line applied to
  the region's arrays, and the argument arrays as launched.
-/
import proofs.«162856_j87222195847717_1_alg».proof.Proof.Gen.KernelIdeal.Frame
import proofs.«162856_j87222195847717_1_alg».proof.Proof.KArrSpec
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx Idealize.SL.Sem

variable (m : (ℓ : Loc nD τ sig) → Buf (Elt Ideal) ℓ)

/-- Proposal `(b, n)` of the `[4,128,5]` reshape of a `[512,5]` array is its row `128·b + n`. -/
theorem kc2r_unflat_apply (x : FVec Ideal S512x5 .f32) (b : Fin 4) (n : Fin 128) (o : Fin 5) (r : Fin 512)
    (hr : r.val = 128 * b.val + n.val) :
    shapeCast S4x128x5 x Facts₀.shapeCasts_S512x5_S4x128x5 (ix3 b n o) = x (ix2 r o) := by
  refine shapeCast_apply x Facts₀.shapeCasts_S512x5_S4x128x5 (ix3 b n o) (ix2 r o) ?_
  rw [Shape.rowMajor_val_three, Shape.rowMajor_val_two]
  show r.val * 5 + o.val = (b.val * 128 + n.val) * 5 + o.val
  rw [hr]; omega

/-- The head laid out in 512 rows, reshaped, is the head. -/
theorem kc2r_unflat_head (P : FVec Ideal Cert.Spec.SP .f32) (prop : FVec Ideal Cert.Spec.SR .f32) (W1 : FVec Ideal Cert.Spec.SW1 .f32)
    (b1 : FVec Ideal Cert.Spec.Sb1 .f32) (W2 : FVec Ideal Cert.Spec.SW2 .f32) (b2 : FVec Ideal Cert.Spec.Sb2 .f32) :
    @Eq (FVec Ideal Cert.Spec.SR .f32)
      (shapeCast S4x128x5 (Cert.Spec.kc2_flatHead P prop W1 b1 W2 b2 : FVec Ideal S512x5 .f32) Facts₀.shapeCasts_S512x5_S4x128x5)
      (Cert.Spec.head P prop W1 b1 W2 b2) := by
  refine Cert.Spec.eq_head P prop W1 b1 W2 b2 _ fun b n o => ?_
  have hlt : 128 * b.val + n.val < 512 := by have := b.isLt; have := n.isLt; omega
  refine (kc2r_unflat_apply (Cert.Spec.kc2_flatHead P prop W1 b1 W2 b2) b n o ⟨128 * b.val + n.val, hlt⟩ rfl).trans ?_
  exact Cert.Spec.kc2_flatHead_of_coords P prop W1 b1 W2 b2 (ix2 ⟨128 * b.val + n.val, hlt⟩ o) b n o rfl rfl

/-- The host line after the region leaves, in the result buffer, the reshape of the region's output array. -/
theorem kc2r_tail (c : Dev nD) (G : FVec Ideal S512x5 .f32)
    (hfin : @Eq (FVec Ideal S512x5 .f32) ((dats m 0 c).arrAt 6 cfg0.N) G) :
    @Eq (FVec Ideal S4x128x5 .f32) (Pipeline.afterTail₀ cfgs (dats m) 0 (V0 m) [hostOps1] c main_v138)
      (shapeCast S4x128x5 G Facts₀.shapeCasts_S512x5_S4x128x5) := by
  unfold Pipeline.afterTail₀
  show StableHlo.after hostOps1 _ (Proc.devRef .tc main_v138) = _
  after_results
  have e : @Eq (FVec Ideal S512x5 .f32)
      (Pipeline.withArrays spec0 c (V0 m c) (fun w => (dats m 0 c).arrAt w cfg0.N) (Proc.devRef .tc main_v137)) G :=
    (Pipeline.withArrays_arr spec0 launch0.win.arr_inj c _ _ 6).trans hfin
  exact congrArg (fun A : FVec Ideal S512x5 .f32 => shapeCast S4x128x5 A Facts₀.shapeCasts_S512x5_S4x128x5) e

/-- If the region's output array is the head laid out in 512 rows, every weakly fair execution of the program terminates
    with its result at the head of the pooled rows its region found and of the launch's parameter arrays, and its
    arguments as launched. -/
theorem kc2_run_of_final
    (hfinal : ∀ c : Dev nD, @Eq (FVec Ideal Cert.Spec.kc2_SF .f32) ((dats m 0 c).arrAt 6 cfg0.N)
      (Cert.Spec.kc2_flatHead (V m c main_v129) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
    (ρ : Dev nD → PrngReg) :
    θ_run (defs (F := Ideal)) (onTc (τ := τ) (main (F := Ideal))) ⟨m, fun _ => 0, ρ⟩ (fun r => ∀ c : Dev nD,
      r.2.mem ((c.tc : Thread nD τ).loc main_v138)
          = Cert.Spec.head (V m c main_v129) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v138 (Pipeline.mem_restRefs_of main_v138 (by decide) (by decide))).trans
        (kc2r_tail m c _ (hfinal c))).trans (kc2r_unflat_head _ _ _ _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩)
    (run_main m ρ)

end Cert.KernelIdeal.Hand

end
-- ==== Proof.KRun.lean ====
/-
  The idealized kernel program's run with its result named.  What one grid point leaves at a row and column of its
  output block (KPiece.lean) gives the region's output array as the head laid out in 512 rows (KArrFinal.lean), and
  that gives the program's result and its run (KArrRun.lean).
-/
import proofs.«162856_j87222195847717_1_alg».proof.Proof.KPiece
import proofs.«162856_j87222195847717_1_alg».proof.Proof.KArrFinal
import proofs.«162856_j87222195847717_1_alg».proof.Proof.KArrRun

noncomputable section

namespace Cert.KernelIdeal.Hand

open Cert.KernelIdeal Cert.KernelIdeal.Gen Idealize.ShloMosaic Idealize.ShloMosaic.ValueIdx Idealize.SL.Sem

/-- Every weakly fair execution of the idealized kernel program terminates with its result at the head of the pooled
    rows its region found and of the launch's parameter arrays, and its arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v138)
          = Cert.Spec.head (V m c main_v129) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  kc2_run_of_final m (fun c => kc2_final (fun c i arg1 harg1 arg2 harg2 arg3 harg3 arg4 harg4 arg5 harg5 arg6 harg6 arg7 harg7 x0 x1 x2 x3 x4 x5 r o =>
    kc1_out_apply c i arg1 harg1 arg2 harg2 arg3 harg3 arg4 harg4 arg5 harg5 arg6 harg6 arg7 harg7 x0 x1 x2 x3 x4 x5 r o) m c) ρ

end Cert.KernelIdeal.Hand

end
-- ==== Proof.RefOps.lean ====
import proofs.«162856_j87222195847717_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- One stretch of the reference's host operations, in order. -/
abbrev p0_0 : List (HloOp τ sig (Elt F)) :=
  [ StableHlo.unary main_arg1 main_v0 ((extractStridedSlice S4x128x4 ![0, 0, 0] · slices_S4x128x5_S4x128x4_0_0_0) : (⟨S4x128x5, .f32⟩ : BufTy).Contents (Elt F) → (⟨S4x128x4, .f32⟩ : BufTy).Contents (Elt F)),
    StableHlo.nullary main_cst (constant S_ .f32 0x3D000000#32),
    StableHlo.unary main_cst main_v1 (broadcastInDim S4x128x4 ![] bcast_S_S4x128x4 : (⟨S_, .f32⟩ : BufTy).Contents (Elt F) → (⟨S4x128x4, .f32⟩ : BufTy).Contents (Elt F)),
    StableHlo.binary main_v0 main_v1 main_v2 (mulf : (⟨S4x128x4, .f32⟩ : BufTy).Contents (Elt F) → (⟨S4x128x4, .f32⟩ : BufTy).Contents (Elt F) → (⟨S4x128x4, .f32⟩ : BufTy).Contents (Elt F)),
    StableHlo.unary main_v2 main_v3 ((extractStridedSlice S4x128x1 ![0, 0, 0] · slices_S4x128x4_S4x128x1_0_0_0) : (⟨S4x128x4, .f32⟩ : BufTy).Contents (Elt F) → (⟨S4x128x1, .f32⟩ : BufTy).Contents (Elt F)),
    StableHlo.reshape main_v3 main_v4 rfl shapeCasts_S4x128x1_S4x128,
    StableHlo.unary main_v4 main_v5 (Host.floor : (⟨S4x128, .f32⟩ : BufTy).Contents (Elt F) → (⟨S4x128, .f32⟩ : BufTy).Contents (Elt F)),
    StableHlo.unary main_v5 main_v6 (fptosi 32 : (⟨S4x128, .f32⟩ : BufTy).Contents (Elt F) → (⟨S4x128, .i32⟩ : BufTy).Contents (Elt F)),
    StableHlo.nullary main_c (constantI S_ 32 0#32),
    StableHlo.nullary main_c_0 (constantI S_ 32 29#32) ]
theorem p0_0_sub : (p0_0 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.nullary_bufs_sub .., StableHlo.nullary_bufs_sub ..⟩

/-- One stretch of the reference's host operations, in order. -/
abbrev p0_1 : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S4x128, .i32⟩) (broadcastInDim S4x128 ![] bcast_S_S4x128),
    StableHlo.TRef.binary (.of main_call0_v1 : StableHlo.TRef sig ⟨S4x128, .i32⟩) (.of main_v6 : StableHlo.TRef sig ⟨S4x128, .i32⟩) (.of main_call0_v2 : StableHlo.TRef sig ⟨S4x128, .i32⟩) maxsi,
    StableHlo.TRef.unary (.of main_c_0 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S4x128, .i32⟩) (broadcastInDim S4x128 ![] bcast_S_S4x128),
    StableHlo.TRef.binary (.of main_call0_v4 : StableHlo.TRef sig ⟨S4x128, .i32⟩) (.of main_call0_v2 : StableHlo.TRef sig ⟨S4x128, .i32⟩) (.of main_v7 : StableHlo.TRef sig ⟨S4x128, .i32⟩) minsi ]
theorem p0_1_sub : (p0_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- One stretch of the reference's host operations, in order. -/
abbrev p0_2 : List (HloOp τ sig (Elt F)) :=
  [ StableHlo.unary main_v2 main_v8 ((extractStridedSlice S4x128x1 ![0, 0, 1] · slices_S4x128x4_S4x128x1_0_0_1) : (⟨S4x128x4, .f32⟩ : BufTy).Contents (Elt F) → (⟨S4x128x1, .f32⟩ : BufTy).Contents (Elt F)),
    StableHlo.reshape main_v8 main_v9 rfl shapeCasts_S4x128x1_S4x128,
    StableHlo.unary main_v9 main_v10 (Host.floor : (⟨S4x128, .f32⟩ : BufTy).Contents (Elt F) → (⟨S4x128, .f32⟩ : BufTy).Contents (Elt F)),
    StableHlo.unary main_v10 main_v11 (fptosi 32 : (⟨S4x128, .f32⟩ : BufTy).Contents (Elt F) → (⟨S4x128, .i32⟩ : BufTy).Contents (Elt F)),
    StableHlo.nullary main_c_1 (constantI S_ 32 0#32),
    StableHlo.nullary main_c_2 (constantI S_ 32 22#32) ]
theorem p0_2_sub : (p0_2 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.nullary_bufs_sub .., StableHlo.nullary_bufs_sub ..⟩

/-- One stretch of the reference's host operations, in order. -/
abbrev p0_3 : List (HloOp τ sig (Elt F)) :=
  [ StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S4x128, .i32⟩) (broadcastInDim S4x128 ![] bcast_S_S4x128),
    StableHlo.TRef.binary (.of main_call1_v1 : StableHlo.TRef sig ⟨S4x128, .i32⟩) (.of main_v11 : StableHlo.TRef sig ⟨S4x128, .i32⟩) (.of main_call1_v2 : StableHlo.TRef sig ⟨S4x128, .i32⟩) maxsi,
    StableHlo.TRef.unary (.of main_c_2 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S4x128, .i32⟩) (broadcastInDim S4x128 ![] bcast_S_S4x128),
    StableHlo.TRef.binary (.of main_call1_v4 : StableHlo.TRef sig ⟨S4x128, .i32⟩) (.of main_call1_v2 : StableHlo.TRef sig ⟨S4x128, .i32⟩) (.of main_v12 : StableHlo.TRef sig ⟨S4x128, .i32⟩) minsi ]
theorem p0_3_sub : (p0_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- One stretch of the reference's host operations, in order. -/
abbrev p0_4 : List (HloOp τ sig (Elt F)) :=
  [ StableHlo.unary main_v2 main_v13 ((extractStridedSlice S4x128x1 ![0, 0, 2] · slices_S4x128x4_S4x128x1_0_0_2) : (⟨S4x128x4, .f32⟩ : BufTy).Contents (Elt F) → (⟨S4x128x1, .f32⟩ : BufTy).Contents (Elt F)),
    StableHlo.reshape main_v13 main_v14 rfl shapeCasts_S4x128x1_S4x128,
    StableHlo.unary main_v14 main_v15 (Host.ceil : (⟨S4x128, .f32⟩ : BufTy).Contents (Elt F) → (⟨S4x128, .f32⟩ : BufTy).Contents (Elt F)),
    StableHlo.unary main_v15 main_v16 (fptosi 32 : (⟨S4x128, .f32⟩ : BufTy).Contents (Elt F) → (⟨S4x128, .i32⟩ : BufTy).Contents (Elt F)),
    StableHlo.binary main_v16 main_v7 main_v17 (subi : (⟨S4x128, .i32⟩ : BufTy).Contents (Elt F) → (⟨S4x128, .i32⟩ : BufTy).Contents (Elt F) → (⟨S4x128, .i32⟩ : BufTy).Contents (Elt F)),
    StableHlo.nullary main_c_3 (constantI S_ 32 1#32),
    StableHlo.nullary main_c_4 (constantI S_ 32 30#32) ]
theorem p0_4_sub : (p0_4 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.binary_bufs_sub .., StableHlo.nullary_bufs_sub .., StableHlo.nullary_bufs_sub ..⟩

/-- One stretch of the reference's host operations, in order. -/
abbrev p0_5 : List (HloOp τ sig (Elt F)) :=
  [ StableHlo.TRef.unary (.of main_c_3 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S4x128, .i32⟩) (broadcastInDim S4x128 ![] bcast_S_S4x128),
    StableHlo.TRef.binary (.of main_call2_v1 : StableHlo.TRef sig ⟨S4x128, .i32⟩) (.of main_v17 : StableHlo.TRef sig ⟨S4x128, .i32⟩) (.of main_call2_v2 : StableHlo.TRef sig ⟨S4x128, .i32⟩) maxsi,
    StableHlo.TRef.unary (.of main_c_4 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S4x128, .i32⟩) (broadcastInDim S4x128 ![] bcast_S_S4x128),
    StableHlo.TRef.binary (.of main_call2_v4 : StableHlo.TRef sig ⟨S4x128, .i32⟩) (.of main_call2_v2 : StableHlo.TRef sig ⟨S4x128, .i32⟩) (.of main_v18 : StableHlo.TRef sig ⟨S4x128, .i32⟩) minsi ]
theorem p0_5_sub : (p0_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- One stretch of the reference's host operations, in order. -/
abbrev p0_6 : List (HloOp τ sig (Elt F)) :=
  [ StableHlo.unary main_v2 main_v19 ((extractStridedSlice S4x128x1 ![0, 0, 3] · slices_S4x128x4_S4x128x1_0_0_3) : (⟨S4x128x4, .f32⟩ : BufTy).Contents (Elt F) → (⟨S4x128x1, .f32⟩ : BufTy).Contents (Elt F)),
    StableHlo.reshape main_v19 main_v20 rfl shapeCasts_S4x128x1_S4x128,
    StableHlo.unary main_v20 main_v21 (Host.ceil : (⟨S4x128, .f32⟩ : BufTy).Contents (Elt F) → (⟨S4x128, .f32⟩ : BufTy).Contents (Elt F)),
    StableHlo.unary main_v21 main_v22 (fptosi 32 : (⟨S4x128, .f32⟩ : BufTy).Contents (Elt F) → (⟨S4x128, .i32⟩ : BufTy).Contents (Elt F)),
    StableHlo.binary main_v22 main_v12 main_v23 (subi : (⟨S4x128, .i32⟩ : BufTy).Contents (Elt F) → (⟨S4x128, .i32⟩ : BufTy).Contents (Elt F) → (⟨S4x128, .i32⟩ : BufTy).Contents (Elt F)),
    StableHlo.nullary main_c_5 (constantI S_ 32 1#32),
    StableHlo.nullary main_c_6 (constantI S_ 32 23#32) ]
theorem p0_6_sub : (p0_6 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.binary_bufs_sub .., StableHlo.nullary_bufs_sub .., StableHlo.nullary_bufs_sub ..⟩

/-- One stretch of the reference's host operations, in order. -/
abbrev p0_7 : List (HloOp τ sig (Elt F)) :=
  [ StableHlo.TRef.unary (.of main_c_5 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S4x128, .i32⟩) (broadcastInDim S4x128 ![] bcast_S_S4x128),
    StableHlo.TRef.binary (.of main_call3_v1 : StableHlo.TRef sig ⟨S4x128, .i32⟩) (.of main_v23 : StableHlo.TRef sig ⟨S4x128, .i32⟩) (.of main_call3_v2 : StableHlo.TRef sig ⟨S4x128, .i32⟩) maxsi,
    StableHlo.TRef.unary (.of main_c_6 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S4x128, .i32⟩) (broadcastInDim S4x128 ![] bcast_S_S4x128),
    StableHlo.TRef.binary (.of main_call3_v4 : StableHlo.TRef sig ⟨S4x128, .i32⟩) (.of main_call3_v2 : StableHlo.TRef sig ⟨S4x128, .i32⟩) (.of main_v24 : StableHlo.TRef sig ⟨S4x128, .i32⟩) minsi ]
theorem p0_7_sub : (p0_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- One stretch of the reference's host operations, in order. -/
abbrev p0_8 : List (HloOp τ sig (Elt F)) :=
  [ StableHlo.nullary main_v25 (iotaInDim S7 32 0),
    StableHlo.nullary main_v26 (iotaInDim S7 32 0),
    StableHlo.unary main_v25 main_v27 (broadcastInDim S1x7 ![1] bcast_S7_S1x7_1 : (⟨S7, .i32⟩ : BufTy).Contents (Elt F) → (⟨S1x7, .i32⟩ : BufTy).Contents (Elt F)),
    StableHlo.unary main_v24 main_v28 (broadcastInDim S4x128x1 ![0, 1] bcast_S4x128_S4x128x1_0_1 : (⟨S4x128, .i32⟩ : BufTy).Contents (Elt F) → (⟨S4x128x1, .i32⟩ : BufTy).Contents (Elt F)),
    StableHlo.unary main_v27 main_v29 (broadcastInDim S1x1x7 ![1, 2] bcast_S1x7_S1x1x7_1_2 : (⟨S1x7, .i32⟩ : BufTy).Contents (Elt F) → (⟨S1x1x7, .i32⟩ : BufTy).Contents (Elt F)),
    StableHlo.unary main_v29 main_v30 (broadcastInDim S4x128x7 ![0, 1, 2] bcast_S1x1x7_S4x128x7_0_1_2 : (⟨S1x1x7, .i32⟩ : BufTy).Contents (Elt F) → (⟨S4x128x7, .i32⟩ : BufTy).Contents (Elt F)),
    StableHlo.unary main_v28 main_v31 (broadcastInDim S4x128x7 ![0, 1, 2] bcast_S4x128x1_S4x128x7_0_1_2 : (⟨S4x128x1, .i32⟩ : BufTy).Contents (Elt F) → (⟨S4x128x7, .i32⟩ : BufTy).Contents (Elt F)),
    StableHlo.binary main_v30 main_v31 main_v32 (muli : (⟨S4x128x7, .i32⟩ : BufTy).Contents (Elt F) → (⟨S4x128x7, .i32⟩ : BufTy).Contents (Elt F) → (⟨S4x128x7, .i32⟩ : BufTy).Contents (Elt F)),
    StableHlo.nullary main_c_7 (constantI S_ 32 7#32) ]
theorem p0_8_sub : (p0_8 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub ..⟩

/-- One stretch of the reference's host operations, in order. -/
abbrev p0_9 : List (HloOp τ sig (Elt F)) :=
  [ StableHlo.TRef.unary (.of main_c_7 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S4x128x7, .i32⟩) (broadcastInDim S4x128x7 ![] bcast_S_S4x128x7),
    StableHlo.TRef.binary (.of main_v32 : StableHlo.TRef sig ⟨S4x128x7, .i32⟩) (.of main_call4_v1 : StableHlo.TRef sig ⟨S4x128x7, .i32⟩) (.of main_call4_v2 : StableHlo.TRef sig ⟨S4x128x7, .i32⟩) Host.divsi,
    StableHlo.TRef.unary (.of main_v32 : StableHlo.TRef sig ⟨S4x128x7, .i32⟩) (.of main_call4_v3 : StableHlo.TRef sig ⟨S4x128x7, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S4x128x7, .i32⟩) (broadcastInDim S4x128x7 ![] bcast_S_S4x128x7),
    StableHlo.TRef.binary (.of main_call4_v3 : StableHlo.TRef sig ⟨S4x128x7, .i32⟩) (.of main_call4_v5 : StableHlo.TRef sig ⟨S4x128x7, .i32⟩) (.of main_call4_v6 : StableHlo.TRef sig ⟨S4x128x7, .i1⟩) (cmpi .ne),
    StableHlo.TRef.unary (.of main_call4_v0 : StableHlo.TRef sig ⟨S_, .i32⟩) (.of main_call4_v7 : StableHlo.TRef sig ⟨S4x128x7, .i32⟩) (broadcastInDim S4x128x7 ![] bcast_S_S4x128x7),
    StableHlo.TRef.binary (.of main_v32 : StableHlo.TRef sig ⟨S4x128x7, .i32⟩) (.of main_call4_v7 : StableHlo.TRef sig ⟨S4x128x7, .i32⟩) (.of main_call4_v8 : StableHlo.TRef sig ⟨S4x128x7, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S4x128x7, .i32⟩) (broadcastInDim S4x128x7 ![] bcast_S_S4x128x7),
    StableHlo.TRef.binary (.of main_call4_v8 : StableHlo.TRef sig ⟨S4x128x7, .i32⟩) (.of main_call4_v9 : StableHlo.TRef sig ⟨S4x128x7, .i32⟩) (.of main_call4_v10 : StableHlo.TRef sig ⟨S4x128x7, .i1⟩) (cmpi .ne),
    StableHlo.TRef.binary (.of main_call4_v6 : StableHlo.TRef sig ⟨S4x128x7, .i1⟩) (.of main_call4_v10 : StableHlo.TRef sig ⟨S4x128x7, .i1⟩) (.of main_call4_v11 : StableHlo.TRef sig ⟨S4x128x7, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S4x128x7, .i32⟩) (broadcastInDim S4x128x7 ![] bcast_S_S4x128x7),
    StableHlo.TRef.binary (.of main_call4_v2 : StableHlo.TRef sig ⟨S4x128x7, .i32⟩) (.of main_call4_v12 : StableHlo.TRef sig ⟨S4x128x7, .i32⟩) (.of main_call4_v13 : StableHlo.TRef sig ⟨S4x128x7, .i32⟩) subi,
    StableHlo.TRef.ternary (.of main_call4_v11 : StableHlo.TRef sig ⟨S4x128x7, .i1⟩) (.of main_call4_v13 : StableHlo.TRef sig ⟨S4x128x7, .i32⟩) (.of main_call4_v2 : StableHlo.TRef sig ⟨S4x128x7, .i32⟩) (.of main_v33 : StableHlo.TRef sig ⟨S4x128x7, .i32⟩) select ]
theorem p0_9_sub : (p0_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- One stretch of the reference's host operations, in order. -/
abbrev p0_10 : List (HloOp τ sig (Elt F)) :=
  [ StableHlo.unary main_v12 main_v34 (broadcastInDim S4x128x1 ![0, 1] bcast_S4x128_S4x128x1_0_1 : (⟨S4x128, .i32⟩ : BufTy).Contents (Elt F) → (⟨S4x128x1, .i32⟩ : BufTy).Contents (Elt F)),
    StableHlo.unary main_v34 main_v35 (broadcastInDim S4x128x7 ![0, 1, 2] bcast_S4x128x1_S4x128x7_0_1_2 : (⟨S4x128x1, .i32⟩ : BufTy).Contents (Elt F) → (⟨S4x128x7, .i32⟩ : BufTy).Contents (Elt F)),
    StableHlo.binary main_v35 main_v33 main_v36 (addi : (⟨S4x128x7, .i32⟩ : BufTy).Contents (Elt F) → (⟨S4x128x7, .i32⟩ : BufTy).Contents (Elt F) → (⟨S4x128x7, .i32⟩ : BufTy).Contents (Elt F)),
    StableHlo.nullary main_c_8 (constantI S_ 32 1#32),
    StableHlo.unary main_c_8 main_v37 (broadcastInDim S7 ![] bcast_S_S7 : (⟨S_, .i32⟩ : BufTy).Contents (Elt F) → (⟨S7, .i32⟩ : BufTy).Contents (Elt F)),
    StableHlo.binary main_v25 main_v37 main_v38 (addi : (⟨S7, .i32⟩ : BufTy).Contents (Elt F) → (⟨S7, .i32⟩ : BufTy).Contents (Elt F) → (⟨S7, .i32⟩ : BufTy).Contents (Elt F)),
    StableHlo.unary main_v38 main_v39 (broadcastInDim S1x7 ![1] bcast_S7_S1x7_1 : (⟨S7, .i32⟩ : BufTy).Contents (Elt F) → (⟨S1x7, .i32⟩ : BufTy).Contents (Elt F)),
    StableHlo.unary main_v24 main_v40 (broadcastInDim S4x128x1 ![0, 1] bcast_S4x128_S4x128x1_0_1 : (⟨S4x128, .i32⟩ : BufTy).Contents (Elt F) → (⟨S4x128x1, .i32⟩ : BufTy).Contents (Elt F)),
    StableHlo.unary main_v39 main_v41 (broadcastInDim S1x1x7 ![1, 2] bcast_S1x7_S1x1x7_1_2 : (⟨S1x7, .i32⟩ : BufTy).Contents (Elt F) → (⟨S1x1x7, .i32⟩ : BufTy).Contents (Elt F)),
    StableHlo.unary main_v41 main_v42 (broadcastInDim S4x128x7 ![0, 1, 2] bcast_S1x1x7_S4x128x7_0_1_2 : (⟨S1x1x7, .i32⟩ : BufTy).Contents (Elt F) → (⟨S4x128x7, .i32⟩ : BufTy).Contents (Elt F)),
    StableHlo.unary main_v40 main_v43 (broadcastInDim S4x128x7 ![0, 1, 2] bcast_S4x128x1_S4x128x7_0_1_2 : (⟨S4x128x1, .i32⟩ : BufTy).Contents (Elt F) → (⟨S4x128x7, .i32⟩ : BufTy).Contents (Elt F)),
    StableHlo.binary main_v42 main_v43 main_v44 (muli : (⟨S4x128x7, .i32⟩ : BufTy).Contents (Elt F) → (⟨S4x128x7, .i32⟩ : BufTy).Contents (Elt F) → (⟨S4x128x7, .i32⟩ : BufTy).Contents (Elt F)),
    StableHlo.nullary main_c_9 (constantI S_ 32 7#32),
    StableHlo.unary main_c_9 main_v45 (broadcastInDim S4x128x7 ![] bcast_S_S4x128x7 : (⟨S_, .i32⟩ : BufTy).Contents (Elt F) → (⟨S4x128x7, .i32⟩ : BufTy).Contents (Elt F)),
    StableHlo.binary main_v44 main_v45 main_v46 (addi : (⟨S4x128x7, .i32⟩ : BufTy).Contents (Elt F) → (⟨S4x128x7, .i32⟩ : BufTy).Contents (Elt F) → (⟨S4x128x7, .i32⟩ : BufTy).Contents (Elt F)),
    StableHlo.nullary main_c_10 (constantI S_ 32 1#32) ]
theorem p0_10_sub : (p0_10 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub ..⟩

/-- One stretch of the reference's host operations, in order. -/
abbrev p1_0 : List (HloOp τ sig (Elt F)) :=
  [ StableHlo.unary main_c_10 main_v47 (broadcastInDim S4x128x7 ![] bcast_S_S4x128x7 : (⟨S_, .i32⟩ : BufTy).Contents (Elt F) → (⟨S4x128x7, .i32⟩ : BufTy).Contents (Elt F)),
    StableHlo.binary main_v46 main_v47 main_v48 (subi : (⟨S4x128x7, .i32⟩ : BufTy).Contents (Elt F) → (⟨S4x128x7, .i32⟩ : BufTy).Contents (Elt F) → (⟨S4x128x7, .i32⟩ : BufTy).Contents (Elt F)),
    StableHlo.nullary main_c_11 (constantI S_ 32 7#32) ]
theorem p1_0_sub : (p1_0 : List (HloOp τ sig (Elt F))).Forall fun op => op.bufs ⊆ StableHlo.tcRefs τ sig :=
  ⟨StableHlo.unary_bufs_sub .., StableHlo.binary_bufs_sub .., StableHlo.nullary_bufs_sub ..⟩

/-- One stretch of the reference's host operations, in order. -/
abbrev p1_1 : List (HloOp τ sig (Elt F)) :=
  [ StableHlo.TRef.unary (.of main_c_11 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S4x128x7, .i32⟩) (broadcastInDim S4x128x7 ![] bcast_S_S4x128x7),
    StableHlo.TRef.binary (.of main_v48 : StableHlo.TRef sig ⟨S4x128x7, .i32⟩) (.of main_call5_v1 : StableHlo.TRef sig ⟨S4x128x7, .i32⟩) (.of main_call5_v2 : StableHlo.TRef sig ⟨S4x128x7, .i32⟩) Host.divsi,
    StableHlo.TRef.unary (.of main_v48 : StableHlo.TRef sig ⟨S4x128x7, .i32⟩) (.of main_call5_v3 : StableHlo.TRef sig ⟨S4x128x7, .i32⟩) signi,
    StableHlo.TRef.unary (.of main_call5_v0 : StableHlo.TRef sig ⟨S_, .i32⟩) (.of main_call5_v4 : StableHlo.TRef sig ⟨S_, .i32⟩) signi,
    StableHlo.TRef.unary (.of main_call5_v4 : StableHlo.TRef sig ⟨S_, .i32⟩) (.of main_call5_v5 : StableHlo.TRef sig ⟨S4x128x7, .i32⟩) (broadcastInDim S4x128x7 ![] bcast_S_S4x128x7),
    StableHlo.TRef.binary (.of main_call5_v3 : StableHlo.TRef sig ⟨S4x128x7, .i32⟩) (.of main_call5_v5 : StableHlo.TRef sig ⟨S4x128x7, .i32⟩) (.of main_call5_v6 : StableHlo.TRef sig ⟨S4x128x7, .i1⟩) (cmpi .ne),
    StableHlo.TRef.unary (.of main_call5_v0 : StableHlo.TRef sig ⟨S_, .i32⟩) (.of main_call5_v7 : StableHlo.TRef sig ⟨S4x128x7, .i32⟩) (broadcastInDim S4x128x7 ![] bcast_S_S4x128x7),
    StableHlo.TRef.binary (.of main_v48 : StableHlo.TRef sig ⟨S4x128x7, .i32⟩) (.of main_call5_v7 : StableHlo.TRef sig ⟨S4x128x7, .i32⟩) (.of main_call5_v8 : StableHlo.TRef sig ⟨S4x128x7, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v9 : StableHlo.TRef sig ⟨S4x128x7, .i32⟩) (broadcastInDim S4x128x7 ![] bcast_S_S4x128x7),
    StableHlo.TRef.binary (.of main_call5_v8 : StableHlo.TRef sig ⟨S4x128x7, .i32⟩) (.of main_call5_v9 : StableHlo.TRef sig ⟨S4x128x7, .i32⟩) (.of main_call5_v10 : StableHlo.TRef sig ⟨S4x128x7, .i1⟩) (cmpi .ne),
    StableHlo.TRef.binary (.of main_call5_v6 : StableHlo.TRef sig ⟨S4x128x7, .i1⟩) (.of main_call5_v10 : StableHlo.TRef sig ⟨S4x128x7, .i1⟩) (.of main_call5_v11 : StableHlo.TRef sig ⟨S4x128x7, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v12 : StableHlo.TRef sig ⟨S4x128x7, .i32⟩) (broadcastInDim S4x128x7 ![] bcast_S_S4x128x7),
    StableHlo.TRef.binary (.of main_call5_v2 : StableHlo.TRef sig ⟨S4x128x7, .i32⟩) (.of main_call5_v12 : StableHlo.TRef sig ⟨S4x128x7, .i32⟩) (.of main_call5_v13 : StableHlo.TRef sig ⟨S4x128x7, .i32⟩) subi,
    StableHlo.TRef.ternary (.of main_call5_v11 : StableHlo.TRef sig ⟨S4x128x7, .i1⟩) (.of main_call5_v13 : StableHlo.TRef sig ⟨S4x128x7, .i32⟩) (.of main_call5_v2 : StableHlo.TRef sig ⟨S4x128x7, .i32⟩) (.of main_v49 : StableHlo.TRef sig ⟨S4x128x7, .i32⟩) select ]
theorem p1_1_sub : (p1_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- One stretch of the reference's host operations, in order. -/
abbrev p1_2 : List (HloOp τ sig (Elt F)) :=
  [ StableHlo.unary main_v12 main_v50 (broadcastInDim S4x128x1 ![0, 1] bcast_S4x128_S4x128x1_0_1 : (⟨S4x128, .i32⟩ : BufTy).Contents (Elt F) → (⟨S4x128x1, .i32⟩ : BufTy).Contents (Elt F)),
    StableHlo.unary main_v50 main_v51 (broadcastInDim S4x128x7 ![0, 1, 2] bcast_S4x128x1_S4x128x7_0_1_2 : (⟨S4x128x1, .i32⟩ : BufTy).Contents (Elt F) → (⟨S4x128x7, .i32⟩ : BufTy).Contents (Elt F)),
    StableHlo.binary main_v51 main_v49 main_v52 (addi : (⟨S4x128x7, .i32⟩ : BufTy).Contents (Elt F) → (⟨S4x128x7, .i32⟩ : BufTy).Contents (Elt F) → (⟨S4x128x7, .i32⟩ : BufTy).Contents (Elt F)),
    StableHlo.unary main_v26 main_v53 (broadcastInDim S1x7 ![1] bcast_S7_S1x7_1 : (⟨S7, .i32⟩ : BufTy).Contents (Elt F) → (⟨S1x7, .i32⟩ : BufTy).Contents (Elt F)),
    StableHlo.unary main_v18 main_v54 (broadcastInDim S4x128x1 ![0, 1] bcast_S4x128_S4x128x1_0_1 : (⟨S4x128, .i32⟩ : BufTy).Contents (Elt F) → (⟨S4x128x1, .i32⟩ : BufTy).Contents (Elt F)),
    StableHlo.unary main_v53 main_v55 (broadcastInDim S1x1x7 ![1, 2] bcast_S1x7_S1x1x7_1_2 : (⟨S1x7, .i32⟩ : BufTy).Contents (Elt F) → (⟨S1x1x7, .i32⟩ : BufTy).Contents (Elt F)),
    StableHlo.unary main_v55 main_v56 (broadcastInDim S4x128x7 ![0, 1, 2] bcast_S1x1x7_S4x128x7_0_1_2 : (⟨S1x1x7, .i32⟩ : BufTy).Contents (Elt F) → (⟨S4x128x7, .i32⟩ : BufTy).Contents (Elt F)),
    StableHlo.unary main_v54 main_v57 (broadcastInDim S4x128x7 ![0, 1, 2] bcast_S4x128x1_S4x128x7_0_1_2 : (⟨S4x128x1, .i32⟩ : BufTy).Contents (Elt F) → (⟨S4x128x7, .i32⟩ : BufTy).Contents (Elt F)),
    StableHlo.binary main_v56 main_v57 main_v58 (muli : (⟨S4x128x7, .i32⟩ : BufTy).Contents (Elt F) → (⟨S4x128x7, .i32⟩ : BufTy).Contents (Elt F) → (⟨S4x128x7, .i32⟩ : BufTy).Contents (Elt F)),
    StableHlo.nullary main_c_12 (constantI S_ 32 7#32) ]
theorem p1_2_sub : (p1_2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub ..⟩

/-- One stretch of the reference's host operations, in order. -/
abbrev p1_3 : List (HloOp τ sig (Elt F)) :=
  [ StableHlo.TRef.unary (.of main_c_12 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S4x128x7, .i32⟩) (broadcastInDim S4x128x7 ![] bcast_S_S4x128x7),
    StableHlo.TRef.binary (.of main_v58 : StableHlo.TRef sig ⟨S4x128x7, .i32⟩) (.of main_call6_v1 : StableHlo.TRef sig ⟨S4x128x7, .i32⟩) (.of main_call6_v2 : StableHlo.TRef sig ⟨S4x128x7, .i32⟩) Host.divsi,
    StableHlo.TRef.unary (.of main_v58 : StableHlo.TRef sig ⟨S4x128x7, .i32⟩) (.of main_call6_v3 : StableHlo.TRef sig ⟨S4x128x7, .i32⟩) signi,
    StableHlo.TRef.unary (.of main_call6_v0 : StableHlo.TRef sig ⟨S_, .i32⟩) (.of main_call6_v4 : StableHlo.TRef sig ⟨S_, .i32⟩) signi,
    StableHlo.TRef.unary (.of main_call6_v4 : StableHlo.TRef sig ⟨S_, .i32⟩) (.of main_call6_v5 : StableHlo.TRef sig ⟨S4x128x7, .i32⟩) (broadcastInDim S4x128x7 ![] bcast_S_S4x128x7),
    StableHlo.TRef.binary (.of main_call6_v3 : StableHlo.TRef sig ⟨S4x128x7, .i32⟩) (.of main_call6_v5 : StableHlo.TRef sig ⟨S4x128x7, .i32⟩) (.of main_call6_v6 : StableHlo.TRef sig ⟨S4x128x7, .i1⟩) (cmpi .ne),
    StableHlo.TRef.unary (.of main_call6_v0 : StableHlo.TRef sig ⟨S_, .i32⟩) (.of main_call6_v7 : StableHlo.TRef sig ⟨S4x128x7, .i32⟩) (broadcastInDim S4x128x7 ![] bcast_S_S4x128x7),
    StableHlo.TRef.binary (.of main_v58 : StableHlo.TRef sig ⟨S4x128x7, .i32⟩) (.of main_call6_v7 : StableHlo.TRef sig ⟨S4x128x7, .i32⟩) (.of main_call6_v8 : StableHlo.TRef sig ⟨S4x128x7, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v9 : StableHlo.TRef sig ⟨S4x128x7, .i32⟩) (broadcastInDim S4x128x7 ![] bcast_S_S4x128x7),
    StableHlo.TRef.binary (.of main_call6_v8 : StableHlo.TRef sig ⟨S4x128x7, .i32⟩) (.of main_call6_v9 : StableHlo.TRef sig ⟨S4x128x7, .i32⟩) (.of main_call6_v10 : StableHlo.TRef sig ⟨S4x128x7, .i1⟩) (cmpi .ne),
    StableHlo.TRef.binary (.of main_call6_v6 : StableHlo.TRef sig ⟨S4x128x7, .i1⟩) (.of main_call6_v10 : StableHlo.TRef sig ⟨S4x128x7, .i1⟩) (.of main_call6_v11 : StableHlo.TRef sig ⟨S4x128x7, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v12 : StableHlo.TRef sig ⟨S4x128x7, .i32⟩) (broadcastInDim S4x128x7 ![] bcast_S_S4x128x7),
    StableHlo.TRef.binary (.of main_call6_v2 : StableHlo.TRef sig ⟨S4x128x7, .i32⟩) (.of main_call6_v12 : StableHlo.TRef sig ⟨S4x128x7, .i32⟩) (.of main_call6_v13 : StableHlo.TRef sig ⟨S4x128x7, .i32⟩) subi,
    StableHlo.TRef.ternary (.of main_call6_v11 : StableHlo.TRef sig ⟨S4x128x7, .i1⟩) (.of main_call6_v13 : StableHlo.TRef sig ⟨S4x128x7, .i32⟩) (.of main_call6_v2 : StableHlo.TRef sig ⟨S4x128x7, .i32⟩) (.of main_v59 : StableHlo.TRef sig ⟨S4x128x7, .i32⟩) select ]
theorem p1_3_sub : (p1_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- One stretch of the reference's host operations, in order. -/
abbrev p1_4 : List (HloOp τ sig (Elt F)) :=
  [ StableHlo.unary main_v7 main_v60 (broadcastInDim S4x128x1 ![0, 1] bcast_S4x128_S4x128x1_0_1 : (⟨S4x128, .i32⟩ : BufTy).Contents (Elt F) → (⟨S4x128x1, .i32⟩ : BufTy).Contents (Elt F)),
    StableHlo.unary main_v60 main_v61 (broadcastInDim S4x128x7 ![0, 1, 2] bcast_S4x128x1_S4x128x7_0_1_2 : (⟨S4x128x1, .i32⟩ : BufTy).Contents (Elt F) → (⟨S4x128x7, .i32⟩ : BufTy).Contents (Elt F)),
    StableHlo.binary main_v61 main_v59 main_v62 (addi : (⟨S4x128x7, .i32⟩ : BufTy).Contents (Elt F) → (⟨S4x128x7, .i32⟩ : BufTy).Contents (Elt F) → (⟨S4x128x7, .i32⟩ : BufTy).Contents (Elt F)),
    StableHlo.nullary main_c_13 (constantI S_ 32 1#32),
    StableHlo.unary main_c_13 main_v63 (broadcastInDim S7 ![] bcast_S_S7 : (⟨S_, .i32⟩ : BufTy).Contents (Elt F) → (⟨S7, .i32⟩ : BufTy).Contents (Elt F)),
    StableHlo.binary main_v26 main_v63 main_v64 (addi : (⟨S7, .i32⟩ : BufTy).Contents (Elt F) → (⟨S7, .i32⟩ : BufTy).Contents (Elt F) → (⟨S7, .i32⟩ : BufTy).Contents (Elt F)),
    StableHlo.unary main_v64 main_v65 (broadcastInDim S1x7 ![1] bcast_S7_S1x7_1 : (⟨S7, .i32⟩ : BufTy).Contents (Elt F) → (⟨S1x7, .i32⟩ : BufTy).Contents (Elt F)),
    StableHlo.unary main_v18 main_v66 (broadcastInDim S4x128x1 ![0, 1] bcast_S4x128_S4x128x1_0_1 : (⟨S4x128, .i32⟩ : BufTy).Contents (Elt F) → (⟨S4x128x1, .i32⟩ : BufTy).Contents (Elt F)),
    StableHlo.unary main_v65 main_v67 (broadcastInDim S1x1x7 ![1, 2] bcast_S1x7_S1x1x7_1_2 : (⟨S1x7, .i32⟩ : BufTy).Contents (Elt F) → (⟨S1x1x7, .i32⟩ : BufTy).Contents (Elt F)),
    StableHlo.unary main_v67 main_v68 (broadcastInDim S4x128x7 ![0, 1, 2] bcast_S1x1x7_S4x128x7_0_1_2 : (⟨S1x1x7, .i32⟩ : BufTy).Contents (Elt F) → (⟨S4x128x7, .i32⟩ : BufTy).Contents (Elt F)),
    StableHlo.unary main_v66 main_v69 (broadcastInDim S4x128x7 ![0, 1, 2] bcast_S4x128x1_S4x128x7_0_1_2 : (⟨S4x128x1, .i32⟩ : BufTy).Contents (Elt F) → (⟨S4x128x7, .i32⟩ : BufTy).Contents (Elt F)),
    StableHlo.binary main_v68 main_v69 main_v70 (muli : (⟨S4x128x7, .i32⟩ : BufTy).Contents (Elt F) → (⟨S4x128x7, .i32⟩ : BufTy).Contents (Elt F) → (⟨S4x128x7, .i32⟩ : BufTy).Contents (Elt F)),
    StableHlo.nullary main_c_14 (constantI S_ 32 7#32),
    StableHlo.unary main_c_14 main_v71 (broadcastInDim S4x128x7 ![] bcast_S_S4x128x7 : (⟨S_, .i32⟩ : BufTy).Contents (Elt F) → (⟨S4x128x7, .i32⟩ : BufTy).Contents (Elt F)),
    StableHlo.binary main_v70 main_v71 main_v72 (addi : (⟨S4x128x7, .i32⟩ : BufTy).Contents (Elt F) → (⟨S4x128x7, .i32⟩ : BufTy).Contents (Elt F) → (⟨S4x128x7, .i32⟩ : BufTy).Contents (Elt F)),
    StableHlo.nullary main_c_15 (constantI S_ 32 1#32),
    StableHlo.unary main_c_15 main_v73 (broadcastInDim S4x128x7 ![] bcast_S_S4x128x7 : (⟨S_, .i32⟩ : BufTy).Contents (Elt F) → (⟨S4x128x7, .i32⟩ : BufTy).Contents (Elt F)),
    StableHlo.binary main_v72 main_v73 main_v74 (subi : (⟨S4x128x7, .i32⟩ : BufTy).Contents (Elt F) → (⟨S4x128x7, .i32⟩ : BufTy).Contents (Elt F) → (⟨S4x128x7, .i32⟩ : BufTy).Contents (Elt F)),
    StableHlo.nullary main_c_16 (constantI S_ 32 7#32) ]
theorem p1_4_sub : (p1_4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩

/-- One stretch of the reference's host operations, in order. -/
abbrev p1_5 : List (HloOp τ sig (Elt F)) :=
  [ StableHlo.TRef.unary (.of main_c_16 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S4x128x7, .i32⟩) (broadcastInDim S4x128x7 ![] bcast_S_S4x128x7),
    StableHlo.TRef.binary (.of main_v74 : StableHlo.TRef sig ⟨S4x128x7, .i32⟩) (.of main_call7_v1 : StableHlo.TRef sig ⟨S4x128x7, .i32⟩) (.of main_call7_v2 : StableHlo.TRef sig ⟨S4x128x7, .i32⟩) Host.divsi,
    StableHlo.TRef.unary (.of main_v74 : StableHlo.TRef sig ⟨S4x128x7, .i32⟩) (.of main_call7_v3 : StableHlo.TRef sig ⟨S4x128x7, .i32⟩) signi,
    StableHlo.TRef.unary (.of main_call7_v0 : StableHlo.TRef sig ⟨S_, .i32⟩) (.of main_call7_v4 : StableHlo.TRef sig ⟨S_, .i32⟩) signi,
    StableHlo.TRef.unary (.of main_call7_v4 : StableHlo.TRef sig ⟨S_, .i32⟩) (.of main_call7_v5 : StableHlo.TRef sig ⟨S4x128x7, .i32⟩) (broadcastInDim S4x128x7 ![] bcast_S_S4x128x7),
    StableHlo.TRef.binary (.of main_call7_v3 : StableHlo.TRef sig ⟨S4x128x7, .i32⟩) (.of main_call7_v5 : StableHlo.TRef sig ⟨S4x128x7, .i32⟩) (.of main_call7_v6 : StableHlo.TRef sig ⟨S4x128x7, .i1⟩) (cmpi .ne),
    StableHlo.TRef.unary (.of main_call7_v0 : StableHlo.TRef sig ⟨S_, .i32⟩) (.of main_call7_v7 : StableHlo.TRef sig ⟨S4x128x7, .i32⟩) (broadcastInDim S4x128x7 ![] bcast_S_S4x128x7),
    StableHlo.TRef.binary (.of main_v74 : StableHlo.TRef sig ⟨S4x128x7, .i32⟩) (.of main_call7_v7 : StableHlo.TRef sig ⟨S4x128x7, .i32⟩) (.of main_call7_v8 : StableHlo.TRef sig ⟨S4x128x7, .i32⟩) Host.remsi,
    StableHlo.TRef.nullary (.of main_call7_c : StableHlo.TRef sig ⟨S_, .i32⟩) (constantI S_ 32 0#32),
    StableHlo.TRef.unary (.of main_call7_c : StableHlo.TRef sig ⟨S_, .i32⟩) (.of main_call7_v9 : StableHlo.TRef sig ⟨S4x128x7, .i32⟩) (broadcastInDim S4x128x7 ![] bcast_S_S4x128x7),
    StableHlo.TRef.binary (.of main_call7_v8 : StableHlo.TRef sig ⟨S4x128x7, .i32⟩) (.of main_call7_v9 : StableHlo.TRef sig ⟨S4x128x7, .i32⟩) (.of main_call7_v10 : StableHlo.TRef sig ⟨S4x128x7, .i1⟩) (cmpi .ne),
    StableHlo.TRef.binary (.of main_call7_v6 : StableHlo.TRef sig ⟨S4x128x7, .i1⟩) (.of main_call7_v10 : StableHlo.TRef sig ⟨S4x128x7, .i1⟩) (.of main_call7_v11 : StableHlo.TRef sig ⟨S4x128x7, .i1⟩) andi,
    StableHlo.TRef.nullary (.of main_call7_c_0 : StableHlo.TRef sig ⟨S_, .i32⟩) (constantI S_ 32 1#32),
    StableHlo.TRef.unary (.of main_call7_c_0 : StableHlo.TRef sig ⟨S_, .i32⟩) (.of main_call7_v12 : StableHlo.TRef sig ⟨S4x128x7, .i32⟩) (broadcastInDim S4x128x7 ![] bcast_S_S4x128x7),
    StableHlo.TRef.binary (.of main_call7_v2 : StableHlo.TRef sig ⟨S4x128x7, .i32⟩) (.of main_call7_v12 : StableHlo.TRef sig ⟨S4x128x7, .i32⟩) (.of main_call7_v13 : StableHlo.TRef sig ⟨S4x128x7, .i32⟩) subi,
    StableHlo.TRef.ternary (.of main_call7_v11 : StableHlo.TRef sig ⟨S4x128x7, .i1⟩) (.of main_call7_v13 : StableHlo.TRef sig ⟨S4x128x7, .i32⟩) (.of main_call7_v2 : StableHlo.TRef sig ⟨S4x128x7, .i32⟩) (.of main_v75 : StableHlo.TRef sig ⟨S4x128x7, .i32⟩) select ]
theorem p1_5_sub : (p1_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- One stretch of the reference's host operations, in order. -/
abbrev p1_6 : List (HloOp τ sig (Elt F)) :=
  [ StableHlo.unary main_v7 main_v76 (broadcastInDim S4x128x1 ![0, 1] bcast_S4x128_S4x128x1_0_1 : (⟨S4x128, .i32⟩ : BufTy).Contents (Elt F) → (⟨S4x128x1, .i32⟩ : BufTy).Contents (Elt F)),
    StableHlo.unary main_v76 main_v77 (broadcastInDim S4x128x7 ![0, 1, 2] bcast_S4x128x1_S4x128x7_0_1_2 : (⟨S4x128x1, .i32⟩ : BufTy).Contents (Elt F) → (⟨S4x128x7, .i32⟩ : BufTy).Contents (Elt F)),
    StableHlo.binary main_v77 main_v75 main_v78 (addi : (⟨S4x128x7, .i32⟩ : BufTy).Contents (Elt F) → (⟨S4x128x7, .i32⟩ : BufTy).Contents (Elt F) → (⟨S4x128x7, .i32⟩ : BufTy).Contents (Elt F)),
    StableHlo.unary main_v36 main_v79 (broadcastInDim S4x128x7x1 ![0, 1, 2] bcast_S4x128x7_S4x128x7x1_0_1_2 : (⟨S4x128x7, .i32⟩ : BufTy).Contents (Elt F) → (⟨S4x128x7x1, .i32⟩ : BufTy).Contents (Elt F)),
    StableHlo.nullary main_v80 (iotaInDim S5 32 0),
    StableHlo.unary main_v80 main_v81 (broadcastInDim S1x5 ![1] bcast_S5_S1x5_1 : (⟨S5, .i32⟩ : BufTy).Contents (Elt F) → (⟨S1x5, .i32⟩ : BufTy).Contents (Elt F)),
    StableHlo.unary main_v81 main_v82 (broadcastInDim S1x1x5 ![1, 2] bcast_S1x5_S1x1x5_1_2 : (⟨S1x5, .i32⟩ : BufTy).Contents (Elt F) → (⟨S1x1x5, .i32⟩ : BufTy).Contents (Elt F)),
    StableHlo.unary main_v82 main_v83 (broadcastInDim S1x1x1x5 ![1, 2, 3] bcast_S1x1x5_S1x1x1x5_1_2_3 : (⟨S1x1x5, .i32⟩ : BufTy).Contents (Elt F) → (⟨S1x1x1x5, .i32⟩ : BufTy).Contents (Elt F)),
    StableHlo.unary main_v79 main_v84 (broadcastInDim S4x128x7x5 ![0, 1, 2, 3] bcast_S4x128x7x1_S4x128x7x5_0_1_2_3 : (⟨S4x128x7x1, .i32⟩ : BufTy).Contents (Elt F) → (⟨S4x128x7x5, .i32⟩ : BufTy).Contents (Elt F)),
    StableHlo.unary main_v83 main_v85 (broadcastInDim S4x128x7x5 ![0, 1, 2, 3] bcast_S1x1x1x5_S4x128x7x5_0_1_2_3 : (⟨S1x1x1x5, .i32⟩ : BufTy).Contents (Elt F) → (⟨S4x128x7x5, .i32⟩ : BufTy).Contents (Elt F)),
    StableHlo.binary main_v84 main_v85 main_v86 (addi : (⟨S4x128x7x5, .i32⟩ : BufTy).Contents (Elt F) → (⟨S4x128x7x5, .i32⟩ : BufTy).Contents (Elt F) → (⟨S4x128x7x5, .i32⟩ : BufTy).Contents (Elt F)),
    StableHlo.unary main_v52 main_v87 (broadcastInDim S4x128x7x1 ![0, 1, 2] bcast_S4x128x7_S4x128x7x1_0_1_2 : (⟨S4x128x7, .i32⟩ : BufTy).Contents (Elt F) → (⟨S4x128x7x1, .i32⟩ : BufTy).Contents (Elt F)),
    StableHlo.unary main_v87 main_v88 (broadcastInDim S4x128x7x5 ![0, 1, 2, 3] bcast_S4x128x7x1_S4x128x7x5_0_1_2_3 : (⟨S4x128x7x1, .i32⟩ : BufTy).Contents (Elt F) → (⟨S4x128x7x5, .i32⟩ : BufTy).Contents (Elt F)),
    StableHlo.binary main_v86 main_v88 main_v89 (cmpi .slt : (⟨S4x128x7x5, .i32⟩ : BufTy).Contents (Elt F) → (⟨S4x128x7x5, .i32⟩ : BufTy).Contents (Elt F) → (⟨S4x128x7x5, .i1⟩ : BufTy).Contents (Elt F)),
    StableHlo.nullary main_c_17 (constantI S_ 32 23#32),
    StableHlo.unary main_c_17 main_v90 (broadcastInDim S4x128x7x5 ![] bcast_S_S4x128x7x5 : (⟨S_, .i32⟩ : BufTy).Contents (Elt F) → (⟨S4x128x7x5, .i32⟩ : BufTy).Contents (Elt F)),
    StableHlo.binary main_v86 main_v90 main_v91 (cmpi .slt : (⟨S4x128x7x5, .i32⟩ : BufTy).Contents (Elt F) → (⟨S4x128x7x5, .i32⟩ : BufTy).Contents (Elt F) → (⟨S4x128x7x5, .i1⟩ : BufTy).Contents (Elt F)),
    StableHlo.binary main_v89 main_v91 main_v92 (andi : (⟨S4x128x7x5, .i1⟩ : BufTy).Contents (Elt F) → (⟨S4x128x7x5, .i1⟩ : BufTy).Contents (Elt F) → (⟨S4x128x7x5, .i1⟩ : BufTy).Contents (Elt F)),
    StableHlo.unary main_v62 main_v93 (broadcastInDim S4x128x7x1 ![0, 1, 2] bcast_S4x128x7_S4x128x7x1_0_1_2 : (⟨S4x128x7, .i32⟩ : BufTy).Contents (Elt F) → (⟨S4x128x7x1, .i32⟩ : BufTy).Contents (Elt F)),
    StableHlo.nullary main_v94 (iotaInDim S6 32 0),
    StableHlo.unary main_v94 main_v95 (broadcastInDim S1x6 ![1] bcast_S6_S1x6_1 : (⟨S6, .i32⟩ : BufTy).Contents (Elt F) → (⟨S1x6, .i32⟩ : BufTy).Contents (Elt F)),
    StableHlo.unary main_v95 main_v96 (broadcastInDim S1x1x6 ![1, 2] bcast_S1x6_S1x1x6_1_2 : (⟨S1x6, .i32⟩ : BufTy).Contents (Elt F) → (⟨S1x1x6, .i32⟩ : BufTy).Contents (Elt F)),
    StableHlo.unary main_v96 main_v97 (broadcastInDim S1x1x1x6 ![1, 2, 3] bcast_S1x1x6_S1x1x1x6_1_2_3 : (⟨S1x1x6, .i32⟩ : BufTy).Contents (Elt F) → (⟨S1x1x1x6, .i32⟩ : BufTy).Contents (Elt F)),
    StableHlo.unary main_v93 main_v98 (broadcastInDim S4x128x7x6 ![0, 1, 2, 3] bcast_S4x128x7x1_S4x128x7x6_0_1_2_3 : (⟨S4x128x7x1, .i32⟩ : BufTy).Contents (Elt F) → (⟨S4x128x7x6, .i32⟩ : BufTy).Contents (Elt F)),
    StableHlo.unary main_v97 main_v99 (broadcastInDim S4x128x7x6 ![0, 1, 2, 3] bcast_S1x1x1x6_S4x128x7x6_0_1_2_3 : (⟨S1x1x1x6, .i32⟩ : BufTy).Contents (Elt F) → (⟨S4x128x7x6, .i32⟩ : BufTy).Contents (Elt F)) ]
theorem p1_6_sub : (p1_6 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩

/-- One stretch of the reference's host operations, in order. -/
abbrev p2_0 : List (HloOp τ sig (Elt F)) :=
  [ StableHlo.binary main_v98 main_v99 main_v100 (addi : (⟨S4x128x7x6, .i32⟩ : BufTy).Contents (Elt F) → (⟨S4x128x7x6, .i32⟩ : BufTy).Contents (Elt F) → (⟨S4x128x7x6, .i32⟩ : BufTy).Contents (Elt F)),
    StableHlo.unary main_v78 main_v101 (broadcastInDim S4x128x7x1 ![0, 1, 2] bcast_S4x128x7_S4x128x7x1_0_1_2 : (⟨S4x128x7, .i32⟩ : BufTy).Contents (Elt F) → (⟨S4x128x7x1, .i32⟩ : BufTy).Contents (Elt F)),
    StableHlo.unary main_v101 main_v102 (broadcastInDim S4x128x7x6 ![0, 1, 2, 3] bcast_S4x128x7x1_S4x128x7x6_0_1_2_3 : (⟨S4x128x7x1, .i32⟩ : BufTy).Contents (Elt F) → (⟨S4x128x7x6, .i32⟩ : BufTy).Contents (Elt F)),
    StableHlo.binary main_v100 main_v102 main_v103 (cmpi .slt : (⟨S4x128x7x6, .i32⟩ : BufTy).Contents (Elt F) → (⟨S4x128x7x6, .i32⟩ : BufTy).Contents (Elt F) → (⟨S4x128x7x6, .i1⟩ : BufTy).Contents (Elt F)),
    StableHlo.nullary main_c_18 (constantI S_ 32 30#32),
    StableHlo.unary main_c_18 main_v104 (broadcastInDim S4x128x7x6 ![] bcast_S_S4x128x7x6 : (⟨S_, .i32⟩ : BufTy).Contents (Elt F) → (⟨S4x128x7x6, .i32⟩ : BufTy).Contents (Elt F)),
    StableHlo.binary main_v100 main_v104 main_v105 (cmpi .slt : (⟨S4x128x7x6, .i32⟩ : BufTy).Contents (Elt F) → (⟨S4x128x7x6, .i32⟩ : BufTy).Contents (Elt F) → (⟨S4x128x7x6, .i1⟩ : BufTy).Contents (Elt F)),
    StableHlo.binary main_v103 main_v105 main_v106 (andi : (⟨S4x128x7x6, .i1⟩ : BufTy).Contents (Elt F) → (⟨S4x128x7x6, .i1⟩ : BufTy).Contents (Elt F) → (⟨S4x128x7x6, .i1⟩ : BufTy).Contents (Elt F)),
    StableHlo.nullary main_c_19 (constantI S_ 32 0#32),
    StableHlo.nullary main_c_20 (constantI S_ 32 22#32) ]
theorem p2_0_sub : (p2_0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩

/-- One stretch of the reference's host operations, in order. -/
abbrev p2_1 : List (HloOp τ sig (Elt F)) :=
  [ StableHlo.TRef.unary (.of main_c_19 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S4x128x7x5, .i32⟩) (broadcastInDim S4x128x7x5 ![] bcast_S_S4x128x7x5),
    StableHlo.TRef.binary (.of main_call8_v1 : StableHlo.TRef sig ⟨S4x128x7x5, .i32⟩) (.of main_v86 : StableHlo.TRef sig ⟨S4x128x7x5, .i32⟩) (.of main_call8_v2 : StableHlo.TRef sig ⟨S4x128x7x5, .i32⟩) maxsi,
    StableHlo.TRef.unary (.of main_c_20 : StableHlo.TRef sig ⟨S_, .i32⟩) (.of main_call8_v3 : StableHlo.TRef sig ⟨S_, .i32⟩) id,
    StableHlo.TRef.unary (.of main_call8_v3 : StableHlo.TRef sig ⟨S_, .i32⟩) (.of main_call8_v4 : StableHlo.TRef sig ⟨S4x128x7x5, .i32⟩) (broadcastInDim S4x128x7x5 ![] bcast_S_S4x128x7x5),
    StableHlo.TRef.binary (.of main_call8_v4 : StableHlo.TRef sig ⟨S4x128x7x5, .i32⟩) (.of main_call8_v2 : StableHlo.TRef sig ⟨S4x128x7x5, .i32⟩) (.of main_v107 : StableHlo.TRef sig ⟨S4x128x7x5, .i32⟩) minsi ]
theorem p2_1_sub : (p2_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- One stretch of the reference's host operations, in order. -/
abbrev p2_2 : List (HloOp τ sig (Elt F)) :=
  [ StableHlo.nullary main_c_21 (constantI S_ 32 0#32),
    StableHlo.unary main_c_21 main_v108 (broadcastInDim S4x128x7x5 ![] bcast_S_S4x128x7x5 : (⟨S_, .i32⟩ : BufTy).Contents (Elt F) → (⟨S4x128x7x5, .i32⟩ : BufTy).Contents (Elt F)),
    StableHlo.binary main_v107 main_v108 main_v109 (cmpi .slt : (⟨S4x128x7x5, .i32⟩ : BufTy).Contents (Elt F) → (⟨S4x128x7x5, .i32⟩ : BufTy).Contents (Elt F) → (⟨S4x128x7x5, .i1⟩ : BufTy).Contents (Elt F)),
    StableHlo.nullary main_c_22 (constantI S_ 32 23#32),
    StableHlo.unary main_c_22 main_v110 (broadcastInDim S4x128x7x5 ![] bcast_S_S4x128x7x5 : (⟨S_, .i32⟩ : BufTy).Contents (Elt F) → (⟨S4x128x7x5, .i32⟩ : BufTy).Contents (Elt F)),
    StableHlo.binary main_v107 main_v110 main_v111 (addi : (⟨S4x128x7x5, .i32⟩ : BufTy).Contents (Elt F) → (⟨S4x128x7x5, .i32⟩ : BufTy).Contents (Elt F) → (⟨S4x128x7x5, .i32⟩ : BufTy).Contents (Elt F)),
    StableHlo.ternary main_v109 main_v111 main_v107 main_v112 (select : (⟨S4x128x7x5, .i1⟩ : BufTy).Contents (Elt F) → (⟨S4x128x7x5, .i32⟩ : BufTy).Contents (Elt F) → (⟨S4x128x7x5, .i32⟩ : BufTy).Contents (Elt F) → (⟨S4x128x7x5, .i32⟩ : BufTy).Contents (Elt F)),
    StableHlo.unary main_v112 main_v113 (broadcastInDim S4x128x7x5x1 ![0, 1, 2, 3] bcast_S4x128x7x5_S4x128x7x5x1_0_1_2_3 : (⟨S4x128x7x5, .i32⟩ : BufTy).Contents (Elt F) → (⟨S4x128x7x5x1, .i32⟩ : BufTy).Contents (Elt F)),
    StableHlo.binary main_arg0 main_v113 main_v114 ((fun x i => Host.gather gather_S4x256x23x30_S4x128x7x5x1_S4x128x256x7x5x30_25_2_0_0_2_4_1256130 x i) : (⟨S4x256x23x30, .f32⟩ : BufTy).Contents (Elt F) → (⟨S4x128x7x5x1, .i32⟩ : BufTy).Contents (Elt F) → (⟨S4x128x256x7x5x30, .f32⟩ : BufTy).Contents (Elt F)),
    StableHlo.unary main_v92 main_v115 (broadcastInDim S4x128x1x7x5x1 ![0, 1, 3, 4] bcast_S4x128x7x5_S4x128x1x7x5x1_0_1_3_4 : (⟨S4x128x7x5, .i1⟩ : BufTy).Contents (Elt F) → (⟨S4x128x1x7x5x1, .i1⟩ : BufTy).Contents (Elt F)),
    StableHlo.nullary main_cst_23 (constant S_ .f32 0xF149F2CA#32) ]
theorem p2_2_sub : (p2_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub ..⟩

/-- One stretch of the reference's host operations, in order. -/
abbrev p2_3 : List (HloOp τ sig (Elt F)) :=
  [ StableHlo.TRef.unary (.of main_cst_23 : StableHlo.TRef sig ⟨S_, .f32⟩) (.of main_call9_v0 : StableHlo.TRef sig ⟨S_, .f32⟩) id,
    StableHlo.TRef.unary (.of main_v115 : StableHlo.TRef sig ⟨S4x128x1x7x5x1, .i1⟩) (.of main_call9_v1 : StableHlo.TRef sig ⟨S4x128x256x7x5x30, .i1⟩) (broadcastInDim S4x128x256x7x5x30 ![0, 1, 2, 3, 4, 5] bcast_S4x128x1x7x5x1_S4x128x256x7x5x30_0_1_2_3_4_5),
    StableHlo.TRef.unary (.of main_call9_v0 : StableHlo.TRef sig ⟨S_, .f32⟩) (.of main_call9_v2 : StableHlo.TRef sig ⟨S256x7x5x30, .f32⟩) (broadcastInDim S256x7x5x30 ![] bcast_S_S256x7x5x30),
    StableHlo.TRef.unary (.of main_call9_v2 : StableHlo.TRef sig ⟨S256x7x5x30, .f32⟩) (.of main_call9_v3 : StableHlo.TRef sig ⟨S128x256x7x5x30, .f32⟩) (broadcastInDim S128x256x7x5x30 ![1, 2, 3, 4] bcast_S256x7x5x30_S128x256x7x5x30_1_2_3_4),
    StableHlo.TRef.unary (.of main_call9_v3 : StableHlo.TRef sig ⟨S128x256x7x5x30, .f32⟩) (.of main_call9_v4 : StableHlo.TRef sig ⟨S4x128x256x7x5x30, .f32⟩) (broadcastInDim S4x128x256x7x5x30 ![1, 2, 3, 4, 5] bcast_S128x256x7x5x30_S4x128x256x7x5x30_1_2_3_4_5),
    StableHlo.TRef.ternary (.of main_call9_v1 : StableHlo.TRef sig ⟨S4x128x256x7x5x30, .i1⟩) (.of main_v114 : StableHlo.TRef sig ⟨S4x128x256x7x5x30, .f32⟩) (.of main_call9_v4 : StableHlo.TRef sig ⟨S4x128x256x7x5x30, .f32⟩) (.of main_v116 : StableHlo.TRef sig ⟨S4x128x256x7x5x30, .f32⟩) select ]
theorem p2_3_sub : (p2_3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.ternary_bufs_sub ..⟩

/-- One stretch of the reference's host operations, in order. -/
abbrev p2_4 : List (HloOp τ sig (Elt F)) :=
  [ StableHlo.nullary main_cst_24 (constant S_ .f32 0xFF800000#32),
    StableHlo.binary main_v116 main_cst_24 main_v117 ((fun x v => Host.reduce FloatOps.maximumf x v reducesTo_S4x128x256x7x5x30_S4x128x256x7x30_d4 h_S_) : (⟨S4x128x256x7x5x30, .f32⟩ : BufTy).Contents (Elt F) → (⟨S_, .f32⟩ : BufTy).Contents (Elt F) → (⟨S4x128x256x7x30, .f32⟩ : BufTy).Contents (Elt F)),
    StableHlo.nullary main_c_25 (constantI S_ 32 0#32),
    StableHlo.nullary main_c_26 (constantI S_ 32 29#32) ]
theorem p2_4_sub : (p2_4 : List (HloOp τ sig (Elt F))).Forall fun op => op.bufs ⊆ StableHlo.tcRefs τ sig :=
  ⟨StableHlo.nullary_bufs_sub .., StableHlo.binary_bufs_sub .., StableHlo.nullary_bufs_sub .., StableHlo.nullary_bufs_sub ..⟩

/-- One stretch of the reference's host operations, in order. -/
abbrev p2_5 : List (HloOp τ sig (Elt F)) :=
  [ StableHlo.TRef.unary (.of main_c_25 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S4x128x7x6, .i32⟩) (broadcastInDim S4x128x7x6 ![] bcast_S_S4x128x7x6),
    StableHlo.TRef.binary (.of main_call10_v1 : StableHlo.TRef sig ⟨S4x128x7x6, .i32⟩) (.of main_v100 : StableHlo.TRef sig ⟨S4x128x7x6, .i32⟩) (.of main_call10_v2 : StableHlo.TRef sig ⟨S4x128x7x6, .i32⟩) maxsi,
    StableHlo.TRef.unary (.of main_c_26 : StableHlo.TRef sig ⟨S_, .i32⟩) (.of main_call10_v3 : StableHlo.TRef sig ⟨S_, .i32⟩) id,
    StableHlo.TRef.unary (.of main_call10_v3 : StableHlo.TRef sig ⟨S_, .i32⟩) (.of main_call10_v4 : StableHlo.TRef sig ⟨S4x128x7x6, .i32⟩) (broadcastInDim S4x128x7x6 ![] bcast_S_S4x128x7x6),
    StableHlo.TRef.binary (.of main_call10_v4 : StableHlo.TRef sig ⟨S4x128x7x6, .i32⟩) (.of main_call10_v2 : StableHlo.TRef sig ⟨S4x128x7x6, .i32⟩) (.of main_v118 : StableHlo.TRef sig ⟨S4x128x7x6, .i32⟩) minsi ]
theorem p2_5_sub : (p2_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- One stretch of the reference's host operations, in order. -/
abbrev p2_6 : List (HloOp τ sig (Elt F)) :=
  [ StableHlo.nullary main_c_27 (constantI S_ 32 0#32),
    StableHlo.unary main_c_27 main_v119 (broadcastInDim S4x128x7x6 ![] bcast_S_S4x128x7x6 : (⟨S_, .i32⟩ : BufTy).Contents (Elt F) → (⟨S4x128x7x6, .i32⟩ : BufTy).Contents (Elt F)),
    StableHlo.binary main_v118 main_v119 main_v120 (cmpi .slt : (⟨S4x128x7x6, .i32⟩ : BufTy).Contents (Elt F) → (⟨S4x128x7x6, .i32⟩ : BufTy).Contents (Elt F) → (⟨S4x128x7x6, .i1⟩ : BufTy).Contents (Elt F)),
    StableHlo.nullary main_c_28 (constantI S_ 32 30#32),
    StableHlo.unary main_c_28 main_v121 (broadcastInDim S4x128x7x6 ![] bcast_S_S4x128x7x6 : (⟨S_, .i32⟩ : BufTy).Contents (Elt F) → (⟨S4x128x7x6, .i32⟩ : BufTy).Contents (Elt F)),
    StableHlo.binary main_v118 main_v121 main_v122 (addi : (⟨S4x128x7x6, .i32⟩ : BufTy).Contents (Elt F) → (⟨S4x128x7x6, .i32⟩ : BufTy).Contents (Elt F) → (⟨S4x128x7x6, .i32⟩ : BufTy).Contents (Elt F)),
    StableHlo.ternary main_v120 main_v122 main_v118 main_v123 (select : (⟨S4x128x7x6, .i1⟩ : BufTy).Contents (Elt F) → (⟨S4x128x7x6, .i32⟩ : BufTy).Contents (Elt F) → (⟨S4x128x7x6, .i32⟩ : BufTy).Contents (Elt F) → (⟨S4x128x7x6, .i32⟩ : BufTy).Contents (Elt F)),
    StableHlo.unary main_v123 main_v124 (broadcastInDim S4x128x7x6x1 ![0, 1, 2, 3] bcast_S4x128x7x6_S4x128x7x6x1_0_1_2_3 : (⟨S4x128x7x6, .i32⟩ : BufTy).Contents (Elt F) → (⟨S4x128x7x6x1, .i32⟩ : BufTy).Contents (Elt F)),
    StableHlo.binary main_v117 main_v124 main_v125 ((fun x i => Host.gather gather_S4x128x256x7x30_S4x128x7x6x1_S4x128x256x7x7x6_23_4_01_01_4_4_1125671 x i) : (⟨S4x128x256x7x30, .f32⟩ : BufTy).Contents (Elt F) → (⟨S4x128x7x6x1, .i32⟩ : BufTy).Contents (Elt F) → (⟨S4x128x256x7x7x6, .f32⟩ : BufTy).Contents (Elt F)),
    StableHlo.unary main_v106 main_v126 (broadcastInDim S4x128x1x1x7x6 ![0, 1, 4, 5] bcast_S4x128x7x6_S4x128x1x1x7x6_0_1_4_5 : (⟨S4x128x7x6, .i1⟩ : BufTy).Contents (Elt F) → (⟨S4x128x1x1x7x6, .i1⟩ : BufTy).Contents (Elt F)),
    StableHlo.nullary main_cst_29 (constant S_ .f32 0xF149F2CA#32) ]
theorem p2_6_sub : (p2_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub ..⟩

/-- One stretch of the reference's host operations, in order. -/
abbrev p2_7 : List (HloOp τ sig (Elt F)) :=
  [ StableHlo.TRef.unary (.of main_cst_29 : StableHlo.TRef sig ⟨S_, .f32⟩) (.of main_call11_v0 : StableHlo.TRef sig ⟨S_, .f32⟩) id,
    StableHlo.TRef.unary (.of main_v126 : StableHlo.TRef sig ⟨S4x128x1x1x7x6, .i1⟩) (.of main_call11_v1 : StableHlo.TRef sig ⟨S4x128x256x7x7x6, .i1⟩) (broadcastInDim S4x128x256x7x7x6 ![0, 1, 2, 3, 4, 5] bcast_S4x128x1x1x7x6_S4x128x256x7x7x6_0_1_2_3_4_5),
    StableHlo.TRef.unary (.of main_call11_v0 : StableHlo.TRef sig ⟨S_, .f32⟩) (.of main_call11_v2 : StableHlo.TRef sig ⟨S256x7x7x6, .f32⟩) (broadcastInDim S256x7x7x6 ![] bcast_S_S256x7x7x6),
    StableHlo.TRef.unary (.of main_call11_v2 : StableHlo.TRef sig ⟨S256x7x7x6, .f32⟩) (.of main_call11_v3 : StableHlo.TRef sig ⟨S128x256x7x7x6, .f32⟩) (broadcastInDim S128x256x7x7x6 ![1, 2, 3, 4] bcast_S256x7x7x6_S128x256x7x7x6_1_2_3_4),
    StableHlo.TRef.unary (.of main_call11_v3 : StableHlo.TRef sig ⟨S128x256x7x7x6, .f32⟩) (.of main_call11_v4 : StableHlo.TRef sig ⟨S4x128x256x7x7x6, .f32⟩) (broadcastInDim S4x128x256x7x7x6 ![1, 2, 3, 4, 5] bcast_S128x256x7x7x6_S4x128x256x7x7x6_1_2_3_4_5),
    StableHlo.TRef.ternary (.of main_call11_v1 : StableHlo.TRef sig ⟨S4x128x256x7x7x6, .i1⟩) (.of main_v125 : StableHlo.TRef sig ⟨S4x128x256x7x7x6, .f32⟩) (.of main_call11_v4 : StableHlo.TRef sig ⟨S4x128x256x7x7x6, .f32⟩) (.of main_v127 : StableHlo.TRef sig ⟨S4x128x256x7x7x6, .f32⟩) select ]
theorem p2_7_sub : (p2_7 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.ternary_bufs_sub ..⟩

/-- One stretch of the reference's host operations, in order. -/
abbrev p2_8 : List (HloOp τ sig (Elt F)) :=
  [ StableHlo.nullary main_cst_30 (constant S_ .f32 0xFF800000#32),
    StableHlo.binary main_v127 main_cst_30 main_v128 ((fun x v => Host.reduce FloatOps.maximumf x v reducesTo_S4x128x256x7x7x6_S4x128x256x7x7_d5 h_S_) : (⟨S4x128x256x7x7x6, .f32⟩ : BufTy).Contents (Elt F) → (⟨S_, .f32⟩ : BufTy).Contents (Elt F) → (⟨S4x128x256x7x7, .f32⟩ : BufTy).Contents (Elt F)),
    StableHlo.reshape main_v128 main_v129 rfl shapeCasts_S4x128x256x7x7_S4x128x12544,
    StableHlo.binary main_v129 main_arg2 main_v130 ((fun l r => Host.dotGeneral dot_S4x128x12544_S256x12544_S4x128x256_2_1_01_0_n_n none l r) : (⟨S4x128x12544, .f32⟩ : BufTy).Contents (Elt F) → (⟨S256x12544, .f32⟩ : BufTy).Contents (Elt F) → (⟨S4x128x256, .f32⟩ : BufTy).Contents (Elt F)),
    StableHlo.unary main_arg3 main_v131 (broadcastInDim S1x1x256 ![2] bcast_S256_S1x1x256_2 : (⟨S256, .f32⟩ : BufTy).Contents (Elt F) → (⟨S1x1x256, .f32⟩ : BufTy).Contents (Elt F)),
    StableHlo.unary main_v131 main_v132 (broadcastInDim S4x128x256 ![0, 1, 2] bcast_S1x1x256_S4x128x256_0_1_2 : (⟨S1x1x256, .f32⟩ : BufTy).Contents (Elt F) → (⟨S4x128x256, .f32⟩ : BufTy).Contents (Elt F)),
    StableHlo.binary main_v130 main_v132 main_v133 (addf : (⟨S4x128x256, .f32⟩ : BufTy).Contents (Elt F) → (⟨S4x128x256, .f32⟩ : BufTy).Contents (Elt F) → (⟨S4x128x256, .f32⟩ : BufTy).Contents (Elt F)) ]
theorem p2_8_sub : (p2_8 : List (HloOp τ sig (Elt F))).Forall fun op => op.bufs ⊆ StableHlo.tcRefs τ sig :=
  ⟨StableHlo.nullary_bufs_sub .., StableHlo.binary_bufs_sub .., StableHlo.reshape_bufs_sub .., StableHlo.binary_bufs_sub .., StableHlo.unary_bufs_sub .., StableHlo.unary_bufs_sub .., StableHlo.binary_bufs_sub ..⟩

/-- One stretch of the reference's host operations, in order. -/
abbrev p2_9 : List (HloOp τ sig (Elt F)) :=
  [ StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S4x128x256, .f32⟩) (broadcastInDim S4x128x256 ![] bcast_S_S4x128x256),
    StableHlo.TRef.binary (.of main_v133 : StableHlo.TRef sig ⟨S4x128x256, .f32⟩) (.of main_call12_v0 : StableHlo.TRef sig ⟨S4x128x256, .f32⟩) (.of main_v134 : StableHlo.TRef sig ⟨S4x128x256, .f32⟩) maximumf ]
theorem p2_9_sub : (p2_9 : List (HloOp τ sig (Elt F))).Forall fun op => op.bufs ⊆ StableHlo.tcRefs τ sig :=
  ⟨StableHlo.nullary_bufs_sub .., StableHlo.unary_bufs_sub .., StableHlo.binary_bufs_sub ..⟩

/-- One stretch of the reference's host operations, in order. -/
abbrev p2_10 : List (HloOp τ sig (Elt F)) :=
  [ StableHlo.binary main_v134 main_arg4 main_v135 ((fun l r => Host.dotGeneral dot_S4x128x256_S5x256_S4x128x5_2_1_01_0_n_n none l r) : (⟨S4x128x256, .f32⟩ : BufTy).Contents (Elt F) → (⟨S5x256, .f32⟩ : BufTy).Contents (Elt F) → (⟨S4x128x5, .f32⟩ : BufTy).Contents (Elt F)),
    StableHlo.unary main_arg5 main_v136 (broadcastInDim S1x1x5 ![2] bcast_S5_S1x1x5_2 : (⟨S5, .f32⟩ : BufTy).Contents (Elt F) → (⟨S1x1x5, .f32⟩ : BufTy).Contents (Elt F)),
    StableHlo.unary main_v136 main_v137 (broadcastInDim S4x128x5 ![0, 1, 2] bcast_S1x1x5_S4x128x5_0_1_2 : (⟨S1x1x5, .f32⟩ : BufTy).Contents (Elt F) → (⟨S4x128x5, .f32⟩ : BufTy).Contents (Elt F)),
    StableHlo.binary main_v135 main_v137 main_v138 (addf : (⟨S4x128x5, .f32⟩ : BufTy).Contents (Elt F) → (⟨S4x128x5, .f32⟩ : BufTy).Contents (Elt F) → (⟨S4x128x5, .f32⟩ : BufTy).Contents (Elt F)),
    StableHlo.unary main_arg1 main_v139 ((extractStridedSlice S4x128x4 ![0, 0, 0] · slices_S4x128x5_S4x128x4_0_0_0) : (⟨S4x128x5, .f32⟩ : BufTy).Contents (Elt F) → (⟨S4x128x4, .f32⟩ : BufTy).Contents (Elt F)),
    StableHlo.unary main_v138 main_v140 ((extractStridedSlice S4x128x4 ![0, 0, 0] · slices_S4x128x5_S4x128x4_0_0_0) : (⟨S4x128x5, .f32⟩ : BufTy).Contents (Elt F) → (⟨S4x128x4, .f32⟩ : BufTy).Contents (Elt F)),
    StableHlo.binary main_v139 main_v140 main_v141 (addf : (⟨S4x128x4, .f32⟩ : BufTy).Contents (Elt F) → (⟨S4x128x4, .f32⟩ : BufTy).Contents (Elt F) → (⟨S4x128x4, .f32⟩ : BufTy).Contents (Elt F)),
    StableHlo.unary main_arg1 main_v142 ((extractStridedSlice S4x128x1 ![0, 0, 4] · slices_S4x128x5_S4x128x1_0_0_4) : (⟨S4x128x5, .f32⟩ : BufTy).Contents (Elt F) → (⟨S4x128x1, .f32⟩ : BufTy).Contents (Elt F)),
    StableHlo.unary main_v138 main_v143 ((extractStridedSlice S4x128x1 ![0, 0, 4] · slices_S4x128x5_S4x128x1_0_0_4) : (⟨S4x128x5, .f32⟩ : BufTy).Contents (Elt F) → (⟨S4x128x1, .f32⟩ : BufTy).Contents (Elt F)),
    StableHlo.binary main_v142 main_v143 main_v144 (addf : (⟨S4x128x1, .f32⟩ : BufTy).Contents (Elt F) → (⟨S4x128x1, .f32⟩ : BufTy).Contents (Elt F) → (⟨S4x128x1, .f32⟩ : BufTy).Contents (Elt F)),
    StableHlo.unary main_v144 main_v145 (Host.negf : (⟨S4x128x1, .f32⟩ : BufTy).Contents (Elt F) → (⟨S4x128x1, .f32⟩ : BufTy).Contents (Elt F)),
    StableHlo.unary main_v145 main_v146 (Host.exp : (⟨S4x128x1, .f32⟩ : BufTy).Contents (Elt F) → (⟨S4x128x1, .f32⟩ : BufTy).Contents (Elt F)) ]
theorem p2_10_sub : (p2_10 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩

/-- One stretch of the reference's host operations, in order. -/
abbrev p3_0 : List (HloOp τ sig (Elt F)) :=
  [ StableHlo.nullary main_cst_31 (constant S_ .f32 0x3F800000#32),
    StableHlo.unary main_cst_31 main_v147 (broadcastInDim S4x128x1 ![] bcast_S_S4x128x1 : (⟨S_, .f32⟩ : BufTy).Contents (Elt F) → (⟨S4x128x1, .f32⟩ : BufTy).Contents (Elt F)),
    StableHlo.binary main_v147 main_v146 main_v148 (addf : (⟨S4x128x1, .f32⟩ : BufTy).Contents (Elt F) → (⟨S4x128x1, .f32⟩ : BufTy).Contents (Elt F) → (⟨S4x128x1, .f32⟩ : BufTy).Contents (Elt F)),
    StableHlo.nullary main_cst_32 (constant S_ .f32 0x3F800000#32),
    StableHlo.unary main_cst_32 main_v149 (broadcastInDim S4x128x1 ![] bcast_S_S4x128x1 : (⟨S_, .f32⟩ : BufTy).Contents (Elt F) → (⟨S4x128x1, .f32⟩ : BufTy).Contents (Elt F)),
    StableHlo.binary main_v149 main_v148 main_v150 (Host.divf : (⟨S4x128x1, .f32⟩ : BufTy).Contents (Elt F) → (⟨S4x128x1, .f32⟩ : BufTy).Contents (Elt F) → (⟨S4x128x1, .f32⟩ : BufTy).Contents (Elt F)),
    StableHlo.binary main_v141 main_v150 main_v151 ((fun a b => concatenate S4x128x5 2 [⟨S4x128x4, a⟩, ⟨S4x128x1, b⟩] concatenates_S4x128x4_S4x128x1_S4x128x5_d2) : (⟨S4x128x4, .f32⟩ : BufTy).Contents (Elt F) → (⟨S4x128x1, .f32⟩ : BufTy).Contents (Elt F) → (⟨S4x128x5, .f32⟩ : BufTy).Contents (Elt F)) ]
theorem p3_0_sub : (p3_0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

/-- The stretches in program order. -/
abbrev stretches : List (List (HloOp τ sig (Elt F))) :=
  [p0_0, p0_1, p0_2, p0_3, p0_4, p0_5, p0_6, p0_7, p0_8, p0_9, p0_10, p1_0, p1_1, p1_2, p1_3, p1_4, p1_5, p1_6, p2_0, p2_1, p2_2, p2_3, p2_4, p2_5, p2_6, p2_7, p2_8, p2_9, p2_10, p3_0]
/-- The reference's host operations, in order. -/
abbrev ops : List (HloOp τ sig (Elt F)) := List.flatten stretches

end Cert.ReferenceIdeal.Hand

end
-- ==== Proof.RefRun.lean ====
/-
  The reference program's run, read back.

  Its @main is printed in four windows; each window is, statement by statement, the chain of the stretches of
  RefOps.lean (a called function's body being one stretch over the call's buffers), so @main is the chain of all thirty
  stretches, and a chain of straight lines of operations is the one straight line of their concatenation.  The
  program scopes no buffer and no semaphore, every operation touches TensorCore buffers only and allocates nothing:
  so every weakly fair execution terminates with each buffer at the fold of the operations over the launch memory.
-/
import proofs.«162856_j87222195847717_1_alg».proof.Proof.RefOps
import Idealize.ShloMosaic.Lib.Pipeline.Regions

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- A chain of straight lines is the straight line of their concatenation. -/
theorem chain_seq {nD : Nat} {τ : Topo} {sig : RefSig} {Val : EltTy → Type} {Λ : Labels}
    (ls : List (List (HloOp τ sig Val))) :
    Pipeline.chain (ls.map fun l => (StableHlo.seq l : Prog (TpuEff nD τ sig Val Λ .tc) PUnit)) = StableHlo.seq ls.flatten := by
  induction ls with
  | nil => rfl
  | cons l ls ih =>
    rw [List.map_cons, Pipeline.chain_cons, ih, List.flatten_cons, StableHlo.seq_append]

/-- Window 0 of @main is the chain of its stretches, the last in tail position. -/
theorem main_part0_chain (c : Dev nD) : main_part0 (F := F) c = (Pipeline.chainK
  [ StableHlo.seq p0_0,
    StableHlo.seq p0_1,
    StableHlo.seq p0_2,
    StableHlo.seq p0_3,
    StableHlo.seq p0_4,
    StableHlo.seq p0_5,
    StableHlo.seq p0_6,
    StableHlo.seq p0_7,
    StableHlo.seq p0_8,
    StableHlo.seq p0_9 ]
  (StableHlo.seq p0_10) : Prog (TpuEff nD τ sig (Elt F) (Pipeline.Sig Λ₀ (Fin 0) fun p => (pcfgs (F := F) p).Adm) .tc) PUnit) := by
  chain_rfl

/-- Window 1. -/
theorem main_part1_chain (c : Dev nD) : main_part1 (F := F) c = (Pipeline.chainK
  [ StableHlo.seq p1_0,
    StableHlo.seq p1_1,
    StableHlo.seq p1_2,
    StableHlo.seq p1_3,
    StableHlo.seq p1_4,
    StableHlo.seq p1_5 ]
  (StableHlo.seq p1_6) : Prog (TpuEff nD τ sig (Elt F) (Pipeline.Sig Λ₀ (Fin 0) fun p => (pcfgs (F := F) p).Adm) .tc) PUnit) := by
  chain_rfl

/-- Window 2. -/
theorem main_part2_chain (c : Dev nD) : main_part2 (F := F) c = (Pipeline.chainK
  [ StableHlo.seq p2_0,
    StableHlo.seq p2_1,
    StableHlo.seq p2_2,
    StableHlo.seq p2_3,
    StableHlo.seq p2_4,
    StableHlo.seq p2_5,
    StableHlo.seq p2_6,
    StableHlo.seq p2_7,
    StableHlo.seq p2_8,
    StableHlo.seq p2_9 ]
  (StableHlo.seq p2_10) : Prog (TpuEff nD τ sig (Elt F) (Pipeline.Sig Λ₀ (Fin 0) fun p => (pcfgs (F := F) p).Adm) .tc) PUnit) := by
  chain_rfl

/-- Window 3, the last: a chain closed by the return. -/
theorem main_part3_chain (c : Dev nD) : main_part3 (F := F) c = (Pipeline.chain
  [ StableHlo.seq p3_0 ] : Prog (TpuEff nD τ sig (Elt F) (Pipeline.Sig Λ₀ (Fin 0) fun p => (pcfgs (F := F) p).Adm) .tc) PUnit) := by
  chain_rfl

/-- @main is the chain of the thirty stretches. -/
theorem main_chain (c : Dev nD) : main (F := F) c = (Pipeline.chain
  [ StableHlo.seq p0_0,
    StableHlo.seq p0_1,
    StableHlo.seq p0_2,
    StableHlo.seq p0_3,
    StableHlo.seq p0_4,
    StableHlo.seq p0_5,
    StableHlo.seq p0_6,
    StableHlo.seq p0_7,
    StableHlo.seq p0_8,
    StableHlo.seq p0_9,
    StableHlo.seq p0_10,
    StableHlo.seq p1_0,
    StableHlo.seq p1_1,
    StableHlo.seq p1_2,
    StableHlo.seq p1_3,
    StableHlo.seq p1_4,
    StableHlo.seq p1_5,
    StableHlo.seq p1_6,
    StableHlo.seq p2_0,
    StableHlo.seq p2_1,
    StableHlo.seq p2_2,
    StableHlo.seq p2_3,
    StableHlo.seq p2_4,
    StableHlo.seq p2_5,
    StableHlo.seq p2_6,
    StableHlo.seq p2_7,
    StableHlo.seq p2_8,
    StableHlo.seq p2_9,
    StableHlo.seq p2_10,
    StableHlo.seq p3_0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain,
    main_part0_chain, Pipeline.chainK_bind_chain]
  chain_rfl

/-- @main is the straight line of all the operations. -/
theorem main_eq (c : Dev nD) : main (F := F) c = StableHlo.seq ops := by
  rw [main_chain c]
  exact chain_seq (nD := nD) (Λ := Pipeline.Sig Λ₀ (Fin 0) fun p => (pcfgs (F := F) p).Adm) stretches

/-- The signature scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- A property of every element of every list is a property of every element of the concatenation. -/
theorem forall_flatten {α : Type} {p : α → Prop} : ∀ (ls : List (List α)), ls.Forall (fun l => l.Forall p) → ls.flatten.Forall p
  | [], _ => by simp only [List.flatten_nil, List.Forall]
  | l :: ls, h => by
    rw [List.forall_cons] at h
    rw [List.flatten_cons, List.forall_append]
    exact ⟨h.1, forall_flatten ls h.2⟩

/-- Every operation touches TensorCore buffers only. -/
theorem ops_sub : (ops : List (HloOp τ sig (Elt F))).Forall fun op => op.bufs ⊆ StableHlo.tcRefs τ sig :=
  forall_flatten stretches (by
    simp only [List.Forall]
    exact ⟨p0_0_sub, p0_1_sub, p0_2_sub, p0_3_sub, p0_4_sub, p0_5_sub, p0_6_sub, p0_7_sub, p0_8_sub, p0_9_sub, p0_10_sub, p1_0_sub, p1_1_sub, p1_2_sub, p1_3_sub, p1_4_sub, p1_5_sub, p1_6_sub, p2_0_sub, p2_1_sub, p2_2_sub, p2_3_sub, p2_4_sub, p2_5_sub, p2_6_sub, p2_7_sub, p2_8_sub, p2_9_sub, p2_10_sub, p3_0_sub⟩)

theorem p0_0_fresh : (p0_0 : List (HloOp τ sig (Elt F))).Forall fun op => op.fresh = ∅ := by
  simp only [List.Forall]; repeat' constructor
theorem p0_1_fresh : (p0_1 : List (HloOp τ sig (Elt F))).Forall fun op => op.fresh = ∅ := by
  simp only [List.Forall]; repeat' constructor
theorem p0_2_fresh : (p0_2 : List (HloOp τ sig (Elt F))).Forall fun op => op.fresh = ∅ := by
  simp only [List.Forall]; repeat' constructor
theorem p0_3_fresh : (p0_3 : List (HloOp τ sig (Elt F))).Forall fun op => op.fresh = ∅ := by
  simp only [List.Forall]; repeat' constructor
theorem p0_4_fresh : (p0_4 : List (HloOp τ sig (Elt F))).Forall fun op => op.fresh = ∅ := by
  simp only [List.Forall]; repeat' constructor
theorem p0_5_fresh : (p0_5 : List (HloOp τ sig (Elt F))).Forall fun op => op.fresh = ∅ := by
  simp only [List.Forall]; repeat' constructor
theorem p0_6_fresh : (p0_6 : List (HloOp τ sig (Elt F))).Forall fun op => op.fresh = ∅ := by
  simp only [List.Forall]; repeat' constructor
theorem p0_7_fresh : (p0_7 : List (HloOp τ sig (Elt F))).Forall fun op => op.fresh = ∅ := by
  simp only [List.Forall]; repeat' constructor
theorem p0_8_fresh : (p0_8 : List (HloOp τ sig (Elt F))).Forall fun op => op.fresh = ∅ := by
  simp only [List.Forall]; repeat' constructor
theorem p0_9_fresh : (p0_9 : List (HloOp τ sig (Elt F))).Forall fun op => op.fresh = ∅ := by
  simp only [List.Forall]; repeat' constructor
theorem p0_10_fresh : (p0_10 : List (HloOp τ sig (Elt F))).Forall fun op => op.fresh = ∅ := by
  simp only [List.Forall]; repeat' constructor
theorem p1_0_fresh : (p1_0 : List (HloOp τ sig (Elt F))).Forall fun op => op.fresh = ∅ := by
  simp only [List.Forall]; repeat' constructor
theorem p1_1_fresh : (p1_1 : List (HloOp τ sig (Elt F))).Forall fun op => op.fresh = ∅ := by
  simp only [List.Forall]; repeat' constructor
theorem p1_2_fresh : (p1_2 : List (HloOp τ sig (Elt F))).Forall fun op => op.fresh = ∅ := by
  simp only [List.Forall]; repeat' constructor
theorem p1_3_fresh : (p1_3 : List (HloOp τ sig (Elt F))).Forall fun op => op.fresh = ∅ := by
  simp only [List.Forall]; repeat' constructor
theorem p1_4_fresh : (p1_4 : List (HloOp τ sig (Elt F))).Forall fun op => op.fresh = ∅ := by
  simp only [List.Forall]; repeat' constructor
theorem p1_5_fresh : (p1_5 : List (HloOp τ sig (Elt F))).Forall fun op => op.fresh = ∅ := by
  simp only [List.Forall]; repeat' constructor
theorem p1_6_fresh : (p1_6 : List (HloOp τ sig (Elt F))).Forall fun op => op.fresh = ∅ := by
  simp only [List.Forall]; repeat' constructor
theorem p2_0_fresh : (p2_0 : List (HloOp τ sig (Elt F))).Forall fun op => op.fresh = ∅ := by
  simp only [List.Forall]; repeat' constructor
theorem p2_1_fresh : (p2_1 : List (HloOp τ sig (Elt F))).Forall fun op => op.fresh = ∅ := by
  simp only [List.Forall]; repeat' constructor
theorem p2_2_fresh : (p2_2 : List (HloOp τ sig (Elt F))).Forall fun op => op.fresh = ∅ := by
  simp only [List.Forall]; repeat' constructor
theorem p2_3_fresh : (p2_3 : List (HloOp τ sig (Elt F))).Forall fun op => op.fresh = ∅ := by
  simp only [List.Forall]; repeat' constructor
theorem p2_4_fresh : (p2_4 : List (HloOp τ sig (Elt F))).Forall fun op => op.fresh = ∅ := by
  simp only [List.Forall]; repeat' constructor
theorem p2_5_fresh : (p2_5 : List (HloOp τ sig (Elt F))).Forall fun op => op.fresh = ∅ := by
  simp only [List.Forall]; repeat' constructor
theorem p2_6_fresh : (p2_6 : List (HloOp τ sig (Elt F))).Forall fun op => op.fresh = ∅ := by
  simp only [List.Forall]; repeat' constructor
theorem p2_7_fresh : (p2_7 : List (HloOp τ sig (Elt F))).Forall fun op => op.fresh = ∅ := by
  simp only [List.Forall]; repeat' constructor
theorem p2_8_fresh : (p2_8 : List (HloOp τ sig (Elt F))).Forall fun op => op.fresh = ∅ := by
  simp only [List.Forall]; repeat' constructor
theorem p2_9_fresh : (p2_9 : List (HloOp τ sig (Elt F))).Forall fun op => op.fresh = ∅ := by
  simp only [List.Forall]; repeat' constructor
theorem p2_10_fresh : (p2_10 : List (HloOp τ sig (Elt F))).Forall fun op => op.fresh = ∅ := by
  simp only [List.Forall]; repeat' constructor
theorem p3_0_fresh : (p3_0 : List (HloOp τ sig (Elt F))).Forall fun op => op.fresh = ∅ := by
  simp only [List.Forall]; repeat' constructor

/-- No operation allocates. -/
theorem ops_fresh : (ops : List (HloOp τ sig (Elt F))).Forall fun op => op.fresh = ∅ :=
  forall_flatten stretches (by
    simp only [List.Forall]
    exact ⟨p0_0_fresh, p0_1_fresh, p0_2_fresh, p0_3_fresh, p0_4_fresh, p0_5_fresh, p0_6_fresh, p0_7_fresh, p0_8_fresh, p0_9_fresh, p0_10_fresh, p1_0_fresh, p1_1_fresh, p1_2_fresh, p1_3_fresh, p1_4_fresh, p1_5_fresh, p1_6_fresh, p2_0_fresh, p2_1_fresh, p2_2_fresh, p2_3_fresh, p2_4_fresh, p2_5_fresh, p2_6_fresh, p2_7_fresh, p2_8_fresh, p2_9_fresh, p2_10_fresh, p3_0_fresh⟩)

/-- On every device, for any float values, from any memory with zero counters: every weakly fair execution of the
    reference's @main terminates, with each TensorCore buffer at the fold of the operations over the launch memory. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq scopedRefs_eq scopedSems_eq defs main (fun _ => ops) main_eq (fun _ => ops_sub) m ρ
    (fun _ => List.forall_iff_forall_mem.mp ops_fresh)

end Cert.ReferenceIdeal.Hand

end
-- ==== Proof.RefTailCut.lean ====
/-
  The reference's host program is one fold of its operations over the buffer contents. This module cuts that
  fold where the regression head begins, and shows that the six argument buffers come out of the whole fold as
  they went in.

  * A fold over a concatenation is the fold over the second list started from the fold over the first
    (`rd_after_append`), so the contents after all operations are the contents after the last four stretches
    (the two matrix products with their biases, the cut at zero, the logistic column and the final
    concatenation), started from the contents after the first twenty-six (`rd_after_ops`).
  * No operation of the program has an argument buffer as its result. In each stretch, reading the fold at an
    argument buffer passes every operation unchanged (`rd_keeps_each`); the property is closed under concatenation
    (`rd_keeps_append`, `rd_keeps_flatten`), which gives it for the first twenty-six stretches
    (`rd_keeps_head`) and for the whole program (`rd_arg_kept`).
-/
import proofs.«162856_j87222195847717_1_alg».proof.Proof.RefOps

noncomputable section

namespace Cert.ReferenceIdeal.Hand

open Cert.ReferenceIdeal Cert.ReferenceIdeal.Gen Idealize.ShloMosaic Idealize.SL.Sem

variable {F : FTy → Type} [FloatOps F]

/-- The fold over a concatenation: first the first list, then the second from where the first ended. -/
theorem rd_after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- A list of operations keeps the six arguments: from any contents, each argument buffer reads afterwards what it
    read before. -/
def rd_Keeps (p : List (HloOp τ sig (Elt F))) : Prop :=
  ∀ V : Valuation τ sig (Elt F),
    StableHlo.after p V (Proc.devRef .tc main_arg0) = V (Proc.devRef .tc main_arg0)
    ∧ StableHlo.after p V (Proc.devRef .tc main_arg1) = V (Proc.devRef .tc main_arg1)
    ∧ StableHlo.after p V (Proc.devRef .tc main_arg2) = V (Proc.devRef .tc main_arg2)
    ∧ StableHlo.after p V (Proc.devRef .tc main_arg3) = V (Proc.devRef .tc main_arg3)
    ∧ StableHlo.after p V (Proc.devRef .tc main_arg4) = V (Proc.devRef .tc main_arg4)
    ∧ StableHlo.after p V (Proc.devRef .tc main_arg5) = V (Proc.devRef .tc main_arg5)

theorem rd_keeps_nil : rd_Keeps (F := F) [] := fun _ => ⟨rfl, rfl, rfl, rfl, rfl, rfl⟩

/-- Keeping the arguments passes to a concatenation. -/
theorem rd_keeps_append {p q : List (HloOp τ sig (Elt F))} (hp : rd_Keeps p) (hq : rd_Keeps q) : rd_Keeps (p ++ q) := fun V => by
  obtain ⟨a0, a1, a2, a3, a4, a5⟩ := hp V
  obtain ⟨b0, b1, b2, b3, b4, b5⟩ := hq (StableHlo.after p V)
  rw [rd_after_append]
  exact ⟨b0.trans a0, b1.trans a1, b2.trans a2, b3.trans a3, b4.trans a4, b5.trans a5⟩

/-- … and so to the concatenation of a list of lists that each keep them. -/
theorem rd_keeps_flatten : ∀ (L : List (List (HloOp τ sig (Elt F)))), (∀ p ∈ L, rd_Keeps p) → rd_Keeps (List.flatten L)
  | [], _ => rd_keeps_nil
  | p :: L, h => by
    rw [List.flatten_cons]
    exact rd_keeps_append (h p List.mem_cons_self) (rd_keeps_flatten L fun q hq => h q (List.mem_cons_of_mem _ hq))

set_option maxHeartbeats 4000000 in
/-- Every stretch keeps the arguments: at each argument buffer every operation of the stretch writes some other
    buffer, so the fold reads through to the starting contents. -/
theorem rd_keeps_each : ∀ p ∈ (stretches : List (List (HloOp τ sig (Elt F)))), rd_Keeps p := by
  simp only [stretches, List.forall_mem_cons, List.not_mem_nil, false_imp_iff, implies_true, and_true]
  repeat' apply And.intro
  all_goals (intro V; refine ⟨?_, ?_, ?_, ?_, ?_, ?_⟩ <;> after_results_simp)

/-- The stretches before the pooled rows are flattened: the first twenty-six. -/
abbrev rd_head : List (List (HloOp τ sig (Elt F))) := stretches.take 26

theorem rd_keeps_head : rd_Keeps (F := F) (List.flatten rd_head) :=
  rd_keeps_flatten _ fun p hp => rd_keeps_each p (List.mem_of_mem_take hp)

/-- The whole fold, cut: the last four stretches one after the other, from the contents after the first twenty-six. -/
theorem rd_after_ops (W : Valuation τ sig (Elt F)) :
    StableHlo.after ops W
      = StableHlo.after p3_0 (StableHlo.after p2_10 (StableHlo.after p2_9 (StableHlo.after p2_8 (StableHlo.after (List.flatten rd_head) W)))) := by
  show StableHlo.after (List.flatten stretches) W = _
  rw [← List.take_append_drop 26 (stretches : List (List (HloOp τ sig (Elt F)))), List.flatten_append, rd_after_append]
  show StableHlo.after (p2_8 ++ (p2_9 ++ (p2_10 ++ (p3_0 ++ [])))) _ = _
  rw [rd_after_append, rd_after_append, rd_after_append, List.append_nil]

/-- No operation of the reference writes an argument: after the whole program each argument buffer holds what it was
    launched with. -/
theorem rd_arg_kept {F : FTy → Type} [FloatOps F] (W : Valuation τ sig (Elt F)) :
    StableHlo.after ops W (Proc.devRef .tc main_arg0) = W (Proc.devRef .tc main_arg0)
    ∧ StableHlo.after ops W (Proc.devRef .tc main_arg1) = W (Proc.devRef .tc main_arg1)
    ∧ StableHlo.after ops W (Proc.devRef .tc main_arg2) = W (Proc.devRef .tc main_arg2)
    ∧ StableHlo.after ops W (Proc.devRef .tc main_arg3) = W (Proc.devRef .tc main_arg3)
    ∧ StableHlo.after ops W (Proc.devRef .tc main_arg4) = W (Proc.devRef .tc main_arg4)
    ∧ StableHlo.after ops W (Proc.devRef .tc main_arg5) = W (Proc.devRef .tc main_arg5) :=
  rd_keeps_flatten stretches rd_keeps_each W

end Cert.ReferenceIdeal.Hand

end
-- ==== Proof.RefTailMath.lean ====
/-
  The reference's last operations as one function of arrays, and that function is the regression head.

  After the pooled rows `P` are flattened the reference computes, from `P`, the proposals `prop`, the two weight
  matrices and the two biases:
    lin1 = P ·ₖ W1 + b1 (bias broadcast over images and proposals),  hidden = max lin1 0,
    out = hidden ·ⱼ W2 + b2,
    boxes = prop[.., 0:4] + out[.., 0:4],   conf = 1 / (1 + exp (−(prop[.., 4:5] + out[.., 4:5]))),
    result = boxes and conf side by side on the last axis.
  This module names these array functions (`rd_lin1` … `rd_tailFn`), reads each of them at a coordinate triple —
  a contraction over one axis as the finite sum over that axis's coordinate, a broadcast bias as the bias entry, a
  slice as the shifted entry, the concatenation as its left piece on columns 0–3 and its right piece on column 4 —
  and concludes that `rd_tailFn` is `Cert.Spec.head` entry by entry: columns 0–3 are `Spec.pre`, column 4 is
  `1 / (1 + exp (−pre))`, which is the logistic function by definition. No arithmetic law is used beyond
  rewriting each side to the same sums.
-/
import proofs.«162856_j87222195847717_1_alg».proof.Proof.Gen.ReferenceIdeal
import proofs.«162856_j87222195847717_1_alg».proof.Proof.Spec
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx Idealize.SL.Sem

/-- The first product's dimension numbers: axis 2 of the pooled rows against axis 1 of `W1`, no batch axis. -/
abbrev rd_D1 : DotDims S4x128x12544 S256x12544 S4x128x256 := dot_S4x128x12544_S256x12544_S4x128x256_2_1_01_0_n_n
/-- The second product's: axis 2 of the hidden values against axis 1 of `W2`, no batch axis. -/
abbrev rd_D2 : DotDims S4x128x256 S5x256 S4x128x5 := dot_S4x128x256_S5x256_S4x128x5_2_1_01_0_n_n

/-! ## The array functions -/

/-- `P ·ₖ W1 + b1`. -/
def rd_lin1 (P : FVec Ideal S4x128x12544 .f32) (W1 : FVec Ideal S256x12544 .f32) (b1 : FVec Ideal S256 .f32) : FVec Ideal S4x128x256 .f32 :=
  addf (Host.dotGeneral (F := Ideal) rd_D1 none P W1)
    (broadcastInDim S4x128x256 ![0, 1, 2] bcast_S1x1x256_S4x128x256_0_1_2 (broadcastInDim S1x1x256 ![2] bcast_S256_S1x1x256_2 b1))

/-- The cut below at zero. -/
def rd_relu (G : FVec Ideal S4x128x256 .f32) : FVec Ideal S4x128x256 .f32 :=
  maximumf G (broadcastInDim S4x128x256 ![] bcast_S_S4x128x256 (constant (F := Ideal) S_ .f32 0x00000000#32))

/-- `H ·ⱼ W2 + b2`. -/
def rd_lin2 (H : FVec Ideal S4x128x256 .f32) (W2 : FVec Ideal S5x256 .f32) (b2 : FVec Ideal S5 .f32) : FVec Ideal S4x128x5 .f32 :=
  addf (Host.dotGeneral (F := Ideal) rd_D2 none H W2)
    (broadcastInDim S4x128x5 ![0, 1, 2] bcast_S1x1x5_S4x128x5_0_1_2 (broadcastInDim S1x1x5 ![2] bcast_S5_S1x1x5_2 b2))

/-- Columns 0–3 of the proposals plus columns 0–3 of `out`. -/
def rd_boxes (prop out : FVec Ideal S4x128x5 .f32) : FVec Ideal S4x128x4 .f32 :=
  addf (extractStridedSlice S4x128x4 ![0, 0, 0] prop slices_S4x128x5_S4x128x4_0_0_0)
    (extractStridedSlice S4x128x4 ![0, 0, 0] out slices_S4x128x5_S4x128x4_0_0_0)

/-- `exp (−(prop[.., 4] + out[.., 4]))`. -/
def rd_expneg (prop out : FVec Ideal S4x128x5 .f32) : FVec Ideal S4x128x1 .f32 :=
  Host.exp (Host.negf (addf (extractStridedSlice S4x128x1 ![0, 0, 4] prop slices_S4x128x5_S4x128x1_0_0_4)
    (extractStridedSlice S4x128x1 ![0, 0, 4] out slices_S4x128x5_S4x128x1_0_0_4)))

/-- The last three operations: `1 / (1 + B)` and the concatenation with `A` on the last axis. -/
def rd_out (A : FVec Ideal S4x128x4 .f32) (B : FVec Ideal S4x128x1 .f32) : FVec Ideal S4x128x5 .f32 :=
  concatenate S4x128x5 2
    [⟨S4x128x4, A⟩,
     ⟨S4x128x1, Host.divf (broadcastInDim S4x128x1 ![] bcast_S_S4x128x1 (constant (F := Ideal) S_ .f32 0x3F800000#32))
        (addf (broadcastInDim S4x128x1 ![] bcast_S_S4x128x1 (constant (F := Ideal) S_ .f32 0x3F800000#32)) B)⟩]
    concatenates_S4x128x4_S4x128x1_S4x128x5_d2

/-- The whole tail, from the pooled rows and the five parameter arrays. -/
def rd_tailFn (P : FVec Ideal S4x128x12544 .f32) (prop : FVec Ideal S4x128x5 .f32) (W1 : FVec Ideal S256x12544 .f32)
    (b1 : FVec Ideal S256 .f32) (W2 : FVec Ideal S5x256 .f32) (b2 : FVec Ideal S5 .f32) : FVec Ideal S4x128x5 .f32 :=
  rd_out (rd_boxes prop (rd_lin2 (rd_relu (rd_lin1 P W1 b1)) W2 b2)) (rd_expneg prop (rd_lin2 (rd_relu (rd_lin1 P W1 b1)) W2 b2))

/-! ## The two contractions at an index -/

/-- The first product at `(b, n, j)`: the sum over the 12544 pooled entries of row `(b, n)` against row `j` of `W1`. -/
theorem rd_dot1_apply (P : FVec Ideal S4x128x12544 .f32) (W1 : FVec Ideal S256x12544 .f32) (b : Fin 4) (n : Fin 128) (j : Fin 256) :
    Host.dotGeneral (F := Ideal) rd_D1 none P W1 (ix3 b n j) = ∑ k : Fin 12544, P (ix3 b n k) * W1 (ix2 j k) := by
  simp only [Host.dotGeneral]
  refine (Ideal.dotGeneral_apply rd_D1 none .single P W1 (ix3 b n j)).trans ?_
  refine (Equiv.sum_comp (contrEquiv1 rd_D1 12544 rfl rfl).symm _).symm.trans ?_
  refine Finset.sum_congr rfl fun k _ => ?_
  have hl : rd_D1.lhsIdx (ix3 b n j) ((contrEquiv1 rd_D1 12544 rfl rfl).symm k) = ix3 b n k := by
    funext a
    match a with
    | ⟨0, _⟩ => rfl
    | ⟨1, _⟩ => rfl
    | ⟨2, _⟩ => exact Fin.ext ((rd_D1.lhsIdx_val_of_single (cl := 2) rfl _ _).trans (contrEquiv1_symm_val rd_D1 12544 rfl rfl k))
  have hr : rd_D1.rhsIdx (ix3 b n j) ((contrEquiv1 rd_D1 12544 rfl rfl).symm k) = ix2 j k := by
    funext a
    match a with
    | ⟨0, _⟩ => rfl
    | ⟨1, _⟩ => exact Fin.ext ((rd_D1.rhsIdx_val_of_single (cr := 1) rfl _ _).trans (contrEquiv1_symm_val rd_D1 12544 rfl rfl k))
  rw [hl, hr]

/-- The second product at `(b, n, o)`: the sum over the 256 hidden values of `(b, n)` against row `o` of `W2`. -/
theorem rd_dot2_apply (H : FVec Ideal S4x128x256 .f32) (W2 : FVec Ideal S5x256 .f32) (b : Fin 4) (n : Fin 128) (o : Fin 5) :
    Host.dotGeneral (F := Ideal) rd_D2 none H W2 (ix3 b n o) = ∑ j : Fin 256, H (ix3 b n j) * W2 (ix2 o j) := by
  simp only [Host.dotGeneral]
  refine (Ideal.dotGeneral_apply rd_D2 none .single H W2 (ix3 b n o)).trans ?_
  refine (Equiv.sum_comp (contrEquiv1 rd_D2 256 rfl rfl).symm _).symm.trans ?_
  refine Finset.sum_congr rfl fun j _ => ?_
  have hl : rd_D2.lhsIdx (ix3 b n o) ((contrEquiv1 rd_D2 256 rfl rfl).symm j) = ix3 b n j := by
    funext a
    match a with
    | ⟨0, _⟩ => rfl
    | ⟨1, _⟩ => rfl
    | ⟨2, _⟩ => exact Fin.ext ((rd_D2.lhsIdx_val_of_single (cl := 2) rfl _ _).trans (contrEquiv1_symm_val rd_D2 256 rfl rfl j))
  have hr : rd_D2.rhsIdx (ix3 b n o) ((contrEquiv1 rd_D2 256 rfl rfl).symm j) = ix2 o j := by
    funext a
    match a with
    | ⟨0, _⟩ => rfl
    | ⟨1, _⟩ => exact Fin.ext ((rd_D2.rhsIdx_val_of_single (cr := 1) rfl _ _).trans (contrEquiv1_symm_val rd_D2 256 rfl rfl j))
  rw [hl, hr]

/-! ## The broadcast biases at an index -/

/-- `b1` broadcast to [1, 1, 256] and then over images and proposals reads `b1[j]` at `(b, n, j)`. -/
theorem rd_bias1_apply (b1 : FVec Ideal S256 .f32) (b : Fin 4) (n : Fin 128) (j : Fin 256) :
    broadcastInDim S4x128x256 ![0, 1, 2] bcast_S1x1x256_S4x128x256_0_1_2 (broadcastInDim S1x1x256 ![2] bcast_S256_S1x1x256_2 b1) (ix3 b n j)
      = b1 (ix1 j) := by
  refine (broadcastInDim_apply (s := S1x1x256) (t := S4x128x256) ![0, 1, 2] _ _ (ix3 b n j) (ix3 (0 : Fin 1) (0 : Fin 1) j) ?_).trans ?_
  · intro a
    match a with
    | ⟨0, _⟩ => rfl
    | ⟨1, _⟩ => rfl
    | ⟨2, _⟩ => rfl
  · refine broadcastInDim_apply (s := S256) (t := S1x1x256) ![2] _ b1 (ix3 (0 : Fin 1) (0 : Fin 1) j) (ix1 j) ?_
    intro a
    match a with
    | ⟨0, _⟩ => rfl

/-- `b2` broadcast to [1, 1, 5] and then over images and proposals reads `b2[o]` at `(b, n, o)`. -/
theorem rd_bias2_apply (b2 : FVec Ideal S5 .f32) (b : Fin 4) (n : Fin 128) (o : Fin 5) :
    broadcastInDim S4x128x5 ![0, 1, 2] bcast_S1x1x5_S4x128x5_0_1_2 (broadcastInDim S1x1x5 ![2] bcast_S5_S1x1x5_2 b2) (ix3 b n o)
      = b2 (ix1 o) := by
  refine (broadcastInDim_apply (s := S1x1x5) (t := S4x128x5) ![0, 1, 2] _ _ (ix3 b n o) (ix3 (0 : Fin 1) (0 : Fin 1) o) ?_).trans ?_
  · intro a
    match a with
    | ⟨0, _⟩ => rfl
    | ⟨1, _⟩ => rfl
    | ⟨2, _⟩ => rfl
  · refine broadcastInDim_apply (s := S5) (t := S1x1x5) ![2] _ b2 (ix3 (0 : Fin 1) (0 : Fin 1) o) (ix1 o) ?_
    intro a
    match a with
    | ⟨0, _⟩ => rfl

/-! ## The host's exponential and negation at an index -/

/-- At the extended reals the host's exponential reads the exponential of the entry … -/
theorem rd_hostExp_apply {s : Shape} {φ : FTy} (x : FVec Ideal s φ) (i : s.Idx) : Host.exp x i = Ideal.exp (x i) := rfl
/-- … and the host's negation the negated entry. -/
theorem rd_hostNegf_apply {s : Shape} {φ : FTy} (x : FVec Ideal s φ) (i : s.Idx) : Host.negf x i = -(x i) := rfl

/-! ## The layers at an index -/

theorem rd_lin1_apply (P : FVec Ideal S4x128x12544 .f32) (W1 : FVec Ideal S256x12544 .f32) (b1 : FVec Ideal S256 .f32)
    (b : Fin 4) (n : Fin 128) (j : Fin 256) :
    rd_lin1 P W1 b1 (ix3 b n j) = (∑ k : Fin 12544, P (ix3 b n k) * W1 (ix2 j k)) + b1 (ix1 j) := by
  unfold rd_lin1
  rw [addf_apply, rd_dot1_apply, rd_bias1_apply]

theorem rd_relu_apply (G : FVec Ideal S4x128x256 .f32) (i : S4x128x256.Idx) : rd_relu G i = max (G i) Cert.Spec.zeroWord := by
  unfold rd_relu
  rw [maximumf_apply, broadcastInDim_scalar_apply, constant_apply]

/-- The hidden values are `Spec.hid`. -/
theorem rd_hidden_apply (P : FVec Ideal S4x128x12544 .f32) (W1 : FVec Ideal S256x12544 .f32) (b1 : FVec Ideal S256 .f32)
    (b : Fin 4) (n : Fin 128) (j : Fin 256) :
    rd_relu (rd_lin1 P W1 b1) (ix3 b n j) = Cert.Spec.hid P W1 b1 b n j := by
  rw [rd_relu_apply, rd_lin1_apply]
  rfl

theorem rd_lin2_apply (H : FVec Ideal S4x128x256 .f32) (W2 : FVec Ideal S5x256 .f32) (b2 : FVec Ideal S5 .f32)
    (b : Fin 4) (n : Fin 128) (o : Fin 5) :
    rd_lin2 H W2 b2 (ix3 b n o) = (∑ j : Fin 256, H (ix3 b n j) * W2 (ix2 o j)) + b2 (ix1 o) := by
  unfold rd_lin2
  rw [addf_apply, rd_dot2_apply, rd_bias2_apply]

/-- Column `o < 4` of the boxes: the proposal's entry plus `out`'s. -/
theorem rd_boxes_apply (prop out : FVec Ideal S4x128x5 .f32) (b : Fin 4) (n : Fin 128) (o : Fin 5) (ho : o.val < 4) :
    rd_boxes prop out (ix3 b n (⟨o.val, ho⟩ : Fin 4)) = prop (ix3 b n o) + out (ix3 b n o) := by
  have hs : ∀ x : FVec Ideal S4x128x5 .f32,
      extractStridedSlice S4x128x4 ![0, 0, 0] x slices_S4x128x5_S4x128x4_0_0_0 (ix3 b n (⟨o.val, ho⟩ : Fin 4)) = x (ix3 b n o) := fun x => by
    refine extractStridedSlice_apply (s := S4x128x5) (t := S4x128x4) ![0, 0, 0] x _ (ix3 b n (⟨o.val, ho⟩ : Fin 4)) (ix3 b n o) ?_
    intro a
    match a with
    | ⟨0, _⟩ => exact (Nat.zero_add _).symm
    | ⟨1, _⟩ => exact (Nat.zero_add _).symm
    | ⟨2, _⟩ => exact (Nat.zero_add _).symm
  unfold rd_boxes
  rw [addf_apply, hs, hs]

/-- The one column of the confidence input, read at column 4 of both arrays. -/
theorem rd_expneg_apply (prop out : FVec Ideal S4x128x5 .f32) (b : Fin 4) (n : Fin 128) (o : Fin 5) (ho : o.val = 4) :
    rd_expneg prop out (ix3 b n (0 : Fin 1)) = Ideal.exp (-(prop (ix3 b n o) + out (ix3 b n o))) := by
  have hs : ∀ x : FVec Ideal S4x128x5 .f32,
      extractStridedSlice S4x128x1 ![0, 0, 4] x slices_S4x128x5_S4x128x1_0_0_4 (ix3 b n (0 : Fin 1)) = x (ix3 b n o) := fun x => by
    refine extractStridedSlice_apply (s := S4x128x5) (t := S4x128x1) ![0, 0, 4] x _ (ix3 b n (0 : Fin 1)) (ix3 b n o) ?_
    intro a
    match a with
    | ⟨0, _⟩ => exact (Nat.zero_add _).symm
    | ⟨1, _⟩ => exact (Nat.zero_add _).symm
    | ⟨2, _⟩ => exact ho
  unfold rd_expneg
  rw [rd_hostExp_apply, rd_hostNegf_apply, addf_apply, hs, hs]

/-! ## The concatenation at an index -/

theorem rd_concat_left {α : Type} (x₁ : S4x128x4.Idx → α) (x₂ : S4x128x1.Idx → α) (b : Fin 4) (n : Fin 128) (o : Fin 5) (ho : o.val < 4) :
    concatenate S4x128x5 2 [⟨S4x128x4, x₁⟩, ⟨S4x128x1, x₂⟩] concatenates_S4x128x4_S4x128x1_S4x128x5_d2 (ix3 b n o)
      = x₁ (ix3 b n (⟨o.val, ho⟩ : Fin 4)) := by
  refine concatenate_pair_apply_left (t := S4x128x5) (s₁ := S4x128x4) (s₂ := S4x128x1) 2 x₁ x₂ _ (ix3 b n o) rfl (ix3 b n (⟨o.val, ho⟩ : Fin 4)) ?_
  intro a
  match a with
  | ⟨0, _⟩ => rfl
  | ⟨1, _⟩ => rfl
  | ⟨2, _⟩ => rfl

theorem rd_concat_right {α : Type} (x₁ : S4x128x4.Idx → α) (x₂ : S4x128x1.Idx → α) (b : Fin 4) (n : Fin 128) (o : Fin 5) (ho : ¬ o.val < 4) :
    concatenate S4x128x5 2 [⟨S4x128x4, x₁⟩, ⟨S4x128x1, x₂⟩] concatenates_S4x128x4_S4x128x1_S4x128x5_d2 (ix3 b n o)
      = x₂ (ix3 b n (0 : Fin 1)) := by
  have h4 : o.val = 4 := by have := o.isLt; omega
  refine concatenate_pair_apply_right (t := S4x128x5) (s₁ := S4x128x4) (s₂ := S4x128x1) 2 x₁ x₂ _ (ix3 b n o) rfl rfl (ix3 b n (0 : Fin 1)) ?_ ?_
  · intro a ha
    match a with
    | ⟨0, _⟩ => rfl
    | ⟨1, _⟩ => rfl
    | ⟨2, _⟩ => exact absurd rfl ha
  · show (0 : Nat) + 4 = o.val
    omega

theorem rd_out_apply_lt (A : FVec Ideal S4x128x4 .f32) (B : FVec Ideal S4x128x1 .f32) (b : Fin 4) (n : Fin 128) (o : Fin 5) (ho : o.val < 4) :
    rd_out A B (ix3 b n o) = A (ix3 b n (⟨o.val, ho⟩ : Fin 4)) := by
  unfold rd_out
  exact rd_concat_left _ _ b n o ho

/-- Column 4 of the result: one over one plus `B`'s entry. -/
theorem rd_out_apply_4 (A : FVec Ideal S4x128x4 .f32) (B : FVec Ideal S4x128x1 .f32) (b : Fin 4) (n : Fin 128) (o : Fin 5) (ho : ¬ o.val < 4) :
    rd_out A B (ix3 b n o) = Ideal.div 1 (1 + B (ix3 b n (0 : Fin 1))) := by
  unfold rd_out
  refine (rd_concat_right _ _ b n o ho).trans ?_
  rw [hostDivf_apply, addf_apply, broadcastInDim_scalar_apply, constant_apply, Ideal.ofBits_one_f32]

/-! ## The tail is the head -/

theorem rd_tailFn_eq_head (P : FVec Ideal S4x128x12544 .f32) (prop : FVec Ideal S4x128x5 .f32) (W1 : FVec Ideal S256x12544 .f32)
    (b1 : FVec Ideal S256 .f32) (W2 : FVec Ideal S5x256 .f32) (b2 : FVec Ideal S5 .f32) :
    rd_tailFn P prop W1 b1 W2 b2 = Cert.Spec.head P prop W1 b1 W2 b2 := by
  refine Cert.Spec.eq_head P prop W1 b1 W2 b2 _ fun b n o => ?_
  have hout : ∀ o : Fin 5, rd_lin2 (rd_relu (rd_lin1 P W1 b1)) W2 b2 (ix3 b n o)
      = (∑ j : Fin 256, Cert.Spec.hid P W1 b1 b n j * W2 (ix2 o j)) + b2 (ix1 o) := fun o => by
    rw [rd_lin2_apply]
    refine congrArg (· + b2 (ix1 o)) (Finset.sum_congr rfl fun j _ => ?_)
    rw [rd_hidden_apply]
  unfold Cert.Spec.headAt rd_tailFn
  by_cases ho : o.val < 4
  · rw [if_pos ho, rd_out_apply_lt _ _ b n o ho, rd_boxes_apply _ _ b n o ho, hout]
    rfl
  · have h4 : o.val = 4 := by have := o.isLt; omega
    rw [if_neg ho, rd_out_apply_4 _ _ b n o ho, rd_expneg_apply _ _ b n o h4, hout]
    rfl

end Cert.ReferenceIdeal.Hand

end
-- ==== Proof.RefTailRead.lean ====
/-
  The last four stretches of the reference, read back: what the fold leaves in the buffers the regression head
  goes through, as the array functions of the previous module applied to what the fold started from.

  From any buffer contents `V`:
  * the stretch that flattens the pooled rows and applies the first product leaves `P ·ₖ W1 + b1` in %133, where `P`
    is what it leaves in %129 (`rd_read1`);
  * the cut at zero leaves `max (%133) 0` in %134 (`rd_read2`; its operations are stated over typed references,
    whose transports are identities at literal references);
  * the second product and the two slices leave the boxes in %141 and `exp (−·)` of the confidence input in %146
    (`rd_read3`);
  * the last stretch leaves the concatenation of %141 with `1 / (1 + %146)` in %151 (`rd_read4`).
  Beside these, the facts that a stretch does not write a buffer read later: %129 after it is written, and the
  argument buffers the later stretches read (`rd_skip*`).
-/
import proofs.«162856_j87222195847717_1_alg».proof.Proof.RefOps
import proofs.«162856_j87222195847717_1_alg».proof.Proof.RefTailMath

noncomputable section

namespace Cert.ReferenceIdeal.Hand

open Cert.ReferenceIdeal Cert.ReferenceIdeal.Gen Idealize.ShloMosaic Idealize.ShloMosaic.ValueIdx Idealize.SL.Sem

/-- Equal pieces give equal concatenations. -/
theorem rd_concat_congr {α : Type} {x₁ x₁' : S4x128x4.Idx → α} {x₂ x₂' : S4x128x1.Idx → α} (h1 : x₁ = x₁') (h2 : x₂ = x₂') :
    concatenate S4x128x5 2 [⟨S4x128x4, x₁⟩, ⟨S4x128x1, x₂⟩] concatenates_S4x128x4_S4x128x1_S4x128x5_d2
      = concatenate S4x128x5 2 [⟨S4x128x4, x₁'⟩, ⟨S4x128x1, x₂'⟩] concatenates_S4x128x4_S4x128x1_S4x128x5_d2 := by
  subst h1 h2; rfl

/-! ## The stretch of the first product -/

theorem rd_read1 (V : Valuation τ sig (Elt Ideal)) :
    @Eq (FVec Ideal S4x128x256 .f32) (StableHlo.after p2_8 V (Proc.devRef .tc main_v133))
      (rd_lin1 (StableHlo.after p2_8 V (Proc.devRef .tc main_v129)) (V (Proc.devRef .tc main_arg2)) (V (Proc.devRef .tc main_arg3))) := by
  unfold rd_lin1
  after_results_simp <;> rfl

theorem rd_skip1 (V : Valuation τ sig (Elt Ideal)) :
    StableHlo.after p2_8 V (Proc.devRef .tc main_arg1) = V (Proc.devRef .tc main_arg1)
    ∧ StableHlo.after p2_8 V (Proc.devRef .tc main_arg4) = V (Proc.devRef .tc main_arg4)
    ∧ StableHlo.after p2_8 V (Proc.devRef .tc main_arg5) = V (Proc.devRef .tc main_arg5) := by
  refine ⟨?_, ?_, ?_⟩ <;> after_results_simp

/-! ## The cut at zero -/

theorem rd_read2 (V : Valuation τ sig (Elt Ideal)) :
    @Eq (FVec Ideal S4x128x256 .f32) (StableHlo.after p2_9 V (Proc.devRef .tc main_v134)) (rd_relu (V (Proc.devRef .tc main_v133))) := by
  unfold rd_relu
  after_results_simp <;> rfl

theorem rd_skip2 (V : Valuation τ sig (Elt Ideal)) :
    StableHlo.after p2_9 V (Proc.devRef .tc main_v129) = V (Proc.devRef .tc main_v129)
    ∧ StableHlo.after p2_9 V (Proc.devRef .tc main_arg1) = V (Proc.devRef .tc main_arg1)
    ∧ StableHlo.after p2_9 V (Proc.devRef .tc main_arg4) = V (Proc.devRef .tc main_arg4)
    ∧ StableHlo.after p2_9 V (Proc.devRef .tc main_arg5) = V (Proc.devRef .tc main_arg5) := by
  refine ⟨?_, ?_, ?_, ?_⟩ <;> after_results_simp

/-! ## The second product, the slices, the exponential -/

theorem rd_read3 (V : Valuation τ sig (Elt Ideal)) :
    @Eq (FVec Ideal S4x128x4 .f32) (StableHlo.after p2_10 V (Proc.devRef .tc main_v141))
        (rd_boxes (V (Proc.devRef .tc main_arg1))
          (rd_lin2 (V (Proc.devRef .tc main_v134)) (V (Proc.devRef .tc main_arg4)) (V (Proc.devRef .tc main_arg5))))
    ∧ @Eq (FVec Ideal S4x128x1 .f32) (StableHlo.after p2_10 V (Proc.devRef .tc main_v146))
        (rd_expneg (V (Proc.devRef .tc main_arg1))
          (rd_lin2 (V (Proc.devRef .tc main_v134)) (V (Proc.devRef .tc main_arg4)) (V (Proc.devRef .tc main_arg5)))) := by
  unfold rd_boxes rd_expneg rd_lin2
  refine ⟨?_, ?_⟩ <;> (after_results_simp <;> rfl)

theorem rd_skip3 (V : Valuation τ sig (Elt Ideal)) :
    StableHlo.after p2_10 V (Proc.devRef .tc main_v129) = V (Proc.devRef .tc main_v129) := by
  after_results_simp

/-! ## The last stretch -/

theorem rd_read4 (V : Valuation τ sig (Elt Ideal)) :
    @Eq (FVec Ideal S4x128x5 .f32) (StableHlo.after p3_0 V (Proc.devRef .tc main_v151))
      (rd_out (V (Proc.devRef .tc main_v141)) (V (Proc.devRef .tc main_v146))) := by
  unfold rd_out
  after_results_simp
  refine rd_concat_congr ?_ ?_ <;> (after_results_simp <;> rfl)

theorem rd_skip4 (V : Valuation τ sig (Elt Ideal)) :
    StableHlo.after p3_0 V (Proc.devRef .tc main_v129) = V (Proc.devRef .tc main_v129) := by
  after_results_simp

end Cert.ReferenceIdeal.Hand

end
-- ==== Proof.RefTail.lean ====
/-
  The value the reference leaves in its result buffer is the regression head of the pooled rows it leaves in %129 and
  of the five parameter arrays it was launched with.

  The fold of all operations is cut after the first twenty-six stretches; call the contents there `X`. The first
  twenty-six stretches write no argument, so `X` holds the launch's parameter arrays. The last four stretches are
  read back layer by layer: the result buffer holds the tail function of the previous module applied to what the
  first of the four stretches leaves in %129 — which no later operation writes, so it is what the whole program
  leaves there — and to `X`'s parameter arrays. That tail function is the head.
-/
import proofs.«162856_j87222195847717_1_alg».proof.Proof.RefTailCut
import proofs.«162856_j87222195847717_1_alg».proof.Proof.RefTailRead
import proofs.«162856_j87222195847717_1_alg».proof.Proof.Spec

noncomputable section

namespace Cert.ReferenceIdeal.Hand

open Cert.ReferenceIdeal Cert.ReferenceIdeal.Gen Idealize.ShloMosaic Idealize.ShloMosaic.ValueIdx Idealize.SL.Sem

/-- From any contents `X`, the last four stretches leave in the result buffer the tail function of what the first of
    them leaves in %129 and of `X`'s parameter arrays. -/
theorem rd_tail_read (X : Valuation τ sig (Elt Ideal)) :
    @Eq (FVec Ideal S4x128x5 .f32)
      (StableHlo.after p3_0 (StableHlo.after p2_10 (StableHlo.after p2_9 (StableHlo.after p2_8 X))) (Proc.devRef .tc main_v151))
      (rd_tailFn (StableHlo.after p2_8 X (Proc.devRef .tc main_v129)) (X (Proc.devRef .tc main_arg1)) (X (Proc.devRef .tc main_arg2))
        (X (Proc.devRef .tc main_arg3)) (X (Proc.devRef .tc main_arg4)) (X (Proc.devRef .tc main_arg5))) := by
  unfold rd_tailFn
  rw [rd_read4, (rd_read3 _).1, (rd_read3 _).2, (rd_skip2 _).2.1, (rd_skip2 _).2.2.1, (rd_skip2 _).2.2.2, rd_read2, rd_read1,
    (rd_skip1 _).1, (rd_skip1 _).2.1, (rd_skip1 _).2.2]

/-- %129 is written by the first of the four stretches and by nothing later. -/
theorem rd_pooled_kept (X : Valuation τ sig (Elt Ideal)) :
    StableHlo.after p3_0 (StableHlo.after p2_10 (StableHlo.after p2_9 (StableHlo.after p2_8 X))) (Proc.devRef .tc main_v129)
      = StableHlo.after p2_8 X (Proc.devRef .tc main_v129) :=
  (rd_skip4 _).trans ((rd_skip3 _).trans (rd_skip2 _).1)

theorem rd_tail_value (W : Valuation τ sig (Elt Ideal)) :
    @Eq (FVec Ideal S4x128x5 .f32) (StableHlo.after ops W (Proc.devRef .tc main_v151))
      (Cert.Spec.head (StableHlo.after ops W (Proc.devRef .tc main_v129)) (W (Proc.devRef .tc main_arg1)) (W (Proc.devRef .tc main_arg2))
        (W (Proc.devRef .tc main_arg3)) (W (Proc.devRef .tc main_arg4)) (W (Proc.devRef .tc main_arg5))) := by
  obtain ⟨-, h1, h2, h3, h4, h5⟩ := rd_keeps_head (F := Ideal) W
  rw [rd_after_ops W]
  generalize StableHlo.after (List.flatten rd_head) W = X at h1 h2 h3 h4 h5 ⊢
  rw [← h1, ← h2, ← h3, ← h4, ← h5, rd_pooled_kept X, rd_tail_read X]
  exact rd_tailFn_eq_head _ _ _ _ _ _

end Cert.ReferenceIdeal.Hand

end
-- ==== Proof.PreDefs.lean ====
import proofs.«162856_j87222195847717_1_alg».proof.Proof.Gen.KernelIdeal.Launch
import proofs.«162856_j87222195847717_1_alg».proof.Proof.RefOps

noncomputable section

namespace Cert.Proof.Pre

open Idealize.ShloMosaic Idealize.ShloMosaic.TcCoe Idealize.SL.Sem

variable {F : FTy → Type} [FloatOps F]

/-- Two lines of operations run one after the other leave what their concatenation leaves. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The kernel program's memory (a valuation of its buffers). -/
abbrev KVal (F : FTy → Type) [FloatOps F] : Type := Valuation Cert.KernelIdeal.τ Cert.KernelIdeal.sig (Elt F)
/-- The reference program's memory. -/
abbrev RVal (F : FTy → Type) [FloatOps F] : Type := Valuation Cert.ReferenceIdeal.τ Cert.ReferenceIdeal.sig (Elt F)

/-- Group 1 of the kernel program's host operations, run from memory W. -/
abbrev kG1 (W : KVal F) : KVal F :=
  StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after Cert.KernelIdeal.Gen.hostOps0 W)))))))
/-- Group 1 of the reference's host operations, run from memory W. -/
abbrev rG1 (W : RVal F) : RVal F :=
  StableHlo.after Cert.ReferenceIdeal.Hand.p0_7 (StableHlo.after Cert.ReferenceIdeal.Hand.p0_6 (StableHlo.after Cert.ReferenceIdeal.Hand.p0_5 (StableHlo.after Cert.ReferenceIdeal.Hand.p0_4 (StableHlo.after Cert.ReferenceIdeal.Hand.p0_3 (StableHlo.after Cert.ReferenceIdeal.Hand.p0_2 (StableHlo.after Cert.ReferenceIdeal.Hand.p0_1 (StableHlo.after Cert.ReferenceIdeal.Hand.p0_0 W)))))))

/-- Group 2 of the kernel program's host operations, run from memory W. -/
abbrev kG2 (W : KVal F) : KVal F :=
  StableHlo.after Cert.KernelIdeal.Gen.hostOps0_9 (StableHlo.after Cert.KernelIdeal.Gen.hostOps0_8 W)
/-- Group 2 of the reference's host operations, run from memory W. -/
abbrev rG2 (W : RVal F) : RVal F :=
  StableHlo.after Cert.ReferenceIdeal.Hand.p0_9 (StableHlo.after Cert.ReferenceIdeal.Hand.p0_8 W)

/-- Group 3 of the kernel program's host operations, run from memory W. -/
abbrev kG3 (W : KVal F) : KVal F :=
  StableHlo.after Cert.KernelIdeal.Gen.hostOps0_11 (StableHlo.after Cert.KernelIdeal.Gen.hostOps0_10 W)
/-- Group 3 of the reference's host operations, run from memory W. -/
abbrev rG3 (W : RVal F) : RVal F :=
  StableHlo.after Cert.ReferenceIdeal.Hand.p1_1 (StableHlo.after Cert.ReferenceIdeal.Hand.p1_0 (StableHlo.after Cert.ReferenceIdeal.Hand.p0_10 W))

/-- Group 4 of the kernel program's host operations, run from memory W. -/
abbrev kG4 (W : KVal F) : KVal F :=
  StableHlo.after Cert.KernelIdeal.Gen.hostOps0_13 (StableHlo.after Cert.KernelIdeal.Gen.hostOps0_12 W)
/-- Group 4 of the reference's host operations, run from memory W. -/
abbrev rG4 (W : RVal F) : RVal F :=
  StableHlo.after Cert.ReferenceIdeal.Hand.p1_3 (StableHlo.after Cert.ReferenceIdeal.Hand.p1_2 W)

/-- Group 5 of the kernel program's host operations, run from memory W. -/
abbrev kG5 (W : KVal F) : KVal F :=
  StableHlo.after Cert.KernelIdeal.Gen.hostOps0_15 (StableHlo.after Cert.KernelIdeal.Gen.hostOps0_14 W)
/-- Group 5 of the reference's host operations, run from memory W. -/
abbrev rG5 (W : RVal F) : RVal F :=
  StableHlo.after Cert.ReferenceIdeal.Hand.p1_5 (StableHlo.after Cert.ReferenceIdeal.Hand.p1_4 W)

/-- Group 6 of the kernel program's host operations, run from memory W. -/
abbrev kG6 (W : KVal F) : KVal F :=
  StableHlo.after Cert.KernelIdeal.Gen.hostOps0_16 W
/-- Group 6 of the reference's host operations, run from memory W. -/
abbrev rG6 (W : RVal F) : RVal F :=
  StableHlo.after Cert.ReferenceIdeal.Hand.p2_0 (StableHlo.after Cert.ReferenceIdeal.Hand.p1_6 W)

/-- Group 7 of the kernel program's host operations, run from memory W. -/
abbrev kG7 (W : KVal F) : KVal F :=
  StableHlo.after Cert.KernelIdeal.Gen.hostOps0_20 (StableHlo.after Cert.KernelIdeal.Gen.hostOps0_19 (StableHlo.after Cert.KernelIdeal.Gen.hostOps0_18 (StableHlo.after Cert.KernelIdeal.Gen.hostOps0_17 W)))
/-- Group 7 of the reference's host operations, run from memory W. -/
abbrev rG7 (W : RVal F) : RVal F :=
  StableHlo.after Cert.ReferenceIdeal.Hand.p2_4 (StableHlo.after Cert.ReferenceIdeal.Hand.p2_3 (StableHlo.after Cert.ReferenceIdeal.Hand.p2_2 (StableHlo.after Cert.ReferenceIdeal.Hand.p2_1 W)))

/-- Group 8 of the kernel program's host operations, run from memory W. -/
abbrev kG8 (W : KVal F) : KVal F :=
  StableHlo.after Cert.KernelIdeal.Gen.hostOps0_24 (StableHlo.after Cert.KernelIdeal.Gen.hostOps0_23 (StableHlo.after Cert.KernelIdeal.Gen.hostOps0_22 (StableHlo.after Cert.KernelIdeal.Gen.hostOps0_21 W)))
/-- Group 8 of the reference's host operations, run from memory W. -/
abbrev rG8 (W : RVal F) : RVal F :=
  StableHlo.after Cert.ReferenceIdeal.Hand.p2_8 (StableHlo.after Cert.ReferenceIdeal.Hand.p2_7 (StableHlo.after Cert.ReferenceIdeal.Hand.p2_6 (StableHlo.after Cert.ReferenceIdeal.Hand.p2_5 W)))

/-- The reference's operations after group 8 (they write none of the prefix's buffers). -/
abbrev rRest (W : RVal F) : RVal F :=
  StableHlo.after Cert.ReferenceIdeal.Hand.p3_0 (StableHlo.after Cert.ReferenceIdeal.Hand.p2_10 (StableHlo.after Cert.ReferenceIdeal.Hand.p2_9 W))

/-- The two memories hold the same arrays at the buffers that cross boundary 1 (%arg1, %arg0). -/
def In1 (Wk : KVal F) (Wr : RVal F) : Prop :=
  @Eq ((⟨Cert.KernelIdeal.S4x128x5, .f32⟩ : BufTy).Contents (Elt F)) (Wk (Proc.devRef .tc Cert.KernelIdeal.main_arg1)) (Wr (Proc.devRef .tc Cert.ReferenceIdeal.main_arg1))
  ∧ @Eq ((⟨Cert.KernelIdeal.S4x256x23x30, .f32⟩ : BufTy).Contents (Elt F)) (Wk (Proc.devRef .tc Cert.KernelIdeal.main_arg0)) (Wr (Proc.devRef .tc Cert.ReferenceIdeal.main_arg0))

/-- The two memories hold the same arrays at the buffers that cross boundary 2 (%v24, %v12, %v18, %v7, %arg0). -/
def In2 (Wk : KVal F) (Wr : RVal F) : Prop :=
  @Eq ((⟨Cert.KernelIdeal.S4x128, .i32⟩ : BufTy).Contents (Elt F)) (Wk (Proc.devRef .tc Cert.KernelIdeal.main_v24)) (Wr (Proc.devRef .tc Cert.ReferenceIdeal.main_v24))
  ∧ @Eq ((⟨Cert.KernelIdeal.S4x128, .i32⟩ : BufTy).Contents (Elt F)) (Wk (Proc.devRef .tc Cert.KernelIdeal.main_v12)) (Wr (Proc.devRef .tc Cert.ReferenceIdeal.main_v12))
  ∧ @Eq ((⟨Cert.KernelIdeal.S4x128, .i32⟩ : BufTy).Contents (Elt F)) (Wk (Proc.devRef .tc Cert.KernelIdeal.main_v18)) (Wr (Proc.devRef .tc Cert.ReferenceIdeal.main_v18))
  ∧ @Eq ((⟨Cert.KernelIdeal.S4x128, .i32⟩ : BufTy).Contents (Elt F)) (Wk (Proc.devRef .tc Cert.KernelIdeal.main_v7)) (Wr (Proc.devRef .tc Cert.ReferenceIdeal.main_v7))
  ∧ @Eq ((⟨Cert.KernelIdeal.S4x256x23x30, .f32⟩ : BufTy).Contents (Elt F)) (Wk (Proc.devRef .tc Cert.KernelIdeal.main_arg0)) (Wr (Proc.devRef .tc Cert.ReferenceIdeal.main_arg0))

/-- The two memories hold the same arrays at the buffers that cross boundary 3 (%v12, %v33, %v25, %v24, %v26, %v18, %v7, %arg0). -/
def In3 (Wk : KVal F) (Wr : RVal F) : Prop :=
  @Eq ((⟨Cert.KernelIdeal.S4x128, .i32⟩ : BufTy).Contents (Elt F)) (Wk (Proc.devRef .tc Cert.KernelIdeal.main_v12)) (Wr (Proc.devRef .tc Cert.ReferenceIdeal.main_v12))
  ∧ @Eq ((⟨Cert.KernelIdeal.S4x128x7, .i32⟩ : BufTy).Contents (Elt F)) (Wk (Proc.devRef .tc Cert.KernelIdeal.main_v33)) (Wr (Proc.devRef .tc Cert.ReferenceIdeal.main_v33))
  ∧ @Eq ((⟨Cert.KernelIdeal.S7, .i32⟩ : BufTy).Contents (Elt F)) (Wk (Proc.devRef .tc Cert.KernelIdeal.main_v25)) (Wr (Proc.devRef .tc Cert.ReferenceIdeal.main_v25))
  ∧ @Eq ((⟨Cert.KernelIdeal.S4x128, .i32⟩ : BufTy).Contents (Elt F)) (Wk (Proc.devRef .tc Cert.KernelIdeal.main_v24)) (Wr (Proc.devRef .tc Cert.ReferenceIdeal.main_v24))
  ∧ @Eq ((⟨Cert.KernelIdeal.S7, .i32⟩ : BufTy).Contents (Elt F)) (Wk (Proc.devRef .tc Cert.KernelIdeal.main_v26)) (Wr (Proc.devRef .tc Cert.ReferenceIdeal.main_v26))
  ∧ @Eq ((⟨Cert.KernelIdeal.S4x128, .i32⟩ : BufTy).Contents (Elt F)) (Wk (Proc.devRef .tc Cert.KernelIdeal.main_v18)) (Wr (Proc.devRef .tc Cert.ReferenceIdeal.main_v18))
  ∧ @Eq ((⟨Cert.KernelIdeal.S4x128, .i32⟩ : BufTy).Contents (Elt F)) (Wk (Proc.devRef .tc Cert.KernelIdeal.main_v7)) (Wr (Proc.devRef .tc Cert.ReferenceIdeal.main_v7))
  ∧ @Eq ((⟨Cert.KernelIdeal.S4x256x23x30, .f32⟩ : BufTy).Contents (Elt F)) (Wk (Proc.devRef .tc Cert.KernelIdeal.main_arg0)) (Wr (Proc.devRef .tc Cert.ReferenceIdeal.main_arg0))

/-- The two memories hold the same arrays at the buffers that cross boundary 4 (%v12, %v49, %v26, %v18, %v7, %v36, %arg0). -/
def In4 (Wk : KVal F) (Wr : RVal F) : Prop :=
  @Eq ((⟨Cert.KernelIdeal.S4x128, .i32⟩ : BufTy).Contents (Elt F)) (Wk (Proc.devRef .tc Cert.KernelIdeal.main_v12)) (Wr (Proc.devRef .tc Cert.ReferenceIdeal.main_v12))
  ∧ @Eq ((⟨Cert.KernelIdeal.S4x128x7, .i32⟩ : BufTy).Contents (Elt F)) (Wk (Proc.devRef .tc Cert.KernelIdeal.main_v49)) (Wr (Proc.devRef .tc Cert.ReferenceIdeal.main_v49))
  ∧ @Eq ((⟨Cert.KernelIdeal.S7, .i32⟩ : BufTy).Contents (Elt F)) (Wk (Proc.devRef .tc Cert.KernelIdeal.main_v26)) (Wr (Proc.devRef .tc Cert.ReferenceIdeal.main_v26))
  ∧ @Eq ((⟨Cert.KernelIdeal.S4x128, .i32⟩ : BufTy).Contents (Elt F)) (Wk (Proc.devRef .tc Cert.KernelIdeal.main_v18)) (Wr (Proc.devRef .tc Cert.ReferenceIdeal.main_v18))
  ∧ @Eq ((⟨Cert.KernelIdeal.S4x128, .i32⟩ : BufTy).Contents (Elt F)) (Wk (Proc.devRef .tc Cert.KernelIdeal.main_v7)) (Wr (Proc.devRef .tc Cert.ReferenceIdeal.main_v7))
  ∧ @Eq ((⟨Cert.KernelIdeal.S4x128x7, .i32⟩ : BufTy).Contents (Elt F)) (Wk (Proc.devRef .tc Cert.KernelIdeal.main_v36)) (Wr (Proc.devRef .tc Cert.ReferenceIdeal.main_v36))
  ∧ @Eq ((⟨Cert.KernelIdeal.S4x256x23x30, .f32⟩ : BufTy).Contents (Elt F)) (Wk (Proc.devRef .tc Cert.KernelIdeal.main_arg0)) (Wr (Proc.devRef .tc Cert.ReferenceIdeal.main_arg0))

/-- The two memories hold the same arrays at the buffers that cross boundary 5 (%v7, %v59, %v26, %v18, %v36, %v52, %arg0). -/
def In5 (Wk : KVal F) (Wr : RVal F) : Prop :=
  @Eq ((⟨Cert.KernelIdeal.S4x128, .i32⟩ : BufTy).Contents (Elt F)) (Wk (Proc.devRef .tc Cert.KernelIdeal.main_v7)) (Wr (Proc.devRef .tc Cert.ReferenceIdeal.main_v7))
  ∧ @Eq ((⟨Cert.KernelIdeal.S4x128x7, .i32⟩ : BufTy).Contents (Elt F)) (Wk (Proc.devRef .tc Cert.KernelIdeal.main_v59)) (Wr (Proc.devRef .tc Cert.ReferenceIdeal.main_v59))
  ∧ @Eq ((⟨Cert.KernelIdeal.S7, .i32⟩ : BufTy).Contents (Elt F)) (Wk (Proc.devRef .tc Cert.KernelIdeal.main_v26)) (Wr (Proc.devRef .tc Cert.ReferenceIdeal.main_v26))
  ∧ @Eq ((⟨Cert.KernelIdeal.S4x128, .i32⟩ : BufTy).Contents (Elt F)) (Wk (Proc.devRef .tc Cert.KernelIdeal.main_v18)) (Wr (Proc.devRef .tc Cert.ReferenceIdeal.main_v18))
  ∧ @Eq ((⟨Cert.KernelIdeal.S4x128x7, .i32⟩ : BufTy).Contents (Elt F)) (Wk (Proc.devRef .tc Cert.KernelIdeal.main_v36)) (Wr (Proc.devRef .tc Cert.ReferenceIdeal.main_v36))
  ∧ @Eq ((⟨Cert.KernelIdeal.S4x128x7, .i32⟩ : BufTy).Contents (Elt F)) (Wk (Proc.devRef .tc Cert.KernelIdeal.main_v52)) (Wr (Proc.devRef .tc Cert.ReferenceIdeal.main_v52))
  ∧ @Eq ((⟨Cert.KernelIdeal.S4x256x23x30, .f32⟩ : BufTy).Contents (Elt F)) (Wk (Proc.devRef .tc Cert.KernelIdeal.main_arg0)) (Wr (Proc.devRef .tc Cert.ReferenceIdeal.main_arg0))

/-- The two memories hold the same arrays at the buffers that cross boundary 6 (%v7, %v75, %v36, %v52, %v62, %arg0). -/
def In6 (Wk : KVal F) (Wr : RVal F) : Prop :=
  @Eq ((⟨Cert.KernelIdeal.S4x128, .i32⟩ : BufTy).Contents (Elt F)) (Wk (Proc.devRef .tc Cert.KernelIdeal.main_v7)) (Wr (Proc.devRef .tc Cert.ReferenceIdeal.main_v7))
  ∧ @Eq ((⟨Cert.KernelIdeal.S4x128x7, .i32⟩ : BufTy).Contents (Elt F)) (Wk (Proc.devRef .tc Cert.KernelIdeal.main_v75)) (Wr (Proc.devRef .tc Cert.ReferenceIdeal.main_v75))
  ∧ @Eq ((⟨Cert.KernelIdeal.S4x128x7, .i32⟩ : BufTy).Contents (Elt F)) (Wk (Proc.devRef .tc Cert.KernelIdeal.main_v36)) (Wr (Proc.devRef .tc Cert.ReferenceIdeal.main_v36))
  ∧ @Eq ((⟨Cert.KernelIdeal.S4x128x7, .i32⟩ : BufTy).Contents (Elt F)) (Wk (Proc.devRef .tc Cert.KernelIdeal.main_v52)) (Wr (Proc.devRef .tc Cert.ReferenceIdeal.main_v52))
  ∧ @Eq ((⟨Cert.KernelIdeal.S4x128x7, .i32⟩ : BufTy).Contents (Elt F)) (Wk (Proc.devRef .tc Cert.KernelIdeal.main_v62)) (Wr (Proc.devRef .tc Cert.ReferenceIdeal.main_v62))
  ∧ @Eq ((⟨Cert.KernelIdeal.S4x256x23x30, .f32⟩ : BufTy).Contents (Elt F)) (Wk (Proc.devRef .tc Cert.KernelIdeal.main_arg0)) (Wr (Proc.devRef .tc Cert.ReferenceIdeal.main_arg0))

/-- The two memories hold the same arrays at the buffers that cross boundary 7 (%c_19, %v86, %c_20, %arg0, %v92, %v100, %v106). -/
def In7 (Wk : KVal F) (Wr : RVal F) : Prop :=
  @Eq ((⟨Cert.KernelIdeal.S_, .i32⟩ : BufTy).Contents (Elt F)) (Wk (Proc.devRef .tc Cert.KernelIdeal.main_c_19)) (Wr (Proc.devRef .tc Cert.ReferenceIdeal.main_c_19))
  ∧ @Eq ((⟨Cert.KernelIdeal.S4x128x7x5, .i32⟩ : BufTy).Contents (Elt F)) (Wk (Proc.devRef .tc Cert.KernelIdeal.main_v86)) (Wr (Proc.devRef .tc Cert.ReferenceIdeal.main_v86))
  ∧ @Eq ((⟨Cert.KernelIdeal.S_, .i32⟩ : BufTy).Contents (Elt F)) (Wk (Proc.devRef .tc Cert.KernelIdeal.main_c_20)) (Wr (Proc.devRef .tc Cert.ReferenceIdeal.main_c_20))
  ∧ @Eq ((⟨Cert.KernelIdeal.S4x256x23x30, .f32⟩ : BufTy).Contents (Elt F)) (Wk (Proc.devRef .tc Cert.KernelIdeal.main_arg0)) (Wr (Proc.devRef .tc Cert.ReferenceIdeal.main_arg0))
  ∧ @Eq ((⟨Cert.KernelIdeal.S4x128x7x5, .i1⟩ : BufTy).Contents (Elt F)) (Wk (Proc.devRef .tc Cert.KernelIdeal.main_v92)) (Wr (Proc.devRef .tc Cert.ReferenceIdeal.main_v92))
  ∧ @Eq ((⟨Cert.KernelIdeal.S4x128x7x6, .i32⟩ : BufTy).Contents (Elt F)) (Wk (Proc.devRef .tc Cert.KernelIdeal.main_v100)) (Wr (Proc.devRef .tc Cert.ReferenceIdeal.main_v100))
  ∧ @Eq ((⟨Cert.KernelIdeal.S4x128x7x6, .i1⟩ : BufTy).Contents (Elt F)) (Wk (Proc.devRef .tc Cert.KernelIdeal.main_v106)) (Wr (Proc.devRef .tc Cert.ReferenceIdeal.main_v106))

/-- The two memories hold the same arrays at the buffers that cross boundary 8 (%c_25, %v100, %c_26, %v117, %v106). -/
def In8 (Wk : KVal F) (Wr : RVal F) : Prop :=
  @Eq ((⟨Cert.KernelIdeal.S_, .i32⟩ : BufTy).Contents (Elt F)) (Wk (Proc.devRef .tc Cert.KernelIdeal.main_c_25)) (Wr (Proc.devRef .tc Cert.ReferenceIdeal.main_c_25))
  ∧ @Eq ((⟨Cert.KernelIdeal.S4x128x7x6, .i32⟩ : BufTy).Contents (Elt F)) (Wk (Proc.devRef .tc Cert.KernelIdeal.main_v100)) (Wr (Proc.devRef .tc Cert.ReferenceIdeal.main_v100))
  ∧ @Eq ((⟨Cert.KernelIdeal.S_, .i32⟩ : BufTy).Contents (Elt F)) (Wk (Proc.devRef .tc Cert.KernelIdeal.main_c_26)) (Wr (Proc.devRef .tc Cert.ReferenceIdeal.main_c_26))
  ∧ @Eq ((⟨Cert.KernelIdeal.S4x128x256x7x30, .f32⟩ : BufTy).Contents (Elt F)) (Wk (Proc.devRef .tc Cert.KernelIdeal.main_v117)) (Wr (Proc.devRef .tc Cert.ReferenceIdeal.main_v117))
  ∧ @Eq ((⟨Cert.KernelIdeal.S4x128x7x6, .i1⟩ : BufTy).Contents (Elt F)) (Wk (Proc.devRef .tc Cert.KernelIdeal.main_v106)) (Wr (Proc.devRef .tc Cert.ReferenceIdeal.main_v106))

/-- The two memories hold the same arrays at the buffers that cross boundary 9 (%v129). -/
def In9 (Wk : KVal F) (Wr : RVal F) : Prop :=
  @Eq ((⟨Cert.KernelIdeal.S4x128x12544, .f32⟩ : BufTy).Contents (Elt F)) (Wk (Proc.devRef .tc Cert.KernelIdeal.main_v129)) (Wr (Proc.devRef .tc Cert.ReferenceIdeal.main_v129))

end Cert.Proof.Pre

end
-- ==== Proof.PreFold.lean ====
/-
  The two programs' host prefixes as their eight groups.

  The kernel program's memory when its region is entered is the fold of twenty-five stretches of host operations over the
  launch memory; the reference's final memory is the fold of its thirty stretches.  A fold over a concatenation is the
  fold over the second part of the fold over the first, so each is the composition of its groups (PreDefs.lean); and the
  reference's operations after group 8 (the head itself) write none of the buffers of the pooling, in particular not
  the pooled rows.
-/
import proofs.«162856_j87222195847717_1_alg».proof.Proof.PreDefs

noncomputable section

namespace Cert.Proof.Pre

open Idealize.ShloMosaic Idealize.ShloMosaic.TcCoe Idealize.SL.Sem

variable {F : FTy → Type} [FloatOps F]

/-- The kernel program's host operations before its region, run from W, are its eight groups run in order. -/
theorem kV0_eq (W : KVal F) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24]) W
      = kG8 (kG7 (kG6 (kG5 (kG4 (kG3 (kG2 (kG1 W))))))) := by
  simp only [List.flatten_cons, List.flatten_nil, List.append_nil, after_append]

/-- The reference's host operations, run from W, are its eight groups and then the rest. -/
theorem rOps_eq (W : RVal F) :
    StableHlo.after Cert.ReferenceIdeal.Hand.ops W
      = rRest (rG8 (rG7 (rG6 (rG5 (rG4 (rG3 (rG2 (rG1 W)))))))) := by
  simp only [Cert.ReferenceIdeal.Hand.ops, Cert.ReferenceIdeal.Hand.stretches, List.flatten_cons, List.flatten_nil,
    List.append_nil, after_append]

set_option maxHeartbeats 2000000 in
/-- The reference's operations after the pooling leave the pooled rows as they are. -/
theorem rRest_v129 (W : RVal F) :
    rRest W (Proc.devRef .tc Cert.ReferenceIdeal.main_v129) = W (Proc.devRef .tc Cert.ReferenceIdeal.main_v129) := by
  dsimp only [rRest]
  after_results_simp

end Cert.Proof.Pre

end
-- ==== Proof.PreG1.lean ====
/- Group 1 of the shared host prefix: the first four columns (x1, y1, x2, y2) of the proposals %arg1 scaled by 1/32, the floor of x1 and y1 and the ceiling of x2 and y2 converted to integers, and the four clips: x1 = %v7 = clip (floor x1) 0 29, y1 = %v12 = clip (floor y1) 0 22, roi_w = %v18 = clip (ceil x2 − %v7) 1 30, roi_h = %v24 = clip (ceil y2 − %v12) 1 23. Run from memories that agree on the two arguments, the kernel's program and the reference leave memories that agree on the buffers crossing boundary 2.

What a buffer holds after the group is the composition of the group's operations applied to reads of the starting memory (a buffer the group does not write is still the read itself). The two programs list the same operations over same-named buffers, so the two compositions are one function of the reads; the hypothesis says the reads agree, hence so do the results. -/
import proofs.«162856_j87222195847717_1_alg».proof.Proof.PreDefs

noncomputable section

namespace Cert.Proof.Pre

open Idealize.ShloMosaic Idealize.ShloMosaic.TcCoe Idealize.SL.Sem Idealize.ShloMosaic.StableHlo

/-- Agreement on the arguments is carried to boundary 2 by group 1. -/
theorem grp1 {F : FTy → Type} [FloatOps F] (Wk : KVal F) (Wr : RVal F) (h : In1 Wk Wr) : In2 (kG1 Wk) (rG1 Wr) := by
  obtain ⟨h1, h0⟩ := h
  unfold In2
  refine ⟨?_, ?_, ?_, ?_, ?_⟩
  · -- %v24: its only read is %arg1
    after_results_simp; simp only [h1]; rfl
  · -- %v12
    after_results_simp; simp only [h1]; rfl
  · -- %v18
    after_results_simp; simp only [h1]; rfl
  · -- %v7
    after_results_simp; simp only [h1]; rfl
  · -- %arg0 is not written by the group
    after_results_simp; exact h0

end Cert.Proof.Pre

end
-- ==== Proof.PreG2.lean ====
/- Group 2 of the shared host prefix: the two bin-index iotas ph = %v25 and pw = %v26, the region height roi_h = %v24 broadcast along the seven bins and multiplied by ph, and the floor division of that product by 7 (truncated quotient, the two signs, the remainder, and the select that takes quotient − 1 when the signs differ and the remainder is not zero), giving %v33 = (ph * roi_h) // 7. Run from memories that agree on the buffers crossing boundary 2, the kernel's program and the reference leave memories that agree on the buffers crossing boundary 3.

What a buffer holds after the group is the composition of the group's operations applied to reads of the starting memory (a buffer the group does not write is still the read itself). The two programs list the same operations over same-named buffers, so the two compositions are one function of the reads; the hypothesis says the reads agree, hence so do the results. -/
import proofs.«162856_j87222195847717_1_alg».proof.Proof.PreDefs

noncomputable section

namespace Cert.Proof.Pre

open Idealize.ShloMosaic Idealize.ShloMosaic.TcCoe Idealize.SL.Sem Idealize.ShloMosaic.StableHlo

/-- Agreement on boundary 2 is carried to boundary 3 by group 2. -/
theorem grp2 {F : FTy → Type} [FloatOps F] (Wk : KVal F) (Wr : RVal F) (h : In2 Wk Wr) : In3 (kG2 Wk) (rG2 Wr) := by
  obtain ⟨h24, h12, h18, h7, ha0⟩ := h
  unfold In3
  refine ⟨?_, ?_, ?_, ?_, ?_, ?_, ?_, ?_⟩
  · -- %v12 is not written by the group
    after_results_simp; exact h12
  · -- %v33 = (iota * broadcast %v24) // 7: its only read is %v24
    after_results_simp; simp only [h24]
  · -- %v25 is an iota: no read at all
    after_results_simp
  · after_results_simp; exact h24
  · -- %v26 is an iota
    after_results_simp
  · after_results_simp; exact h18
  · after_results_simp; exact h7
  · after_results_simp; exact ha0

end Cert.Proof.Pre

end
-- ==== Proof.PreG3.lean ====
/- Group 3 of the shared host prefix: the row start of each bin hs = %v36 = broadcast y1 + %v33 (y1 = %v12), the next bin index ph + 1 (ph = %v25) multiplied by the broadcast region height roi_h = %v24, that product plus 7 minus 1, and its floor division by 7, giving %v49 = ((ph + 1) * roi_h + 7 − 1) // 7. Run from memories that agree on the buffers crossing boundary 3, the kernel's program and the reference leave memories that agree on the buffers crossing boundary 4.

What a buffer holds after the group is the composition of the group's operations applied to reads of the starting memory (a buffer the group does not write is still the read itself). The two programs list the same operations over same-named buffers, so the two compositions are one function of the reads; the hypothesis says the reads agree, hence so do the results. -/
import proofs.«162856_j87222195847717_1_alg».proof.Proof.PreDefs

noncomputable section

namespace Cert.Proof.Pre

open Idealize.ShloMosaic Idealize.ShloMosaic.TcCoe Idealize.SL.Sem Idealize.ShloMosaic.StableHlo

/-- Agreement on boundary 3 is carried to boundary 4 by group 3. -/
theorem grp3 {F : FTy → Type} [FloatOps F] (Wk : KVal F) (Wr : RVal F) (h : In3 Wk Wr) : In4 (kG3 Wk) (rG3 Wr) := by
  obtain ⟨h12, h33, h25, h24, h26, h18, h7, ha0⟩ := h
  unfold In4
  refine ⟨?_, ?_, ?_, ?_, ?_, ?_, ?_⟩
  · after_results_simp; exact h12
  · -- %v49 = ((%v25 + 1) * broadcast %v24 + 7 - 1) // 7: it reads %v25 and %v24
    after_results_simp; simp only [h25, h24]
  · after_results_simp; exact h26
  · after_results_simp; exact h18
  · after_results_simp; exact h7
  · -- %v36 = broadcast %v12 + %v33
    after_results_simp; simp only [h12, h33]
  · after_results_simp; exact ha0

end Cert.Proof.Pre

end
-- ==== Proof.PreG4.lean ====
/- Group 4 of the shared host prefix: the row end of each bin he = %v52 = broadcast y1 + %v49 (y1 = %v12), the region width roi_w = %v18 broadcast along the seven bins and multiplied by the bin index pw = %v26, and the floor division of that product by 7, giving %v59 = (pw * roi_w) // 7. Run from memories that agree on the buffers crossing boundary 4, the kernel's program and the reference leave memories that agree on the buffers crossing boundary 5.

What a buffer holds after the group is the composition of the group's operations applied to reads of the starting memory (a buffer the group does not write is still the read itself). The two programs list the same operations over same-named buffers, so the two compositions are one function of the reads; the hypothesis says the reads agree, hence so do the results. -/
import proofs.«162856_j87222195847717_1_alg».proof.Proof.PreDefs

noncomputable section

namespace Cert.Proof.Pre

open Idealize.ShloMosaic Idealize.ShloMosaic.TcCoe Idealize.SL.Sem Idealize.ShloMosaic.StableHlo

/-- Agreement on boundary 4 is carried to boundary 5 by group 4. -/
theorem grp4 {F : FTy → Type} [FloatOps F] (Wk : KVal F) (Wr : RVal F) (h : In4 Wk Wr) : In5 (kG4 Wk) (rG4 Wr) := by
  obtain ⟨h12, h49, h26, h18, h7, h36, ha0⟩ := h
  unfold In5
  refine ⟨?_, ?_, ?_, ?_, ?_, ?_, ?_⟩
  · after_results_simp; exact h7
  · -- %v59 = (broadcast %v26 * broadcast %v18) // 7: it reads %v26 and %v18
    after_results_simp; simp only [h26, h18]
  · after_results_simp; exact h26
  · after_results_simp; exact h18
  · after_results_simp; exact h36
  · -- %v52 = broadcast %v12 + %v49
    after_results_simp; simp only [h12, h49]
  · after_results_simp; exact ha0

end Cert.Proof.Pre

end
-- ==== Proof.PreG5.lean ====
/-
  Group 5 of the shared host prefix: the start row of each pooling bin (the roi's first row broadcast
  along the seven bins and added to the bin offsets), then the bin end offsets: the bin number plus one,
  times the roi height, plus seven, minus one, floor-divided by seven (the floor division written out as
  truncating division, signs, remainder and a select).

  Both programs run the same operations, in the same order, over buffers of the same names. Each buffer
  that leaves the group is therefore the same composed function of the buffers that enter it: reading the
  fold of each program back to that composed term and replacing the kernel program's entry reads by the
  reference's (they are equal by hypothesis) leaves two terms that differ only in the spelling of shapes
  and of side-condition proofs, which are definitionally equal. A buffer the group does not write is read
  unchanged and the hypothesis closes it. No operation is opened: the argument is generic in the float
  model.
-/
import proofs.«162856_j87222195847717_1_alg».proof.Proof.PreDefs

noncomputable section

namespace Cert.Proof.Pre

open Idealize.ShloMosaic Idealize.ShloMosaic.TcCoe Idealize.SL.Sem Idealize.ShloMosaic.StableHlo

set_option maxHeartbeats 2000000 in
/-- If the two memories agree on the buffers entering group 5, then after group 5 they agree on the
    buffers entering group 6: the bin start rows `%v62` and the floor-divided bin ends `%v75` (composed
    terms of equal inputs), and `%v7`, `%v36`, `%v52`, `%arg0` (untouched). -/
theorem grp5 {F : FTy → Type} [FloatOps F] (Wk : KVal F) (Wr : RVal F) (h : In5 Wk Wr) : In6 (kG5 Wk) (rG5 Wr) := by
  obtain ⟨h1, h2, h3, h4, h5, h6, h7⟩ := h
  unfold In6
  refine ⟨?_, ?_, ?_, ?_, ?_, ?_⟩
  · -- %v7: not written by the group
    after_results_simp; exact h1
  · -- %v75: the same composed term over %v26 and %v18
    after_results_simp
    simp only [h3, h4]
  · -- %v36: not written by the group
    after_results_simp; exact h5
  · -- %v52: not written by the group
    after_results_simp; exact h6
  · -- %v62: the same composed term over %v7 and %v59
    after_results_simp
    simp only [h1, h2]
  · -- %arg0: not written by the group
    after_results_simp; exact h7

end Cert.Proof.Pre
-- ==== Proof.PreG6.lean ====
/-
  Group 6 of the shared host prefix: the end row of each pooling bin, then the sampled positions and
  their validity masks: along the rows, five consecutive positions from each bin's start (an iota
  broadcast and added), valid where below the bin's end and below 23; along the columns, six consecutive
  positions, valid where below the bin's end and below 30; and the two bounds of the next clip.

  Both programs run the same operations, in the same order, over buffers of the same names. Each buffer
  that leaves the group is therefore the same composed function of the buffers that enter it: reading the
  fold of each program back to that composed term and replacing the kernel program's entry reads by the
  reference's (they are equal by hypothesis) leaves two terms that differ only in the spelling of shapes
  and of side-condition proofs, which are definitionally equal. A buffer the group does not write is read
  unchanged and the hypothesis closes it. No operation is opened: the argument is generic in the float
  model.
-/
import proofs.«162856_j87222195847717_1_alg».proof.Proof.PreDefs

noncomputable section

namespace Cert.Proof.Pre

open Idealize.ShloMosaic Idealize.ShloMosaic.TcCoe Idealize.SL.Sem Idealize.ShloMosaic.StableHlo

set_option maxHeartbeats 2000000 in
/-- If the two memories agree on the buffers entering group 6, then after group 6 they agree on the
    buffers entering group 7: the clip bounds `%c_19`, `%c_20` (constants written here), the sampled
    positions `%v86`, `%v100` and their masks `%v92`, `%v106` (composed terms of equal inputs), and
    `%arg0` (untouched). -/
theorem grp6 {F : FTy → Type} [FloatOps F] (Wk : KVal F) (Wr : RVal F) (h : In6 Wk Wr) : In7 (kG6 Wk) (rG6 Wr) := by
  obtain ⟨h1, h2, h3, h4, h5, h6⟩ := h
  unfold In7
  refine ⟨?_, ?_, ?_, ?_, ?_, ?_, ?_⟩
  · -- %c_19: the same constant on both sides
    after_results_simp
  · -- %v86: the same composed term over %v36
    after_results_simp
    simp only [h3]
  · -- %c_20: the same constant on both sides
    after_results_simp
  · -- %arg0: not written by the group
    after_results_simp; exact h6
  · -- %v92: the same composed term over %v36 and %v52
    after_results_simp
    simp only [h3, h4]
  · -- %v100: the same composed term over %v62
    after_results_simp
    simp only [h5]
  · -- %v106: the same composed term over %v7, %v75 and %v62
    after_results_simp
    simp only [h1, h2, h5]

end Cert.Proof.Pre
-- ==== Proof.PreG7.lean ====
/-
  Group 7 of the shared host prefix: the column clip, the wrap of negative column indices, the gather of
  the feature rows at those indices, the masking select against the large negative fill and the maximum
  over the five sampled columns, followed by the two bounds of the next clip.

  Both programs run the same operations, in the same order, over buffers of the same names. Each buffer
  that leaves the group is therefore the same composed function of the buffers that enter it: reading the
  fold of each program back to that composed term and replacing the kernel program's entry reads by the
  reference's (they are equal by hypothesis) leaves two terms that differ only in the spelling of shapes
  and of side-condition proofs, which are definitionally equal. A buffer the group does not write is read
  unchanged and the hypothesis closes it. No operation is opened: the argument is generic in the float
  model.
-/
import proofs.«162856_j87222195847717_1_alg».proof.Proof.PreDefs

noncomputable section

namespace Cert.Proof.Pre

open Idealize.ShloMosaic Idealize.ShloMosaic.TcCoe Idealize.SL.Sem Idealize.ShloMosaic.StableHlo

set_option maxHeartbeats 2000000 in
/-- If the two memories agree on the buffers entering group 7, then after group 7 they agree on the
    buffers entering group 8: the clip bounds `%c_25`, `%c_26` (constants written here), the pooled rows
    `%v117` (the composed gather / select / max-reduce of equal inputs), and `%v100`, `%v106` (untouched). -/
theorem grp7 {F : FTy → Type} [FloatOps F] (Wk : KVal F) (Wr : RVal F) (h : In7 Wk Wr) : In8 (kG7 Wk) (rG7 Wr) := by
  obtain ⟨h1, h2, h3, h4, h5, h6, h7⟩ := h
  unfold In8
  refine ⟨?_, ?_, ?_, ?_, ?_⟩
  · -- %c_25: the same constant on both sides
    after_results_simp
  · -- %v100: not written by the group
    after_results_simp; exact h6
  · -- %c_26: the same constant on both sides
    after_results_simp
  · -- %v117: the same composed term over %c_19, %v86, %c_20, %arg0, %v92
    after_results_simp
    simp only [h1, h2, h3, h4, h5]
    rfl
  · -- %v106: not written by the group
    after_results_simp; exact h7

end Cert.Proof.Pre
-- ==== Proof.PreG8.lean ====
/-
  Group 8 of the shared host prefix: the row clip, the wrap of negative row indices, the gather of the
  column-pooled rows at those indices, the masking select against the large negative fill, the maximum
  over the six sampled rows, and the reshape of the pooled 7 x 7 bins of 256 channels to one axis of
  12544. (Each program goes on, within the same stretch, with operations of its own that do not write
  the pooled buffer.)

  Both programs run the same operations, in the same order, over buffers of the same names. Each buffer
  that leaves the group is therefore the same composed function of the buffers that enter it: reading the
  fold of each program back to that composed term and replacing the kernel program's entry reads by the
  reference's (they are equal by hypothesis) leaves two terms that differ only in the spelling of shapes
  and of side-condition proofs, which are definitionally equal. A buffer the group does not write is read
  unchanged and the hypothesis closes it. No operation is opened: the argument is generic in the float
  model.
-/
import proofs.«162856_j87222195847717_1_alg».proof.Proof.PreDefs

noncomputable section

namespace Cert.Proof.Pre

open Idealize.ShloMosaic Idealize.ShloMosaic.TcCoe Idealize.SL.Sem Idealize.ShloMosaic.StableHlo

set_option maxHeartbeats 2000000 in
/-- If the two memories agree on the buffers entering group 8, then after group 8 they agree on the
    pooled features `%v129`: on both sides it is the same composed term (clip, wrap, gather, select,
    max-reduce, reshape) over `%c_25`, `%v100`, `%c_26`, `%v117`, `%v106`, and no later operation of the
    group writes it. -/
theorem grp8 {F : FTy → Type} [FloatOps F] (Wk : KVal F) (Wr : RVal F) (h : In8 Wk Wr) : In9 (kG8 Wk) (rG8 Wr) := by
  obtain ⟨h1, h2, h3, h4, h5⟩ := h
  unfold In9
  after_results_simp
  simp only [h1, h2, h3, h4, h5]
  rfl

end Cert.Proof.Pre
-- ==== Proof.PreChain.lean ====
/-
  The pooled rows are the same in the two programs.

  Run from memories that agree on the two arguments the pooling reads (the features and the proposals), the two programs'
  host prefixes leave memories that agree on the buffers crossing each group boundary (PreG1 … PreG8, one group each);
  composed, they agree on the pooled rows, buffer %129, which is what the kernel program's region finds and what the
  reference's final memory still holds.
-/
import proofs.«162856_j87222195847717_1_alg».proof.Proof.PreFold
import proofs.«162856_j87222195847717_1_alg».proof.Proof.PreG1
import proofs.«162856_j87222195847717_1_alg».proof.Proof.PreG2
import proofs.«162856_j87222195847717_1_alg».proof.Proof.PreG3
import proofs.«162856_j87222195847717_1_alg».proof.Proof.PreG4
import proofs.«162856_j87222195847717_1_alg».proof.Proof.PreG5
import proofs.«162856_j87222195847717_1_alg».proof.Proof.PreG6
import proofs.«162856_j87222195847717_1_alg».proof.Proof.PreG7
import proofs.«162856_j87222195847717_1_alg».proof.Proof.PreG8

noncomputable section

namespace Cert.Proof.Pre

open Idealize.ShloMosaic Idealize.ShloMosaic.TcCoe Idealize.SL.Sem

variable {F : FTy → Type} [FloatOps F]

/-- Agreement on the arguments at the start gives agreement on the pooled rows after the eight groups. -/
theorem prefix_chain (Wk : KVal F) (Wr : RVal F) (h : In1 Wk Wr) :
    In9 (kG8 (kG7 (kG6 (kG5 (kG4 (kG3 (kG2 (kG1 Wk)))))))) (rG8 (rG7 (rG6 (rG5 (rG4 (rG3 (rG2 (rG1 Wr)))))))) :=
  grp8 _ _ (grp7 _ _ (grp6 _ _ (grp5 _ _ (grp4 _ _ (grp3 _ _ (grp2 _ _ (grp1 Wk Wr h)))))))

/-- The pooled rows the kernel program's region finds are the pooled rows in the reference's final memory. -/
theorem prefix_eq (Wk : KVal F) (Wr : RVal F) (h : In1 Wk Wr) :
    @Eq ((⟨Cert.KernelIdeal.S4x128x12544, .f32⟩ : BufTy).Contents (Elt F))
      (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24]) Wk (Proc.devRef .tc Cert.KernelIdeal.main_v129))
      (StableHlo.after Cert.ReferenceIdeal.Hand.ops Wr (Proc.devRef .tc Cert.ReferenceIdeal.main_v129)) := by
  rw [kV0_eq, rOps_eq, rRest_v129]
  exact prefix_chain Wk Wr h

end Cert.Proof.Pre

end
-- ==== Proof.lean ====
/-
  The certificate of the ROI-pooling regression head: a Pallas kernel for the two-layer head (a bf16 matrix product with
  f32 accumulation, bias, cut at zero, a second product, bias, the proposal added, the confidence column through the
  logistic function), with the pooling itself in plain jax before it, against the same computation in plain jax.

  On the extended reals both programs compute `Cert.Spec.head` (Spec.lean) of the pooled rows and the parameter arrays:
  a change of float format is the identity there, the kernel's products into a zero accumulator and the reference's
  contractions are the same finite sums, and the kernel's logistic operation is the reference's `1 / (1 + exp (-x))`
  by definition.  The pooled rows are computed by the same host operations in both programs (PreChain.lean).  So the
  two results are one function of arguments that agree; no finiteness is used.  The frames of the two kernel programs
  are the generated frame certificates; the reference's frame is its run read back (RefRun.lean) with no operation
  writing an argument (RefTail).  The idealization rewrote nothing, so `preserves` is `True`.
-/
import proofs.«162856_j87222195847717_1_alg».proof.Defs
import proofs.«162856_j87222195847717_1_alg».proof.Proof.Gen.Kernel
import proofs.«162856_j87222195847717_1_alg».proof.Proof.Gen.Kernel.Frame
import proofs.«162856_j87222195847717_1_alg».proof.Proof.Gen.KernelIdeal
import proofs.«162856_j87222195847717_1_alg».proof.Proof.Gen.KernelIdeal.Frame
import proofs.«162856_j87222195847717_1_alg».proof.Proof.Gen.ReferenceIdeal
import proofs.«162856_j87222195847717_1_alg».proof.Proof.Gen.Pre_finite_inputs
import proofs.«162856_j87222195847717_1_alg».proof.Proof.KRun
import proofs.«162856_j87222195847717_1_alg».proof.Proof.RefRun
import proofs.«162856_j87222195847717_1_alg».proof.Proof.RefTail
import proofs.«162856_j87222195847717_1_alg».proof.Proof.PreChain

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and no operation of it writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    have k := Cert.ReferenceIdeal.Hand.rd_arg_kept (F := Ideal) (StableHlo.launchContents m c)
    ⟨(h c _).trans k.1, (h c _).trans k.2.1, (h c _).trans k.2.2.1, (h c _).trans k.2.2.2.1, (h c _).trans k.2.2.2.2.1,
      (h c _).trans k.2.2.2.2.2⟩)
    (Cert.ReferenceIdeal.Hand.run_raw (F := Ideal) m ρ)

/-- Both idealized programs end at the head of the same pooled rows and the same parameter arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.head (Cert.KernelIdeal.Gen.V m c Cert.KernelIdeal.main_v129)
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ?_) (Cert.ReferenceIdeal.Hand.run_raw (F := Ideal) m' ρ')
  have k := Cert.ReferenceIdeal.Hand.rd_arg_kept (F := Ideal) (StableHlo.launchContents m' c)
  refine ⟨?_, (h c _).trans k.1, (h c _).trans k.2.1, (h c _).trans k.2.2.1, (h c _).trans k.2.2.2.1, (h c _).trans k.2.2.2.2.1,
    (h c _).trans k.2.2.2.2.2⟩
  have hp := Cert.Proof.Pre.prefix_eq (F := Ideal) (fun b => m (c, b)) (StableHlo.launchContents m' c)
    ⟨(hagree c).2.1.symm, (hagree c).1.symm⟩
  refine ((h c _).trans (Cert.ReferenceIdeal.Hand.rd_tail_value (StableHlo.launchContents m' c))).trans ?_
  rw [← hp]
  have e1 : @Eq (FVec Ideal Cert.Spec.SR .f32) (StableHlo.launchContents m' c (Proc.devRef .tc Cert.ReferenceIdeal.main_arg1)) (m ((c.tc : Thread Cert.KernelIdeal.nD Cert.KernelIdeal.τ).loc Cert.KernelIdeal.main_arg1)) := (hagree c).2.1
  have e2 : @Eq (FVec Ideal Cert.Spec.SW1 .f32) (StableHlo.launchContents m' c (Proc.devRef .tc Cert.ReferenceIdeal.main_arg2)) (m ((c.tc : Thread Cert.KernelIdeal.nD Cert.KernelIdeal.τ).loc Cert.KernelIdeal.main_arg2)) := (hagree c).2.2.1
  have e3 : @Eq (FVec Ideal Cert.Spec.Sb1 .f32) (StableHlo.launchContents m' c (Proc.devRef .tc Cert.ReferenceIdeal.main_arg3)) (m ((c.tc : Thread Cert.KernelIdeal.nD Cert.KernelIdeal.τ).loc Cert.KernelIdeal.main_arg3)) := (hagree c).2.2.2.1
  have e4 : @Eq (FVec Ideal Cert.Spec.SW2 .f32) (StableHlo.launchContents m' c (Proc.devRef .tc Cert.ReferenceIdeal.main_arg4)) (m ((c.tc : Thread Cert.KernelIdeal.nD Cert.KernelIdeal.τ).loc Cert.KernelIdeal.main_arg4)) := (hagree c).2.2.2.2.1
  have e5 : @Eq (FVec Ideal Cert.Spec.Sb2 .f32) (StableHlo.launchContents m' c (Proc.devRef .tc Cert.ReferenceIdeal.main_arg5)) (m ((c.tc : Thread Cert.KernelIdeal.nD Cert.KernelIdeal.τ).loc Cert.KernelIdeal.main_arg5)) := (hagree c).2.2.2.2.2
  rw [e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
